-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17)) (m ((c.tc : Thread Cert.Kernel.nD Cert.Kernel.τ).loc Cert.Kernel.main_arg18)) (m ((c.tc : Thread Cert.Kernel.nD Cert.Kernel.τ).loc Cert.Kernel.main_arg19)) (m ((c.tc : Thread Cert.Kernel.nD Cert.Kernel.τ).loc Cert.Kernel.main_arg20)) (m ((c.tc : Thread Cert.Kernel.nD Cert.Kernel.τ).loc Cert.Kernel.main_arg21))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20)) (m ((c.tc : Thread Cert.ReferenceIdeal.nD Cert.ReferenceIdeal.τ).loc Cert.ReferenceIdeal.main_arg21))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18)
      ∧ r.2.mem ((c.tc : Thread Cert.Kernel.nD Cert.Kernel.τ).loc Cert.Kernel.main_arg19) = m ((c.tc : Thread Cert.Kernel.nD Cert.Kernel.τ).loc Cert.Kernel.main_arg19)
      ∧ r.2.mem ((c.tc : Thread Cert.Kernel.nD Cert.Kernel.τ).loc Cert.Kernel.main_arg20) = m ((c.tc : Thread Cert.Kernel.nD Cert.Kernel.τ).loc Cert.Kernel.main_arg20)
      ∧ r.2.mem ((c.tc : Thread Cert.Kernel.nD Cert.Kernel.τ).loc Cert.Kernel.main_arg21) = m ((c.tc : Thread Cert.Kernel.nD Cert.Kernel.τ).loc Cert.Kernel.main_arg21))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
      ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
      ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19)
      ∧ r.2.mem ((c.tc : Thread Cert.ReferenceIdeal.nD Cert.ReferenceIdeal.τ).loc Cert.ReferenceIdeal.main_arg20) = m ((c.tc : Thread Cert.ReferenceIdeal.nD Cert.ReferenceIdeal.τ).loc Cert.ReferenceIdeal.main_arg20)
      ∧ r.2.mem ((c.tc : Thread Cert.ReferenceIdeal.nD Cert.ReferenceIdeal.τ).loc Cert.ReferenceIdeal.main_arg21) = m ((c.tc : Thread Cert.ReferenceIdeal.nD Cert.ReferenceIdeal.τ).loc Cert.ReferenceIdeal.main_arg21))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)
      ∧ m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19)
      ∧ m' ((c.tc : Thread Cert.ReferenceIdeal.nD Cert.ReferenceIdeal.τ).loc Cert.ReferenceIdeal.main_arg20) = m ((c.tc : Thread Cert.KernelIdeal.nD Cert.KernelIdeal.τ).loc Cert.KernelIdeal.main_arg20)
      ∧ m' ((c.tc : Thread Cert.ReferenceIdeal.nD Cert.ReferenceIdeal.τ).loc Cert.ReferenceIdeal.main_arg21) = m ((c.tc : Thread Cert.KernelIdeal.nD Cert.KernelIdeal.τ).loc Cert.KernelIdeal.main_arg21)) →
    ∃ (v0 : (c : Dev Cert.KernelIdeal.nD) → Buf (Elt Ideal) ((c.tc : Thread Cert.KernelIdeal.nD Cert.KernelIdeal.τ).loc Cert.KernelIdeal.main_v0_0)) (v1 : (c : Dev Cert.KernelIdeal.nD) → Buf (Elt Ideal) ((c.tc : Thread Cert.KernelIdeal.nD Cert.KernelIdeal.τ).loc Cert.KernelIdeal.main_v0_1)) (v2 : (c : Dev Cert.KernelIdeal.nD) → Buf (Elt Ideal) ((c.tc : Thread Cert.KernelIdeal.nD Cert.KernelIdeal.τ).loc Cert.KernelIdeal.main_v0_2)) (v3 : (c : Dev Cert.KernelIdeal.nD) → Buf (Elt Ideal) ((c.tc : Thread Cert.KernelIdeal.nD Cert.KernelIdeal.τ).loc Cert.KernelIdeal.main_v0_3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0_0) = v0 c
          ∧ r.2.mem ((c.tc : Thread Cert.KernelIdeal.nD Cert.KernelIdeal.τ).loc Cert.KernelIdeal.main_v0_1) = v1 c
          ∧ r.2.mem ((c.tc : Thread Cert.KernelIdeal.nD Cert.KernelIdeal.τ).loc Cert.KernelIdeal.main_v0_2) = v2 c
          ∧ r.2.mem ((c.tc : Thread Cert.KernelIdeal.nD Cert.KernelIdeal.τ).loc Cert.KernelIdeal.main_v0_3) = v3 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
          ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
          ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
          ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v61) = v0 c
          ∧ r.2.mem ((c.tc : Thread Cert.ReferenceIdeal.nD Cert.ReferenceIdeal.τ).loc Cert.ReferenceIdeal.main_v37) = v1 c
          ∧ r.2.mem ((c.tc : Thread Cert.ReferenceIdeal.nD Cert.ReferenceIdeal.τ).loc Cert.ReferenceIdeal.main_v70) = v2 c
          ∧ r.2.mem ((c.tc : Thread Cert.ReferenceIdeal.nD Cert.ReferenceIdeal.τ).loc Cert.ReferenceIdeal.main_v50) = v3 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18)
          ∧ r.2.mem ((c.tc : Thread Cert.ReferenceIdeal.nD Cert.ReferenceIdeal.τ).loc Cert.ReferenceIdeal.main_arg19) = m' ((c.tc : Thread Cert.ReferenceIdeal.nD Cert.ReferenceIdeal.τ).loc Cert.ReferenceIdeal.main_arg19)
          ∧ r.2.mem ((c.tc : Thread Cert.ReferenceIdeal.nD Cert.ReferenceIdeal.τ).loc Cert.ReferenceIdeal.main_arg20) = m' ((c.tc : Thread Cert.ReferenceIdeal.nD Cert.ReferenceIdeal.τ).loc Cert.ReferenceIdeal.main_arg20)
          ∧ r.2.mem ((c.tc : Thread Cert.ReferenceIdeal.nD Cert.ReferenceIdeal.τ).loc Cert.ReferenceIdeal.main_arg21) = m' ((c.tc : Thread Cert.ReferenceIdeal.nD Cert.ReferenceIdeal.τ).loc Cert.ReferenceIdeal.main_arg21))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S256x64x512 : Shape := ⟨3, ![256, 64, 512]⟩
abbrev S256x64x1024 : Shape := ⟨3, ![256, 64, 1024]⟩
abbrev S256x64x1 : Shape := ⟨3, ![256, 64, 1]⟩
abbrev S1024x1024 : Shape := ⟨2, ![1024, 1024]⟩
abbrev S1024 : Shape := ⟨1, ![1024]⟩
abbrev S1024x512 : Shape := ⟨2, ![1024, 512]⟩
abbrev S_ : Shape := ⟨0, ![]⟩

class Facts : Prop where
  bcast_S_S256x64x512 : S_.BroadcastsInDim S256x64x512 (![] : Fin 0 → Fin S256x64x512.rank)
  reducesTo_S256x64x512_S_d0_1_2 : S256x64x512.ReducesTo [0, 1, 2] S_
  h_S_ : 0 < S_.numel
  bcast_S_S256x64x1024 : S_.BroadcastsInDim S256x64x1024 (![] : Fin 0 → Fin S256x64x1024.rank)
  reducesTo_S256x64x1024_S_d0_1_2 : S256x64x1024.ReducesTo [0, 1, 2] S_
  bcast_S_S256x64x1 : S_.BroadcastsInDim S256x64x1 (![] : Fin 0 → Fin S256x64x1.rank)
  reducesTo_S256x64x1_S_d0_1_2 : S256x64x1.ReducesTo [0, 1, 2] S_
  bcast_S_S1024x1024 : S_.BroadcastsInDim S1024x1024 (![] : Fin 0 → Fin S1024x1024.rank)
  reducesTo_S1024x1024_S_d0_1 : S1024x1024.ReducesTo [0, 1] S_
  bcast_S_S1024 : S_.BroadcastsInDim S1024 (![] : Fin 0 → Fin S1024.rank)
  reducesTo_S1024_S_d0 : S1024.ReducesTo [0] S_
  bcast_S_S1024x512 : S_.BroadcastsInDim S1024x512 (![] : Fin 0 → Fin S1024x512.rank)
  reducesTo_S1024x512_S_d0_1 : S1024x512.ReducesTo [0, 1] S_

variable [Facts]

def fn_part6 {F : FTy → Type} [FloatOps F] (main_arg21 : FVec F S1024 .f32) (main_v98 : IVec S_ 1) (main_v101 : IVec S1024x512 1) (main_c_39 : IVec S_ 1) : IVec S_ 1 :=
  let main_v102 : IVec S_ 1 := (fun x v => Host.reduce IntOp.andi x v reducesTo_S1024x512_S_d0_1 h_S_) main_v101 main_c_39
  let main_v103 : IVec S_ 1 := andi main_v98 main_v102
  let main_v104 : FVec F S1024 .f32 := Host.absf main_arg21
  let main_cst_40 : FVec F S_ .f32 := constant S_ .f32 0x7F800000#32
  let main_v105 : FVec F S1024 .f32 := broadcastInDim S1024 ![] bcast_S_S1024 main_cst_40
  let main_v106 : IVec S1024 1 := cmpf .olt main_v104 main_v105
  let main_c_41 : IVec S_ 1 := constantI S_ 1 1#1
  let main_v107 : IVec S_ 1 := (fun x v => Host.reduce IntOp.andi x v reducesTo_S1024_S_d0 h_S_) main_v106 main_c_41
  let main_v108 : IVec S_ 1 := andi main_v103 main_v107
  main_v108

def fn_part5 {F : FTy → Type} [FloatOps F] (main_arg18 : FVec F S1024x512 .f32) (main_arg19 : FVec F S1024 .f32) (main_arg20 : FVec F S1024x512 .f32) (main_arg21 : FVec F S1024 .f32) (main_v83 : IVec S_ 1) (main_v84 : FVec F S1024 .f32) (main_cst_32 : FVec F S_ .f32) : IVec S_ 1 :=
  let main_v85 : FVec F S1024 .f32 := broadcastInDim S1024 ![] bcast_S_S1024 main_cst_32
  let main_v86 : IVec S1024 1 := cmpf .olt main_v84 main_v85
  let main_c_33 : IVec S_ 1 := constantI S_ 1 1#1
  let main_v87 : IVec S_ 1 := (fun x v => Host.reduce IntOp.andi x v reducesTo_S1024_S_d0 h_S_) main_v86 main_c_33
  let main_v88 : IVec S_ 1 := andi main_v83 main_v87
  let main_v89 : FVec F S1024x512 .f32 := Host.absf main_arg18
  let main_cst_34 : FVec F S_ .f32 := constant S_ .f32 0x7F800000#32
  let main_v90 : FVec F S1024x512 .f32 := broadcastInDim S1024x512 ![] bcast_S_S1024x512 main_cst_34
  let main_v91 : IVec S1024x512 1 := cmpf .olt main_v89 main_v90
  let main_c_35 : IVec S_ 1 := constantI S_ 1 1#1
  let main_v92 : IVec S_ 1 := (fun x v => Host.reduce IntOp.andi x v reducesTo_S1024x512_S_d0_1 h_S_) main_v91 main_c_35
  let main_v93 : IVec S_ 1 := andi main_v88 main_v92
  let main_v94 : FVec F S1024 .f32 := Host.absf main_arg19
  let main_cst_36 : FVec F S_ .f32 := constant S_ .f32 0x7F800000#32
  let main_v95 : FVec F S1024 .f32 := broadcastInDim S1024 ![] bcast_S_S1024 main_cst_36
  let main_v96 : IVec S1024 1 := cmpf .olt main_v94 main_v95
  let main_c_37 : IVec S_ 1 := constantI S_ 1 1#1
  let main_v97 : IVec S_ 1 := (fun x v => Host.reduce IntOp.andi x v reducesTo_S1024_S_d0 h_S_) main_v96 main_c_37
  let main_v98 : IVec S_ 1 := andi main_v93 main_v97
  let main_v99 : FVec F S1024x512 .f32 := Host.absf main_arg20
  let main_cst_38 : FVec F S_ .f32 := constant S_ .f32 0x7F800000#32
  let main_v100 : FVec F S1024x512 .f32 := broadcastInDim S1024x512 ![] bcast_S_S1024x512 main_cst_38
  let main_v101 : IVec S1024x512 1 := cmpf .olt main_v99 main_v100
  let main_c_39 : IVec S_ 1 := constantI S_ 1 1#1
  fn_part6 (F := F) main_arg21 main_v98 main_v101 main_c_39

def fn_part4 {F : FTy → Type} [FloatOps F] (main_arg14 : FVec F S1024x512 .f32) (main_arg15 : FVec F S1024 .f32) (main_arg16 : FVec F S1024x512 .f32) (main_arg17 : FVec F S1024 .f32) (main_arg18 : FVec F S1024x512 .f32) (main_arg19 : FVec F S1024 .f32) (main_arg20 : FVec F S1024x512 .f32) (main_arg21 : FVec F S1024 .f32) (main_v63 : IVec S_ 1) (main_v67 : IVec S_ 1) : IVec S_ 1 :=
  let main_v68 : IVec S_ 1 := andi main_v63 main_v67
  let main_v69 : FVec F S1024x512 .f32 := Host.absf main_arg14
  let main_cst_26 : FVec F S_ .f32 := constant S_ .f32 0x7F800000#32
  let main_v70 : FVec F S1024x512 .f32 := broadcastInDim S1024x512 ![] bcast_S_S1024x512 main_cst_26
  let main_v71 : IVec S1024x512 1 := cmpf .olt main_v69 main_v70
  let main_c_27 : IVec S_ 1 := constantI S_ 1 1#1
  let main_v72 : IVec S_ 1 := (fun x v => Host.reduce IntOp.andi x v reducesTo_S1024x512_S_d0_1 h_S_) main_v71 main_c_27
  let main_v73 : IVec S_ 1 := andi main_v68 main_v72
  let main_v74 : FVec F S1024 .f32 := Host.absf main_arg15
  let main_cst_28 : FVec F S_ .f32 := constant S_ .f32 0x7F800000#32
  let main_v75 : FVec F S1024 .f32 := broadcastInDim S1024 ![] bcast_S_S1024 main_cst_28
  let main_v76 : IVec S1024 1 := cmpf .olt main_v74 main_v75
  let main_c_29 : IVec S_ 1 := constantI S_ 1 1#1
  let main_v77 : IVec S_ 1 := (fun x v => Host.reduce IntOp.andi x v reducesTo_S1024_S_d0 h_S_) main_v76 main_c_29
  let main_v78 : IVec S_ 1 := andi main_v73 main_v77
  let main_v79 : FVec F S1024x512 .f32 := Host.absf main_arg16
  let main_cst_30 : FVec F S_ .f32 := constant S_ .f32 0x7F800000#32
  let main_v80 : FVec F S1024x512 .f32 := broadcastInDim S1024x512 ![] bcast_S_S1024x512 main_cst_30
  let main_v81 : IVec S1024x512 1 := cmpf .olt main_v79 main_v80
  let main_c_31 : IVec S_ 1 := constantI S_ 1 1#1
  let main_v82 : IVec S_ 1 := (fun x v => Host.reduce IntOp.andi x v reducesTo_S1024x512_S_d0_1 h_S_) main_v81 main_c_31
  let main_v83 : IVec S_ 1 := andi main_v78 main_v82
  let main_v84 : FVec F S1024 .f32 := Host.absf main_arg17
  let main_cst_32 : FVec F S_ .f32 := constant S_ .f32 0x7F800000#32
  fn_part5 (F := F) main_arg18 main_arg19 main_arg20 main_arg21 main_v83 main_v84 main_cst_32

def fn_part3 {F : FTy → Type} [FloatOps F] (main_arg11 : FVec F S1024 .f32) (main_arg12 : FVec F S1024x1024 .f32) (main_arg13 : FVec F S1024 .f32) (main_arg14 : FVec F S1024x512 .f32) (main_arg15 : FVec F S1024 .f32) (main_arg16 : FVec F S1024x512 .f32) (main_arg17 : FVec F S1024 .f32) (main_arg18 : FVec F S1024x512 .f32) (main_arg19 : FVec F S1024 .f32) (main_arg20 : FVec F S1024x512 .f32) (main_arg21 : FVec F S1024 .f32) (main_v48 : IVec S_ 1) (main_v49 : FVec F S1024x1024 .f32) (main_v50 : FVec F S1024x1024 .f32) : IVec S_ 1 :=
  let main_v51 : IVec S1024x1024 1 := cmpf .olt main_v49 main_v50
  let main_c_19 : IVec S_ 1 := constantI S_ 1 1#1
  let main_v52 : IVec S_ 1 := (fun x v => Host.reduce IntOp.andi x v reducesTo_S1024x1024_S_d0_1 h_S_) main_v51 main_c_19
  let main_v53 : IVec S_ 1 := andi main_v48 main_v52
  let main_v54 : FVec F S1024 .f32 := Host.absf main_arg11
  let main_cst_20 : FVec F S_ .f32 := constant S_ .f32 0x7F800000#32
  let main_v55 : FVec F S1024 .f32 := broadcastInDim S1024 ![] bcast_S_S1024 main_cst_20
  let main_v56 : IVec S1024 1 := cmpf .olt main_v54 main_v55
  let main_c_21 : IVec S_ 1 := constantI S_ 1 1#1
  let main_v57 : IVec S_ 1 := (fun x v => Host.reduce IntOp.andi x v reducesTo_S1024_S_d0 h_S_) main_v56 main_c_21
  let main_v58 : IVec S_ 1 := andi main_v53 main_v57
  let main_v59 : FVec F S1024x1024 .f32 := Host.absf main_arg12
  let main_cst_22 : FVec F S_ .f32 := constant S_ .f32 0x7F800000#32
  let main_v60 : FVec F S1024x1024 .f32 := broadcastInDim S1024x1024 ![] bcast_S_S1024x1024 main_cst_22
  let main_v61 : IVec S1024x1024 1 := cmpf .olt main_v59 main_v60
  let main_c_23 : IVec S_ 1 := constantI S_ 1 1#1
  let main_v62 : IVec S_ 1 := (fun x v => Host.reduce IntOp.andi x v reducesTo_S1024x1024_S_d0_1 h_S_) main_v61 main_c_23
  let main_v63 : IVec S_ 1 := andi main_v58 main_v62
  let main_v64 : FVec F S1024 .f32 := Host.absf main_arg13
  let main_cst_24 : FVec F S_ .f32 := constant S_ .f32 0x7F800000#32
  let main_v65 : FVec F S1024 .f32 := broadcastInDim S1024 ![] bcast_S_S1024 main_cst_24
  let main_v66 : IVec S1024 1 := cmpf .olt main_v64 main_v65
  let main_c_25 : IVec S_ 1 := constantI S_ 1 1#1
  let main_v67 : IVec S_ 1 := (fun x v => Host.reduce IntOp.andi x v reducesTo_S1024_S_d0 h_S_) main_v66 main_c_25
  fn_part4 (F := F) main_arg14 main_arg15 main_arg16 main_arg17 main_arg18 main_arg19 main_arg20 main_arg21 main_v63 main_v67

def fn_part2 {F : FTy → Type} [FloatOps F] (main_arg7 : FVec F S1024 .f32) (main_arg8 : FVec F S1024x1024 .f32) (main_arg9 : FVec F S1024 .f32) (main_arg10 : FVec F S1024x1024 .f32) (main_arg11 : FVec F S1024 .f32) (main_arg12 : FVec F S1024x1024 .f32) (main_arg13 : FVec F S1024 .f32) (main_arg14 : FVec F S1024x512 .f32) (main_arg15 : FVec F S1024 .f32) (main_arg16 : FVec F S1024x512 .f32) (main_arg17 : FVec F S1024 .f32) (main_arg18 : FVec F S1024x512 .f32) (main_arg19 : FVec F S1024 .f32) (main_arg20 : FVec F S1024x512 .f32) (main_arg21 : FVec F S1024 .f32) (main_v33 : IVec S_ 1) : IVec S_ 1 :=
  let main_v34 : FVec F S1024 .f32 := Host.absf main_arg7
  let main_cst_12 : FVec F S_ .f32 := constant S_ .f32 0x7F800000#32
  let main_v35 : FVec F S1024 .f32 := broadcastInDim S1024 ![] bcast_S_S1024 main_cst_12
  let main_v36 : IVec S1024 1 := cmpf .olt main_v34 main_v35
  let main_c_13 : IVec S_ 1 := constantI S_ 1 1#1
  let main_v37 : IVec S_ 1 := (fun x v => Host.reduce IntOp.andi x v reducesTo_S1024_S_d0 h_S_) main_v36 main_c_13
  let main_v38 : IVec S_ 1 := andi main_v33 main_v37
  let main_v39 : FVec F S1024x1024 .f32 := Host.absf main_arg8
  let main_cst_14 : FVec F S_ .f32 := constant S_ .f32 0x7F800000#32
  let main_v40 : FVec F S1024x1024 .f32 := broadcastInDim S1024x1024 ![] bcast_S_S1024x1024 main_cst_14
  let main_v41 : IVec S1024x1024 1 := cmpf .olt main_v39 main_v40
  let main_c_15 : IVec S_ 1 := constantI S_ 1 1#1
  let main_v42 : IVec S_ 1 := (fun x v => Host.reduce IntOp.andi x v reducesTo_S1024x1024_S_d0_1 h_S_) main_v41 main_c_15
  let main_v43 : IVec S_ 1 := andi main_v38 main_v42
  let main_v44 : FVec F S1024 .f32 := Host.absf main_arg9
  let main_cst_16 : FVec F S_ .f32 := constant S_ .f32 0x7F800000#32
  let main_v45 : FVec F S1024 .f32 := broadcastInDim S1024 ![] bcast_S_S1024 main_cst_16
  let main_v46 : IVec S1024 1 := cmpf .olt main_v44 main_v45
  let main_c_17 : IVec S_ 1 := constantI S_ 1 1#1
  let main_v47 : IVec S_ 1 := (fun x v => Host.reduce IntOp.andi x v reducesTo_S1024_S_d0 h_S_) main_v46 main_c_17
  let main_v48 : IVec S_ 1 := andi main_v43 main_v47
  let main_v49 : FVec F S1024x1024 .f32 := Host.absf main_arg10
  let main_cst_18 : FVec F S_ .f32 := constant S_ .f32 0x7F800000#32
  let main_v50 : FVec F S1024x1024 .f32 := broadcastInDim S1024x1024 ![] bcast_S_S1024x1024 main_cst_18
  fn_part3 (F := F) main_arg11 main_arg12 main_arg13 main_arg14 main_arg15 main_arg16 main_arg17 main_arg18 main_arg19 main_arg20 main_arg21 main_v48 main_v49 main_v50

def fn_part1 {F : FTy → Type} [FloatOps F] (main_arg4 : FVec F S256x64x1024 .f32) (main_arg5 : FVec F S256x64x1 .f32) (main_arg6 : FVec F S1024x1024 .f32) (main_arg7 : FVec F S1024 .f32) (main_arg8 : FVec F S1024x1024 .f32) (main_arg9 : FVec F S1024 .f32) (main_arg10 : FVec F S1024x1024 .f32) (main_arg11 : FVec F S1024 .f32) (main_arg12 : FVec F S1024x1024 .f32) (main_arg13 : FVec F S1024 .f32) (main_arg14 : FVec F S1024x512 .f32) (main_arg15 : FVec F S1024 .f32) (main_arg16 : FVec F S1024x512 .f32) (main_arg17 : FVec F S1024 .f32) (main_arg18 : FVec F S1024x512 .f32) (main_arg19 : FVec F S1024 .f32) (main_arg20 : FVec F S1024x512 .f32) (main_arg21 : FVec F S1024 .f32) (main_v13 : IVec S_ 1) (main_v16 : IVec S256x64x1024 1) : IVec S_ 1 :=
  let main_c_5 : IVec S_ 1 := constantI S_ 1 1#1
  let main_v17 : IVec S_ 1 := (fun x v => Host.reduce IntOp.andi x v reducesTo_S256x64x1024_S_d0_1_2 h_S_) main_v16 main_c_5
  let main_v18 : IVec S_ 1 := andi main_v13 main_v17
  let main_v19 : FVec F S256x64x1024 .f32 := Host.absf main_arg4
  let main_cst_6 : FVec F S_ .f32 := constant S_ .f32 0x7F800000#32
  let main_v20 : FVec F S256x64x1024 .f32 := broadcastInDim S256x64x1024 ![] bcast_S_S256x64x1024 main_cst_6
  let main_v21 : IVec S256x64x1024 1 := cmpf .olt main_v19 main_v20
  let main_c_7 : IVec S_ 1 := constantI S_ 1 1#1
  let main_v22 : IVec S_ 1 := (fun x v => Host.reduce IntOp.andi x v reducesTo_S256x64x1024_S_d0_1_2 h_S_) main_v21 main_c_7
  let main_v23 : IVec S_ 1 := andi main_v18 main_v22
  let main_v24 : FVec F S256x64x1 .f32 := Host.absf main_arg5
  let main_cst_8 : FVec F S_ .f32 := constant S_ .f32 0x7F800000#32
  let main_v25 : FVec F S256x64x1 .f32 := broadcastInDim S256x64x1 ![] bcast_S_S256x64x1 main_cst_8
  let main_v26 : IVec S256x64x1 1 := cmpf .olt main_v24 main_v25
  let main_c_9 : IVec S_ 1 := constantI S_ 1 1#1
  let main_v27 : IVec S_ 1 := (fun x v => Host.reduce IntOp.andi x v reducesTo_S256x64x1_S_d0_1_2 h_S_) main_v26 main_c_9
  let main_v28 : IVec S_ 1 := andi main_v23 main_v27
  let main_v29 : FVec F S1024x1024 .f32 := Host.absf main_arg6
  let main_cst_10 : FVec F S_ .f32 := constant S_ .f32 0x7F800000#32
  let main_v30 : FVec F S1024x1024 .f32 := broadcastInDim S1024x1024 ![] bcast_S_S1024x1024 main_cst_10
  let main_v31 : IVec S1024x1024 1 := cmpf .olt main_v29 main_v30
  let main_c_11 : IVec S_ 1 := constantI S_ 1 1#1
  let main_v32 : IVec S_ 1 := (fun x v => Host.reduce IntOp.andi x v reducesTo_S1024x1024_S_d0_1 h_S_) main_v31 main_c_11
  let main_v33 : IVec S_ 1 := andi main_v28 main_v32
  fn_part2 (F := F) main_arg7 main_arg8 main_arg9 main_arg10 main_arg11 main_arg12 main_arg13 main_arg14 main_arg15 main_arg16 main_arg17 main_arg18 main_arg19 main_arg20 main_arg21 main_v33

def fn {F : FTy → Type} [FloatOps F] (main_arg0 : FVec F S256x64x512 .f32) (main_arg1 : FVec F S256x64x1024 .f32) (main_arg2 : FVec F S256x64x1024 .f32) (main_arg3 : FVec F S256x64x1024 .f32) (main_arg4 : FVec F S256x64x1024 .f32) (main_arg5 : FVec F S256x64x1 .f32) (main_arg6 : FVec F S1024x1024 .f32) (main_arg7 : FVec F S1024 .f32) (main_arg8 : FVec F S1024x1024 .f32) (main_arg9 : FVec F S1024 .f32) (main_arg10 : FVec F S1024x1024 .f32) (main_arg11 : FVec F S1024 .f32) (main_arg12 : FVec F S1024x1024 .f32) (main_arg13 : FVec F S1024 .f32) (main_arg14 : FVec F S1024x512 .f32) (main_arg15 : FVec F S1024 .f32) (main_arg16 : FVec F S1024x512 .f32) (main_arg17 : FVec F S1024 .f32) (main_arg18 : FVec F S1024x512 .f32) (main_arg19 : FVec F S1024 .f32) (main_arg20 : FVec F S1024x512 .f32) (main_arg21 : FVec F S1024 .f32) : IVec S_ 1 :=
  let main_v0 : FVec F S256x64x512 .f32 := Host.absf main_arg0
  let main_cst : FVec F S_ .f32 := constant S_ .f32 0x7F800000#32
  let main_v1 : FVec F S256x64x512 .f32 := broadcastInDim S256x64x512 ![] bcast_S_S256x64x512 main_cst
  let main_v2 : IVec S256x64x512 1 := cmpf .olt main_v0 main_v1
  let main_c : IVec S_ 1 := constantI S_ 1 1#1
  let main_v3 : IVec S_ 1 := (fun x v => Host.reduce IntOp.andi x v reducesTo_S256x64x512_S_d0_1_2 h_S_) main_v2 main_c
  let main_v4 : FVec F S256x64x1024 .f32 := Host.absf main_arg1
  let main_cst_0 : FVec F S_ .f32 := constant S_ .f32 0x7F800000#32
  let main_v5 : FVec F S256x64x1024 .f32 := broadcastInDim S256x64x1024 ![] bcast_S_S256x64x1024 main_cst_0
  let main_v6 : IVec S256x64x1024 1 := cmpf .olt main_v4 main_v5
  let main_c_1 : IVec S_ 1 := constantI S_ 1 1#1
  let main_v7 : IVec S_ 1 := (fun x v => Host.reduce IntOp.andi x v reducesTo_S256x64x1024_S_d0_1_2 h_S_) main_v6 main_c_1
  let main_v8 : IVec S_ 1 := andi main_v3 main_v7
  let main_v9 : FVec F S256x64x1024 .f32 := Host.absf main_arg2
  let main_cst_2 : FVec F S_ .f32 := constant S_ .f32 0x7F800000#32
  let main_v10 : FVec F S256x64x1024 .f32 := broadcastInDim S256x64x1024 ![] bcast_S_S256x64x1024 main_cst_2
  let main_v11 : IVec S256x64x1024 1 := cmpf .olt main_v9 main_v10
  let main_c_3 : IVec S_ 1 := constantI S_ 1 1#1
  let main_v12 : IVec S_ 1 := (fun x v => Host.reduce IntOp.andi x v reducesTo_S256x64x1024_S_d0_1_2 h_S_) main_v11 main_c_3
  let main_v13 : IVec S_ 1 := andi main_v8 main_v12
  let main_v14 : FVec F S256x64x1024 .f32 := Host.absf main_arg3
  let main_cst_4 : FVec F S_ .f32 := constant S_ .f32 0x7F800000#32
  let main_v15 : FVec F S256x64x1024 .f32 := broadcastInDim S256x64x1024 ![] bcast_S_S256x64x1024 main_cst_4
  let main_v16 : IVec S256x64x1024 1 := cmpf .olt main_v14 main_v15
  fn_part1 (F := F) main_arg4 main_arg5 main_arg6 main_arg7 main_arg8 main_arg9 main_arg10 main_arg11 main_arg12 main_arg13 main_arg14 main_arg15 main_arg16 main_arg17 main_arg18 main_arg19 main_arg20 main_arg21 main_v13 main_v16
-- ==== Kernel.lean ====
abbrev S256x64x512 : Shape := ⟨3, ![256, 64, 512]⟩
abbrev S256x64x1024 : Shape := ⟨3, ![256, 64, 1024]⟩
abbrev S256x64x1 : Shape := ⟨3, ![256, 64, 1]⟩
abbrev S1024x1024 : Shape := ⟨2, ![1024, 1024]⟩
abbrev S1024 : Shape := ⟨1, ![1024]⟩
abbrev S1024x512 : Shape := ⟨2, ![1024, 512]⟩
abbrev S16384x512 : Shape := ⟨2, ![16384, 512]⟩
abbrev S16384x1024 : Shape := ⟨2, ![16384, 1024]⟩
abbrev S16384x1 : Shape := ⟨2, ![16384, 1]⟩
abbrev S512x1024 : Shape := ⟨2, ![512, 1024]⟩
abbrev S128x512 : Shape := ⟨2, ![128, 512]⟩
abbrev S128x1024 : Shape := ⟨2, ![128, 1024]⟩
abbrev S128x1 : Shape := ⟨2, ![128, 1]⟩
abbrev S1x1024 : Shape := ⟨2, ![1, 1024]⟩

abbrev nBuf : Space → Nat
  | .hbm => 52
  | .vmem => 36
  | .smem => 0
  | _ => 0

abbrev bufTy : (tb : Table) → Fin (tcTables nBuf tb) → BufTy
  | .hbm, ⟨0, _⟩ => ⟨S256x64x512, .f32⟩
  | .hbm, ⟨1, _⟩ => ⟨S256x64x1024, .f32⟩
  | .hbm, ⟨2, _⟩ => ⟨S256x64x1024, .f32⟩
  | .hbm, ⟨3, _⟩ => ⟨S256x64x1024, .f32⟩
  | .hbm, ⟨4, _⟩ => ⟨S256x64x1024, .f32⟩
  | .hbm, ⟨5, _⟩ => ⟨S256x64x1, .f32⟩
  | .hbm, ⟨6, _⟩ => ⟨S1024x1024, .f32⟩
  | .hbm, ⟨7, _⟩ => ⟨S1024, .f32⟩
  | .hbm, ⟨8, _⟩ => ⟨S1024x1024, .f32⟩
  | .hbm, ⟨9, _⟩ => ⟨S1024, .f32⟩
  | .hbm, ⟨10, _⟩ => ⟨S1024x1024, .f32⟩
  | .hbm, ⟨11, _⟩ => ⟨S1024, .f32⟩
  | .hbm, ⟨12, _⟩ => ⟨S1024x1024, .f32⟩
  | .hbm, ⟨13, _⟩ => ⟨S1024, .f32⟩
  | .hbm, ⟨14, _⟩ => ⟨S1024x512, .f32⟩
  | .hbm, ⟨15, _⟩ => ⟨S1024, .f32⟩
  | .hbm, ⟨16, _⟩ => ⟨S1024x512, .f32⟩
  | .hbm, ⟨17, _⟩ => ⟨S1024, .f32⟩
  | .hbm, ⟨18, _⟩ => ⟨S1024x512, .f32⟩
  | .hbm, ⟨19, _⟩ => ⟨S1024, .f32⟩
  | .hbm, ⟨20, _⟩ => ⟨S1024x512, .f32⟩
  | .hbm, ⟨21, _⟩ => ⟨S1024, .f32⟩
  | .hbm, ⟨22, _⟩ => ⟨S16384x512, .f32⟩
  | .hbm, ⟨23, _⟩ => ⟨S16384x1024, .f32⟩
  | .hbm, ⟨24, _⟩ => ⟨S16384x1024, .f32⟩
  | .hbm, ⟨25, _⟩ => ⟨S16384x1024, .f32⟩
  | .hbm, ⟨26, _⟩ => ⟨S16384x1024, .f32⟩
  | .hbm, ⟨27, _⟩ => ⟨S16384x1, .f32⟩
  | .hbm, ⟨28, _⟩ => ⟨S1024x1024, .f32⟩
  | .hbm, ⟨29, _⟩ => ⟨S1024x1024, .bf16⟩
  | .hbm, ⟨30, _⟩ => ⟨S1024x1024, .f32⟩
  | .hbm, ⟨31, _⟩ => ⟨S1024x1024, .bf16⟩
  | .hbm, ⟨32, _⟩ => ⟨S1024x1024, .f32⟩
  | .hbm, ⟨33, _⟩ => ⟨S1024x1024, .bf16⟩
  | .hbm, ⟨34, _⟩ => ⟨S1024x1024, .f32⟩
  | .hbm, ⟨35, _⟩ => ⟨S1024x1024, .bf16⟩
  | .hbm, ⟨36, _⟩ => ⟨S512x1024, .f32⟩
  | .hbm, ⟨37, _⟩ => ⟨S512x1024, .bf16⟩
  | .hbm, ⟨38, _⟩ => ⟨S512x1024, .f32⟩
  | .hbm, ⟨39, _⟩ => ⟨S512x1024, .bf16⟩
  | .hbm, ⟨40, _⟩ => ⟨S512x1024, .f32⟩
  | .hbm, ⟨41, _⟩ => ⟨S512x1024, .bf16⟩
  | .hbm, ⟨42, _⟩ => ⟨S512x1024, .f32⟩
  | .hbm, ⟨43, _⟩ => ⟨S512x1024, .bf16⟩
  | .hbm, ⟨44, _⟩ => ⟨S16384x1024, .f32⟩
  | .hbm, ⟨45, _⟩ => ⟨S16384x1024, .f32⟩
  | .hbm, ⟨46, _⟩ => ⟨S16384x1024, .f32⟩
  | .hbm, ⟨47, _⟩ => ⟨S16384x1024, .f32⟩
  | .hbm, ⟨48, _⟩ => ⟨S256x64x1024, .f32⟩
  | .hbm, ⟨49, _⟩ => ⟨S256x64x1024, .f32⟩
  | .hbm, ⟨50, _⟩ => ⟨S256x64x1024, .f32⟩
  | .hbm, ⟨51, _⟩ => ⟨S256x64x1024, .f32⟩
  | .local _ .vmem, ⟨0, _⟩ => ⟨S128x512, .f32⟩
  | .local _ .vmem, ⟨1, _⟩ => ⟨S128x512, .f32⟩
  | .local _ .vmem, ⟨2, _⟩ => ⟨S128x1024, .f32⟩
  | .local _ .vmem, ⟨3, _⟩ => ⟨S128x1024, .f32⟩
  | .local _ .vmem, ⟨4, _⟩ => ⟨S128x1024, .f32⟩
  | .local _ .vmem, ⟨5, _⟩ => ⟨S128x1024, .f32⟩
  | .local _ .vmem, ⟨6, _⟩ => ⟨S128x1024, .f32⟩
  | .local _ .vmem, ⟨7, _⟩ => ⟨S128x1024, .f32⟩
  | .local _ .vmem, ⟨8, _⟩ => ⟨S128x1024, .f32⟩
  | .local _ .vmem, ⟨9, _⟩ => ⟨S128x1024, .f32⟩
  | .local _ .vmem, ⟨10, _⟩ => ⟨S128x1, .f32⟩
  | .local _ .vmem, ⟨11, _⟩ => ⟨S128x1, .f32⟩
  | .local _ .vmem, ⟨12, _⟩ => ⟨S1024x1024, .bf16⟩
  | .local _ .vmem, ⟨13, _⟩ => ⟨S1024x1024, .bf16⟩
  | .local _ .vmem, ⟨14, _⟩ => ⟨S1024x1024, .bf16⟩
  | .local _ .vmem, ⟨15, _⟩ => ⟨S1024x1024, .bf16⟩
  | .local _ .vmem, ⟨16, _⟩ => ⟨S512x1024, .bf16⟩
  | .local _ .vmem, ⟨17, _⟩ => ⟨S512x1024, .bf16⟩
  | .local _ .vmem, ⟨18, _⟩ => ⟨S512x1024, .bf16⟩
  | .local _ .vmem, ⟨19, _⟩ => ⟨S512x1024, .bf16⟩
  | .local _ .vmem, ⟨20, _⟩ => ⟨S1024, .f32⟩
  | .local _ .vmem, ⟨21, _⟩ => ⟨S1024, .f32⟩
  | .local _ .vmem, ⟨22, _⟩ => ⟨S1024, .f32⟩
  | .local _ .vmem, ⟨23, _⟩ => ⟨S1024, .f32⟩
  | .local _ .vmem, ⟨24, _⟩ => ⟨S1024, .f32⟩
  | .local _ .vmem, ⟨25, _⟩ => ⟨S1024, .f32⟩
  | .local _ .vmem, ⟨26, _⟩ => ⟨S1024, .f32⟩
  | .local _ .vmem, ⟨27, _⟩ => ⟨S1024, .f32⟩
  | .local _ .vmem, ⟨28, _⟩ => ⟨S128x1024, .f32⟩
  | .local _ .vmem, ⟨29, _⟩ => ⟨S128x1024, .f32⟩
  | .local _ .vmem, ⟨30, _⟩ => ⟨S128x1024, .f32⟩
  | .local _ .vmem, ⟨31, _⟩ => ⟨S128x1024, .f32⟩
  | .local _ .vmem, ⟨32, _⟩ => ⟨S128x1024, .f32⟩
  | .local _ .vmem, ⟨33, _⟩ => ⟨S128x1024, .f32⟩
  | .local _ .vmem, ⟨34, _⟩ => ⟨S128x1024, .f32⟩
  | .local _ .vmem, ⟨35, _⟩ => ⟨S128x1024, .f32⟩
  | _, _ => ⟨S256x64x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | _, _ => false

abbrev semScoped : Fin 0 → Bool
  | ⟨_, h⟩ => absurd h (Nat.not_lt_zero _)

abbrev dmaSemScoped : Fin 36 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | _ => false

abbrev sig : RefSig :=
  ofTc nBuf bufTy 0 36 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_call0_v0 : Ref sig .tc := ⟨.hbm, 22, rfl⟩
abbrev main_call0_v1 : Ref sig .tc := ⟨.hbm, 23, rfl⟩
abbrev main_call0_v2 : Ref sig .tc := ⟨.hbm, 24, rfl⟩
abbrev main_call0_v3 : Ref sig .tc := ⟨.hbm, 25, rfl⟩
abbrev main_call0_v4 : Ref sig .tc := ⟨.hbm, 26, rfl⟩
abbrev main_call0_v5 : Ref sig .tc := ⟨.hbm, 27, rfl⟩
abbrev main_call0_v6 : Ref sig .tc := ⟨.hbm, 28, rfl⟩
abbrev main_call0_v7 : Ref sig .tc := ⟨.hbm, 29, rfl⟩
abbrev main_call0_v8 : Ref sig .tc := ⟨.hbm, 30, rfl⟩
abbrev main_call0_v9 : Ref sig .tc := ⟨.hbm, 31, rfl⟩
abbrev main_call0_v10 : Ref sig .tc := ⟨.hbm, 32, rfl⟩
abbrev main_call0_v11 : Ref sig .tc := ⟨.hbm, 33, rfl⟩
abbrev main_call0_v12 : Ref sig .tc := ⟨.hbm, 34, rfl⟩
abbrev main_call0_v13 : Ref sig .tc := ⟨.hbm, 35, rfl⟩
abbrev main_call0_v14 : Ref sig .tc := ⟨.hbm, 36, rfl⟩
abbrev main_call0_v15 : Ref sig .tc := ⟨.hbm, 37, rfl⟩
abbrev main_call0_v16 : Ref sig .tc := ⟨.hbm, 38, rfl⟩
abbrev main_call0_v17 : Ref sig .tc := ⟨.hbm, 39, rfl⟩
abbrev main_call0_v18 : Ref sig .tc := ⟨.hbm, 40, rfl⟩
abbrev main_call0_v19 : Ref sig .tc := ⟨.hbm, 41, rfl⟩
abbrev main_call0_v20 : Ref sig .tc := ⟨.hbm, 42, rfl⟩
abbrev main_call0_v21 : Ref sig .tc := ⟨.hbm, 43, rfl⟩
abbrev main_call0_v22_0 : Ref sig .tc := ⟨.hbm, 44, rfl⟩
abbrev main_call0_v22_1 : Ref sig .tc := ⟨.hbm, 45, rfl⟩
abbrev main_call0_v22_2 : Ref sig .tc := ⟨.hbm, 46, rfl⟩
abbrev main_call0_v22_3 : Ref sig .tc := ⟨.hbm, 47, rfl⟩
abbrev main_v0_0 : Ref sig .tc := ⟨.hbm, 48, rfl⟩
abbrev main_v0_1 : Ref sig .tc := ⟨.hbm, 49, rfl⟩
abbrev main_v0_2 : Ref sig .tc := ⟨.hbm, 50, rfl⟩
abbrev main_v0_3 : Ref sig .tc := ⟨.hbm, 51, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg7_0 : Ref sig .tc := ⟨.vmem, 13, rfl⟩
abbrev cc0_stg8_0 : Ref sig .tc := ⟨.vmem, 14, rfl⟩
abbrev cc0_stg9_0 : Ref sig .tc := ⟨.vmem, 15, rfl⟩
abbrev cc0_stg10_0 : Ref sig .tc := ⟨.vmem, 16, rfl⟩
abbrev cc0_stg11_0 : Ref sig .tc := ⟨.vmem, 17, rfl⟩
abbrev cc0_stg12_0 : Ref sig .tc := ⟨.vmem, 18, rfl⟩
abbrev cc0_stg13_0 : Ref sig .tc := ⟨.vmem, 19, rfl⟩
abbrev cc0_stg14_0 : Ref sig .tc := ⟨.vmem, 20, rfl⟩
abbrev cc0_stg15_0 : Ref sig .tc := ⟨.vmem, 21, rfl⟩
abbrev cc0_stg16_0 : Ref sig .tc := ⟨.vmem, 22, rfl⟩
abbrev cc0_stg17_0 : Ref sig .tc := ⟨.vmem, 23, rfl⟩
abbrev cc0_stg18_0 : Ref sig .tc := ⟨.vmem, 24, rfl⟩
abbrev cc0_stg19_0 : Ref sig .tc := ⟨.vmem, 25, rfl⟩
abbrev cc0_stg20_0 : Ref sig .tc := ⟨.vmem, 26, rfl⟩
abbrev cc0_stg21_0 : Ref sig .tc := ⟨.vmem, 27, rfl⟩
abbrev cc0_stg22_0 : Ref sig .tc := ⟨.vmem, 28, rfl⟩
abbrev cc0_stg22_1 : Ref sig .tc := ⟨.vmem, 29, rfl⟩
abbrev cc0_stg23_0 : Ref sig .tc := ⟨.vmem, 30, rfl⟩
abbrev cc0_stg23_1 : Ref sig .tc := ⟨.vmem, 31, rfl⟩
abbrev cc0_stg24_0 : Ref sig .tc := ⟨.vmem, 32, rfl⟩
abbrev cc0_stg24_1 : Ref sig .tc := ⟨.vmem, 33, rfl⟩
abbrev cc0_stg25_0 : Ref sig .tc := ⟨.vmem, 34, rfl⟩
abbrev cc0_stg25_1 : Ref sig .tc := ⟨.vmem, 35, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem7_0 : DmaSem sig := 13
abbrev cc0_sem8_0 : DmaSem sig := 14
abbrev cc0_sem9_0 : DmaSem sig := 15
abbrev cc0_sem10_0 : DmaSem sig := 16
abbrev cc0_sem11_0 : DmaSem sig := 17
abbrev cc0_sem12_0 : DmaSem sig := 18
abbrev cc0_sem13_0 : DmaSem sig := 19
abbrev cc0_sem14_0 : DmaSem sig := 20
abbrev cc0_sem15_0 : DmaSem sig := 21
abbrev cc0_sem16_0 : DmaSem sig := 22
abbrev cc0_sem17_0 : DmaSem sig := 23
abbrev cc0_sem18_0 : DmaSem sig := 24
abbrev cc0_sem19_0 : DmaSem sig := 25
abbrev cc0_sem20_0 : DmaSem sig := 26
abbrev cc0_sem21_0 : DmaSem sig := 27
abbrev cc0_sem22_0 : DmaSem sig := 28
abbrev cc0_sem22_1 : DmaSem sig := 29
abbrev cc0_sem23_0 : DmaSem sig := 30
abbrev cc0_sem23_1 : DmaSem sig := 31
abbrev cc0_sem24_0 : DmaSem sig := 32
abbrev cc0_sem24_1 : DmaSem sig := 33
abbrev cc0_sem25_0 : DmaSem sig := 34
abbrev cc0_sem25_1 : DmaSem sig := 35

abbrev nD : Nat := 1
abbrev τ : Topo := Topo.v7x

variable {F : FTy → Type} [FloatOps F]

abbrev grid0 : Pipeline.Grid := ⟨1, ![128], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_15 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_16 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_17 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_18 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_19 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_20 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_21 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_22 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_23 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_24 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_25 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S128x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S128x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S128x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S128x1 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1024x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1024x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1024x1024 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1024x1024 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S512x1024 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S512x1024 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S512x1024 .bf16 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S512x1024 .bf16 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S1024 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 1 → Memref sig .tc .vmem S1024 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false]

abbrev stage0_16 : Fin 1 → Memref sig .tc .vmem S1024 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![false]

abbrev stage0_17 : Fin 1 → Memref sig .tc .vmem S1024 .f32 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))
abbrev reads0_17 : Fin grid0.rank → Bool := ![false]

abbrev stage0_18 : Fin 1 → Memref sig .tc .vmem S1024 .f32 := fun | 0 => Memref.whole cc0_stg18_0 | ⟨_ + 1, h⟩ => absurd h (Nat.not_lt.2 (Nat.le_add_left _ _))
abbrev sem0_18 : Fin 1 → DmaSem sig := fun | 0 => cc0_sem18_0 | ⟨_ + 1, h⟩ => absurd h (Nat.not_lt.2 (Nat.le_add_left _ _))
abbrev reads0_18 : Fin grid0.rank → Bool := ![false]

abbrev stage0_19 : Fin 1 → Memref sig .tc .vmem S1024 .f32 := fun | 0 => Memref.whole cc0_stg19_0 | ⟨_ + 1, h⟩ => absurd h (Nat.not_lt.2 (Nat.le_add_left _ _))
abbrev sem0_19 : Fin 1 → DmaSem sig := fun | 0 => cc0_sem19_0 | ⟨_ + 1, h⟩ => absurd h (Nat.not_lt.2 (Nat.le_add_left _ _))
abbrev reads0_19 : Fin grid0.rank → Bool := ![false]

abbrev stage0_20 : Fin 1 → Memref sig .tc .vmem S1024 .f32 := fun | 0 => Memref.whole cc0_stg20_0 | ⟨_ + 1, h⟩ => absurd h (Nat.not_lt.2 (Nat.le_add_left _ _))
abbrev sem0_20 : Fin 1 → DmaSem sig := fun | 0 => cc0_sem20_0 | ⟨_ + 1, h⟩ => absurd h (Nat.not_lt.2 (Nat.le_add_left _ _))
abbrev reads0_20 : Fin grid0.rank → Bool := ![false]

abbrev stage0_21 : Fin 1 → Memref sig .tc .vmem S1024 .f32 := fun | 0 => Memref.whole cc0_stg21_0 | ⟨_ + 1, h⟩ => absurd h (Nat.not_lt.2 (Nat.le_add_left _ _))
abbrev sem0_21 : Fin 1 → DmaSem sig := fun | 0 => cc0_sem21_0 | ⟨_ + 1, h⟩ => absurd h (Nat.not_lt.2 (Nat.le_add_left _ _))
abbrev reads0_21 : Fin grid0.rank → Bool := ![false]

abbrev stage0_22 : Fin 2 → Memref sig .tc .vmem S128x1024 .f32 := fun | 0 => Memref.whole cc0_stg22_0 | 1 => Memref.whole cc0_stg22_1 | ⟨_ + 2, h⟩ => absurd h (Nat.not_lt.2 (Nat.le_add_left _ _))
abbrev sem0_22 : Fin 2 → DmaSem sig := fun | 0 => cc0_sem22_0 | 1 => cc0_sem22_1 | ⟨_ + 2, h⟩ => absurd h (Nat.not_lt.2 (Nat.le_add_left _ _))
abbrev reads0_22 : Fin grid0.rank → Bool := ![true]

abbrev stage0_23 : Fin 2 → Memref sig .tc .vmem S128x1024 .f32 := fun | 0 => Memref.whole cc0_stg23_0 | 1 => Memref.whole cc0_stg23_1 | ⟨_ + 2, h⟩ => absurd h (Nat.not_lt.2 (Nat.le_add_left _ _))
abbrev sem0_23 : Fin 2 → DmaSem sig := fun | 0 => cc0_sem23_0 | 1 => cc0_sem23_1 | ⟨_ + 2, h⟩ => absurd h (Nat.not_lt.2 (Nat.le_add_left _ _))
abbrev reads0_23 : Fin grid0.rank → Bool := ![true]

abbrev stage0_24 : Fin 2 → Memref sig .tc .vmem S128x1024 .f32 := fun | 0 => Memref.whole cc0_stg24_0 | 1 => Memref.whole cc0_stg24_1 | ⟨_ + 2, h⟩ => absurd h (Nat.not_lt.2 (Nat.le_add_left _ _))
abbrev sem0_24 : Fin 2 → DmaSem sig := fun | 0 => cc0_sem24_0 | 1 => cc0_sem24_1 | ⟨_ + 2, h⟩ => absurd h (Nat.not_lt.2 (Nat.le_add_left _ _))
abbrev reads0_24 : Fin grid0.rank → Bool := ![true]

abbrev stage0_25 : Fin 2 → Memref sig .tc .vmem S128x1024 .f32 := fun | 0 => Memref.whole cc0_stg25_0 | 1 => Memref.whole cc0_stg25_1 | ⟨_ + 2, h⟩ => absurd h (Nat.not_lt.2 (Nat.le_add_left _ _))
abbrev sem0_25 : Fin 2 → DmaSem sig := fun | 0 => cc0_sem25_0 | 1 => cc0_sem25_1 | ⟨_ + 2, h⟩ => absurd h (Nat.not_lt.2 (Nat.le_add_left _ _))
abbrev reads0_25 : Fin grid0.rank → Bool := ![true]

class Facts₀ : Prop where
  shapeCasts_S256x64x512_S16384x512 : S256x64x512.ShapeCasts S16384x512
  shapeCasts_S256x64x1024_S16384x1024 : S256x64x1024.ShapeCasts S16384x1024
  shapeCasts_S256x64x1_S16384x1 : S256x64x1.ShapeCasts S16384x1
  transposes_S1024x1024_S1024x1024_1_0 : S1024x1024.Transposes [1, 0] S1024x1024
  bitsLt_bf16_f32 : FTy.bits .bf16 < FTy.bits .f32
  transposes_S1024x512_S512x1024_1_0 : S1024x512.Transposes [1, 0] S512x1024
  shapeCasts_S16384x1024_S256x64x1024 : S16384x1024.ShapeCasts S256x64x1024
  inb_S128x1024_S128x1024_0_0 : ∀ a, (![0, 0] : Fin 2 → Nat) a + S128x1024.size a ≤ S128x1024.size a
  h_S128x1024 : 0 < S128x1024.numel
  shapeCasts_S128x1024_S128x1024 : S128x1024.ShapeCasts S128x1024
  inb_S128x512_S128x512_0_0 : ∀ a, (![0, 0] : Fin 2 → Nat) a + S128x512.size a ≤ S128x512.size a
  h_S128x512 : 0 < S128x512.numel
  shapeCasts_S128x512_S128x512 : S128x512.ShapeCasts S128x512
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  inb_S1024_S1024_0 : ∀ a, (![0] : Fin 1 → Nat) a + S1024.size a ≤ S1024.size a
  h_S1024 : 0 < S1024.numel
  shapeCasts_S1024_S1x1024 : S1024.ShapeCasts S1x1024
  broadcasts_S1x1024_S128x1024 : S1x1024.Broadcasts S128x1024
  inb_S512x1024_S512x1024_0_0 : ∀ a, (![0, 0] : Fin 2 → Nat) a + S512x1024.size a ≤ S512x1024.size a
  h_S512x1024 : 0 < S512x1024.numel
  shapeCasts_S512x1024_S512x1024 : S512x1024.ShapeCasts S512x1024
  inb_S128x1_S128x1_0_0 : ∀ a, (![0, 0] : Fin 2 → Nat) a + S128x1.size a ≤ S128x1.size a
  h_S128x1 : 0 < S128x1.numel
  shapeCasts_S128x1_S128x1 : S128x1.ShapeCasts S128x1
  broadcasts_S128x1_S128x1024 : S128x1.Broadcasts S128x1024
  dot_S128x1024_S1024x1024_S128x1024_1_0_0_1_n_n_wf : DotDims.WF S128x1024 S1024x1024 S128x1024 [1] [0] [0] [1] [] []
  dot_S128x512_S512x1024_S128x1024_1_0_0_1_n_n_wf : DotDims.WF S128x512 S512x1024 S128x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S128x512.size a ≤ S16384x512.size a
  hwx0_0 : ∀ i : grid0.Coords, EltTy.bits .f32 = 32 ∨ (Rect.block (s := S16384x512) S128x512.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S128x1024.size a ≤ S16384x1024.size a
  hwx0_1 : ∀ i : grid0.Coords, EltTy.bits .f32 = 32 ∨ (Rect.block (s := S16384x1024) S128x1024.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S128x1024.size a ≤ S16384x1024.size a
  hwx0_2 : ∀ i : grid0.Coords, EltTy.bits .f32 = 32 ∨ (Rect.block (s := S16384x1024) S128x1024.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S128x1024.size a ≤ S16384x1024.size a
  hwx0_3 : ∀ i : grid0.Coords, EltTy.bits .f32 = 32 ∨ (Rect.block (s := S16384x1024) S128x1024.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S128x1024.size a ≤ S16384x1024.size a
  hwx0_4 : ∀ i : grid0.Coords, EltTy.bits .f32 = 32 ∨ (Rect.block (s := S16384x1024) S128x1024.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S128x1.size a ≤ S16384x1.size a
  hwx0_5 : ∀ i : grid0.Coords, EltTy.bits .f32 = 32 ∨ (Rect.block (s := S16384x1) S128x1.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1024x1024.size a ≤ S1024x1024.size a
  hwx0_6 : ∀ i : grid0.Coords, EltTy.bits .bf16 = 32 ∨ (Rect.block (s := S1024x1024) S1024x1024.size (cc0_transform_6 i) (hinb0_6 i)).WholeWords (EltTy.packing .bf16)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S1024x1024.size a ≤ S1024x1024.size a
  hwx0_7 : ∀ i : grid0.Coords, EltTy.bits .bf16 = 32 ∨ (Rect.block (s := S1024x1024) S1024x1024.size (cc0_transform_7 i) (hinb0_7 i)).WholeWords (EltTy.packing .bf16)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S1024x1024.size a ≤ S1024x1024.size a
  hwx0_8 : ∀ i : grid0.Coords, EltTy.bits .bf16 = 32 ∨ (Rect.block (s := S1024x1024) S1024x1024.size (cc0_transform_8 i) (hinb0_8 i)).WholeWords (EltTy.packing .bf16)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S1024x1024.size a ≤ S1024x1024.size a
  hwx0_9 : ∀ i : grid0.Coords, EltTy.bits .bf16 = 32 ∨ (Rect.block (s := S1024x1024) S1024x1024.size (cc0_transform_9 i) (hinb0_9 i)).WholeWords (EltTy.packing .bf16)
  hstage0_10 : ∀ j, (stage0_10 j).IsWhole
  nbuf0_10 : grid0.bufCount reads0_10 true = 1
  hreads0_10 : ∀ i i' : grid0.Coords, (∀ a, reads0_10 a = true → i a = i' a) → cc0_transform_10 i = cc0_transform_10 i'
  hinb0_10 : ∀ (i : grid0.Coords) a, (cc0_transform_10 i a + 1) * S512x1024.size a ≤ S512x1024.size a
  hwx0_10 : ∀ i : grid0.Coords, EltTy.bits .bf16 = 32 ∨ (Rect.block (s := S512x1024) S512x1024.size (cc0_transform_10 i) (hinb0_10 i)).WholeWords (EltTy.packing .bf16)
  hstage0_11 : ∀ j, (stage0_11 j).IsWhole
  nbuf0_11 : grid0.bufCount reads0_11 true = 1
  hreads0_11 : ∀ i i' : grid0.Coords, (∀ a, reads0_11 a = true → i a = i' a) → cc0_transform_11 i = cc0_transform_11 i'
  hinb0_11 : ∀ (i : grid0.Coords) a, (cc0_transform_11 i a + 1) * S512x1024.size a ≤ S512x1024.size a
  hwx0_11 : ∀ i : grid0.Coords, EltTy.bits .bf16 = 32 ∨ (Rect.block (s := S512x1024) S512x1024.size (cc0_transform_11 i) (hinb0_11 i)).WholeWords (EltTy.packing .bf16)
  hstage0_12 : ∀ j, (stage0_12 j).IsWhole
  nbuf0_12 : grid0.bufCount reads0_12 true = 1
  hreads0_12 : ∀ i i' : grid0.Coords, (∀ a, reads0_12 a = true → i a = i' a) → cc0_transform_12 i = cc0_transform_12 i'
  hinb0_12 : ∀ (i : grid0.Coords) a, (cc0_transform_12 i a + 1) * S512x1024.size a ≤ S512x1024.size a
  hwx0_12 : ∀ i : grid0.Coords, EltTy.bits .bf16 = 32 ∨ (Rect.block (s := S512x1024) S512x1024.size (cc0_transform_12 i) (hinb0_12 i)).WholeWords (EltTy.packing .bf16)
  hstage0_13 : ∀ j, (stage0_13 j).IsWhole
  nbuf0_13 : grid0.bufCount reads0_13 true = 1
  hreads0_13 : ∀ i i' : grid0.Coords, (∀ a, reads0_13 a = true → i a = i' a) → cc0_transform_13 i = cc0_transform_13 i'
  hinb0_13 : ∀ (i : grid0.Coords) a, (cc0_transform_13 i a + 1) * S512x1024.size a ≤ S512x1024.size a
  hwx0_13 : ∀ i : grid0.Coords, EltTy.bits .bf16 = 32 ∨ (Rect.block (s := S512x1024) S512x1024.size (cc0_transform_13 i) (hinb0_13 i)).WholeWords (EltTy.packing .bf16)
  hstage0_14 : ∀ j, (stage0_14 j).IsWhole
  nbuf0_14 : grid0.bufCount reads0_14 true = 1
  hreads0_14 : ∀ i i' : grid0.Coords, (∀ a, reads0_14 a = true → i a = i' a) → cc0_transform_14 i = cc0_transform_14 i'
  hinb0_14 : ∀ (i : grid0.Coords) a, (cc0_transform_14 i a + 1) * S1024.size a ≤ S1024.size a
  hwx0_14 : ∀ i : grid0.Coords, EltTy.bits .f32 = 32 ∨ (Rect.block (s := S1024) S1024.size (cc0_transform_14 i) (hinb0_14 i)).WholeWords (EltTy.packing .f32)
  hstage0_15 : ∀ j, (stage0_15 j).IsWhole
  nbuf0_15 : grid0.bufCount reads0_15 true = 1
  hreads0_15 : ∀ i i' : grid0.Coords, (∀ a, reads0_15 a = true → i a = i' a) → cc0_transform_15 i = cc0_transform_15 i'
  hinb0_15 : ∀ (i : grid0.Coords) a, (cc0_transform_15 i a + 1) * S1024.size a ≤ S1024.size a
  hwx0_15 : ∀ i : grid0.Coords, EltTy.bits .f32 = 32 ∨ (Rect.block (s := S1024) S1024.size (cc0_transform_15 i) (hinb0_15 i)).WholeWords (EltTy.packing .f32)
  hstage0_16 : ∀ j, (stage0_16 j).IsWhole
  nbuf0_16 : grid0.bufCount reads0_16 true = 1
  hreads0_16 : ∀ i i' : grid0.Coords, (∀ a, reads0_16 a = true → i a = i' a) → cc0_transform_16 i = cc0_transform_16 i'
  hinb0_16 : ∀ (i : grid0.Coords) a, (cc0_transform_16 i a + 1) * S1024.size a ≤ S1024.size a
  hwx0_16 : ∀ i : grid0.Coords, EltTy.bits .f32 = 32 ∨ (Rect.block (s := S1024) S1024.size (cc0_transform_16 i) (hinb0_16 i)).WholeWords (EltTy.packing .f32)
  hstage0_17 : ∀ j, (stage0_17 j).IsWhole
  nbuf0_17 : grid0.bufCount reads0_17 true = 1
  hreads0_17 : ∀ i i' : grid0.Coords, (∀ a, reads0_17 a = true → i a = i' a) → cc0_transform_17 i = cc0_transform_17 i'
  hinb0_17 : ∀ (i : grid0.Coords) a, (cc0_transform_17 i a + 1) * S1024.size a ≤ S1024.size a
  hwx0_17 : ∀ i : grid0.Coords, EltTy.bits .f32 = 32 ∨ (Rect.block (s := S1024) S1024.size (cc0_transform_17 i) (hinb0_17 i)).WholeWords (EltTy.packing .f32)
  hstage0_18 : ∀ j, (stage0_18 j).IsWhole
  nbuf0_18 : grid0.bufCount reads0_18 true = 1
  hreads0_18 : ∀ i i' : grid0.Coords, (∀ a, reads0_18 a = true → i a = i' a) → cc0_transform_18 i = cc0_transform_18 i'
  hinb0_18 : ∀ (i : grid0.Coords) a, (cc0_transform_18 i a + 1) * S1024.size a ≤ S1024.size a
  hwx0_18 : ∀ i : grid0.Coords, EltTy.bits .f32 = 32 ∨ (Rect.block (s := S1024) S1024.size (cc0_transform_18 i) (hinb0_18 i)).WholeWords (EltTy.packing .f32)
  hstage0_19 : ∀ j, (stage0_19 j).IsWhole
  nbuf0_19 : grid0.bufCount reads0_19 true = 1
  hreads0_19 : ∀ i i' : grid0.Coords, (∀ a, reads0_19 a = true → i a = i' a) → cc0_transform_19 i = cc0_transform_19 i'
  hinb0_19 : ∀ (i : grid0.Coords) a, (cc0_transform_19 i a + 1) * S1024.size a ≤ S1024.size a
  hwx0_19 : ∀ i : grid0.Coords, EltTy.bits .f32 = 32 ∨ (Rect.block (s := S1024) S1024.size (cc0_transform_19 i) (hinb0_19 i)).WholeWords (EltTy.packing .f32)
  hstage0_20 : ∀ j, (stage0_20 j).IsWhole
  nbuf0_20 : grid0.bufCount reads0_20 true = 1
  hreads0_20 : ∀ i i' : grid0.Coords, (∀ a, reads0_20 a = true → i a = i' a) → cc0_transform_20 i = cc0_transform_20 i'
  hinb0_20 : ∀ (i : grid0.Coords) a, (cc0_transform_20 i a + 1) * S1024.size a ≤ S1024.size a
  hwx0_20 : ∀ i : grid0.Coords, EltTy.bits .f32 = 32 ∨ (Rect.block (s := S1024) S1024.size (cc0_transform_20 i) (hinb0_20 i)).WholeWords (EltTy.packing .f32)
  hstage0_21 : ∀ j, (stage0_21 j).IsWhole
  nbuf0_21 : grid0.bufCount reads0_21 true = 1
  hreads0_21 : ∀ i i' : grid0.Coords, (∀ a, reads0_21 a = true → i a = i' a) → cc0_transform_21 i = cc0_transform_21 i'
  hinb0_21 : ∀ (i : grid0.Coords) a, (cc0_transform_21 i a + 1) * S1024.size a ≤ S1024.size a
  hwx0_21 : ∀ i : grid0.Coords, EltTy.bits .f32 = 32 ∨ (Rect.block (s := S1024) S1024.size (cc0_transform_21 i) (hinb0_21 i)).WholeWords (EltTy.packing .f32)
  hstage0_22 : ∀ j, (stage0_22 j).IsWhole
  nbuf0_22 : grid0.bufCount reads0_22 false = 2
  hreads0_22 : ∀ i i' : grid0.Coords, (∀ a, reads0_22 a = true → i a = i' a) → cc0_transform_22 i = cc0_transform_22 i'
  hinb0_22 : ∀ (i : grid0.Coords) a, (cc0_transform_22 i a + 1) * S128x1024.size a ≤ S16384x1024.size a
  hwx0_22 : ∀ i : grid0.Coords, EltTy.bits .f32 = 32 ∨ (Rect.block (s := S16384x1024) S128x1024.size (cc0_transform_22 i) (hinb0_22 i)).WholeWords (EltTy.packing .f32)
  hstage0_23 : ∀ j, (stage0_23 j).IsWhole
  nbuf0_23 : grid0.bufCount reads0_23 false = 2
  hreads0_23 : ∀ i i' : grid0.Coords, (∀ a, reads0_23 a = true → i a = i' a) → cc0_transform_23 i = cc0_transform_23 i'
  hinb0_23 : ∀ (i : grid0.Coords) a, (cc0_transform_23 i a + 1) * S128x1024.size a ≤ S16384x1024.size a
  hwx0_23 : ∀ i : grid0.Coords, EltTy.bits .f32 = 32 ∨ (Rect.block (s := S16384x1024) S128x1024.size (cc0_transform_23 i) (hinb0_23 i)).WholeWords (EltTy.packing .f32)
  hstage0_24 : ∀ j, (stage0_24 j).IsWhole
  nbuf0_24 : grid0.bufCount reads0_24 false = 2
  hreads0_24 : ∀ i i' : grid0.Coords, (∀ a, reads0_24 a = true → i a = i' a) → cc0_transform_24 i = cc0_transform_24 i'
  hinb0_24 : ∀ (i : grid0.Coords) a, (cc0_transform_24 i a + 1) * S128x1024.size a ≤ S16384x1024.size a
  hwx0_24 : ∀ i : grid0.Coords, EltTy.bits .f32 = 32 ∨ (Rect.block (s := S16384x1024) S128x1024.size (cc0_transform_24 i) (hinb0_24 i)).WholeWords (EltTy.packing .f32)
  hstage0_25 : ∀ j, (stage0_25 j).IsWhole
  nbuf0_25 : grid0.bufCount reads0_25 false = 2
  hreads0_25 : ∀ i i' : grid0.Coords, (∀ a, reads0_25 a = true → i a = i' a) → cc0_transform_25 i = cc0_transform_25 i'
  hinb0_25 : ∀ (i : grid0.Coords) a, (cc0_transform_25 i a + 1) * S128x1024.size a ≤ S16384x1024.size a
  hwx0_25 : ∀ i : grid0.Coords, EltTy.bits .f32 = 32 ∨ (Rect.block (s := S16384x1024) S128x1024.size (cc0_transform_25 i) (hinb0_25 i)).WholeWords (EltTy.packing .f32)

variable [Facts₀]

def dot_S128x1024_S1024x1024_S128x1024_1_0_0_1_n_n : DotDims S128x1024 S1024x1024 S128x1024 where
  lhsContracting := [1]
  rhsContracting := [0]
  lhsNonContracting := [0]
  rhsNonContracting := [1]
  lhsBatch := []
  rhsBatch := []
  wf := dot_S128x1024_S1024x1024_S128x1024_1_0_0_1_n_n_wf
def dot_S128x512_S512x1024_S128x1024_1_0_0_1_n_n : DotDims S128x512 S512x1024 S128x1024 where
  lhsContracting := [1]
  rhsContracting := [0]
  lhsNonContracting := [0]
  rhsNonContracting := [1]
  lhsBatch := []
  rhsBatch := []
  wf := dot_S128x512_S512x1024_S128x1024_1_0_0_1_n_n_wf

abbrev win0_0 : Pipeline.Window sig grid0 :=
  Pipeline.Window.ofSpec (Memref.whole main_call0_v0) S128x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_call0_v1) S128x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_call0_v2) S128x1024.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_call0_v3) S128x1024.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_call0_v4) S128x1024.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_call0_v5) S128x1.size cc0_transform_5 reads0_5 false false 2 stage0_5 sem0_5
    hrank0 hreads0_5 hinb0_5 nbuf0_5 (Memref.isWhole_whole _) hwx0_5 hstage0_5

abbrev win0_6 : Pipeline.Window sig grid0 :=
  Pipeline.Window.ofSpec (Memref.whole main_call0_v7) S1024x1024.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_call0_v9) S1024x1024.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_call0_v11) S1024x1024.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_call0_v13) S1024x1024.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_call0_v15) S512x1024.size cc0_transform_10 reads0_10 false true 1 stage0_10 sem0_10
    hrank0 hreads0_10 hinb0_10 nbuf0_10 (Memref.isWhole_whole _) hwx0_10 hstage0_10

abbrev win0_11 : Pipeline.Window sig grid0 :=
  Pipeline.Window.ofSpec (Memref.whole main_call0_v17) S512x1024.size cc0_transform_11 reads0_11 false true 1 stage0_11 sem0_11
    hrank0 hreads0_11 hinb0_11 nbuf0_11 (Memref.isWhole_whole _) hwx0_11 hstage0_11

abbrev win0_12 : Pipeline.Window sig grid0 :=
  Pipeline.Window.ofSpec (Memref.whole main_call0_v19) S512x1024.size cc0_transform_12 reads0_12 false true 1 stage0_12 sem0_12
    hrank0 hreads0_12 hinb0_12 nbuf0_12 (Memref.isWhole_whole _) hwx0_12 hstage0_12

abbrev win0_13 : Pipeline.Window sig grid0 :=
  Pipeline.Window.ofSpec (Memref.whole main_call0_v21) S512x1024.size cc0_transform_13 reads0_13 false true 1 stage0_13 sem0_13
    hrank0 hreads0_13 hinb0_13 nbuf0_13 (Memref.isWhole_whole _) hwx0_13 hstage0_13

abbrev win0_14 : Pipeline.Window sig grid0 :=
  Pipeline.Window.ofSpec (Memref.whole main_arg7) S1024.size cc0_transform_14 reads0_14 false true 1 stage0_14 sem0_14
    hrank0 hreads0_14 hinb0_14 nbuf0_14 (Memref.isWhole_whole _) hwx0_14 hstage0_14

abbrev win0_15 : Pipeline.Window sig grid0 :=
  Pipeline.Window.ofSpec (Memref.whole main_arg9) S1024.size cc0_transform_15 reads0_15 false true 1 stage0_15 sem0_15
    hrank0 hreads0_15 hinb0_15 nbuf0_15 (Memref.isWhole_whole _) hwx0_15 hstage0_15

abbrev win0_16 : Pipeline.Window sig grid0 :=
  Pipeline.Window.ofSpec (Memref.whole main_arg11) S1024.size cc0_transform_16 reads0_16 false true 1 stage0_16 sem0_16
    hrank0 hreads0_16 hinb0_16 nbuf0_16 (Memref.isWhole_whole _) hwx0_16 hstage0_16

abbrev win0_17 : Pipeline.Window sig grid0 :=
  Pipeline.Window.ofSpec (Memref.whole main_arg13) S1024.size cc0_transform_17 reads0_17 false true 1 stage0_17 sem0_17
    hrank0 hreads0_17 hinb0_17 nbuf0_17 (Memref.isWhole_whole _) hwx0_17 hstage0_17

abbrev win0_18 : Pipeline.Window sig grid0 :=
  Pipeline.Window.ofSpec (Memref.whole main_arg15) S1024.size cc0_transform_18 reads0_18 false true 1 stage0_18 sem0_18
    hrank0 hreads0_18 hinb0_18 nbuf0_18 (Memref.isWhole_whole _) hwx0_18 hstage0_18

abbrev win0_19 : Pipeline.Window sig grid0 :=
  Pipeline.Window.ofSpec (Memref.whole main_arg17) S1024.size cc0_transform_19 reads0_19 false true 1 stage0_19 sem0_19
    hrank0 hreads0_19 hinb0_19 nbuf0_19 (Memref.isWhole_whole _) hwx0_19 hstage0_19

abbrev win0_20 : Pipeline.Window sig grid0 :=
  Pipeline.Window.ofSpec (Memref.whole main_arg19) S1024.size cc0_transform_20 reads0_20 false true 1 stage0_20 sem0_20
    hrank0 hreads0_20 hinb0_20 nbuf0_20 (Memref.isWhole_whole _) hwx0_20 hstage0_20

abbrev win0_21 : Pipeline.Window sig grid0 :=
  Pipeline.Window.ofSpec (Memref.whole main_arg21) S1024.size cc0_transform_21 reads0_21 false true 1 stage0_21 sem0_21
    hrank0 hreads0_21 hinb0_21 nbuf0_21 (Memref.isWhole_whole _) hwx0_21 hstage0_21

abbrev win0_22 : Pipeline.Window sig grid0 :=
  Pipeline.Window.ofSpec (Memref.whole main_call0_v22_0) S128x1024.size cc0_transform_22 reads0_22 true false 2 stage0_22 sem0_22
    hrank0 hreads0_22 hinb0_22 nbuf0_22 (Memref.isWhole_whole _) hwx0_22 hstage0_22

abbrev win0_23 : Pipeline.Window sig grid0 :=
  Pipeline.Window.ofSpec (Memref.whole main_call0_v22_1) S128x1024.size cc0_transform_23 reads0_23 true false 2 stage0_23 sem0_23
    hrank0 hreads0_23 hinb0_23 nbuf0_23 (Memref.isWhole_whole _) hwx0_23 hstage0_23

abbrev win0_24 : Pipeline.Window sig grid0 :=
  Pipeline.Window.ofSpec (Memref.whole main_call0_v22_2) S128x1024.size cc0_transform_24 reads0_24 true false 2 stage0_24 sem0_24
    hrank0 hreads0_24 hinb0_24 nbuf0_24 (Memref.isWhole_whole _) hwx0_24 hstage0_24

abbrev win0_25 : Pipeline.Window sig grid0 :=
  Pipeline.Window.ofSpec (Memref.whole main_call0_v22_3) S128x1024.size cc0_transform_25 reads0_25 true false 2 stage0_25 sem0_25
    hrank0 hreads0_25 hinb0_25 nbuf0_25 (Memref.isWhole_whole _) hwx0_25 hstage0_25

abbrev win0 : Fin 26 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | 12 => win0_12 | 13 => win0_13 | 14 => win0_14 | 15 => win0_15 | 16 => win0_16 | 17 => win0_17 | 18 => win0_18 | 19 => win0_19 | 20 => win0_20 | 21 => win0_21 | 22 => win0_22 | 23 => win0_23 | 24 => win0_24 | 25 => win0_25 | ⟨_ + 26, h⟩ => absurd h (Nat.not_lt.2 (Nat.le_add_left _ _))
abbrev spec0 : Fin 26 → Pipeline.WinSpec sig grid0.rank := fun w => (win0 w).toWinSpec

class Facts : Prop extends Facts₀ where

variable [Facts]
-- ==== ReferenceIdeal.lean ====
abbrev S256x64x512 : Shape := ⟨3, ![256, 64, 512]⟩
abbrev S256x64x1024 : Shape := ⟨3, ![256, 64, 1024]⟩
abbrev S256x64x1 : Shape := ⟨3, ![256, 64, 1]⟩
abbrev S1024x1024 : Shape := ⟨2, ![1024, 1024]⟩
abbrev S1024 : Shape := ⟨1, ![1024]⟩
abbrev S1024x512 : Shape := ⟨2, ![1024, 512]⟩
abbrev S1x1x1024 : Shape := ⟨3, ![1, 1, 1024]⟩
abbrev S_ : Shape := ⟨0, ![]⟩

abbrev nBuf : Space → Nat
  | .hbm => 97
  | .vmem => 0
  | .smem => 0
  | _ => 0

abbrev bufTy : (tb : Table) → Fin (tcTables nBuf tb) → BufTy
  | .hbm, ⟨0, _⟩ => ⟨S256x64x512, .f32⟩
  | .hbm, ⟨1, _⟩ => ⟨S256x64x1024, .f32⟩
  | .hbm, ⟨2, _⟩ => ⟨S256x64x1024, .f32⟩
  | .hbm, ⟨3, _⟩ => ⟨S256x64x1024, .f32⟩
  | .hbm, ⟨4, _⟩ => ⟨S256x64x1024, .f32⟩
  | .hbm, ⟨5, _⟩ => ⟨S256x64x1, .f32⟩
  | .hbm, ⟨6, _⟩ => ⟨S1024x1024, .f32⟩
  | .hbm, ⟨7, _⟩ => ⟨S1024, .f32⟩
  | .hbm, ⟨8, _⟩ => ⟨S1024x1024, .f32⟩
  | .hbm, ⟨9, _⟩ => ⟨S1024, .f32⟩
  | .hbm, ⟨10, _⟩ => ⟨S1024x1024, .f32⟩
  | .hbm, ⟨11, _⟩ => ⟨S1024, .f32⟩
  | .hbm, ⟨12, _⟩ => ⟨S1024x1024, .f32⟩
  | .hbm, ⟨13, _⟩ => ⟨S1024, .f32⟩
  | .hbm, ⟨14, _⟩ => ⟨S1024x512, .f32⟩
  | .hbm, ⟨15, _⟩ => ⟨S1024, .f32⟩
  | .hbm, ⟨16, _⟩ => ⟨S1024x512, .f32⟩
  | .hbm, ⟨17, _⟩ => ⟨S1024, .f32⟩
  | .hbm, ⟨18, _⟩ => ⟨S1024x512, .f32⟩
  | .hbm, ⟨19, _⟩ => ⟨S1024, .f32⟩
  | .hbm, ⟨20, _⟩ => ⟨S1024x512, .f32⟩
  | .hbm, ⟨21, _⟩ => ⟨S1024, .f32⟩
  | .hbm, ⟨22, _⟩ => ⟨S256x64x1024, .f32⟩
  | .hbm, ⟨23, _⟩ => ⟨S1x1x1024, .f32⟩
  | .hbm, ⟨24, _⟩ => ⟨S256x64x1024, .f32⟩
  | .hbm, ⟨25, _⟩ => ⟨S256x64x1024, .f32⟩
  | .hbm, ⟨26, _⟩ => ⟨S256x64x1024, .f32⟩
  | .hbm, ⟨27, _⟩ => ⟨S1x1x1024, .f32⟩
  | .hbm, ⟨28, _⟩ => ⟨S256x64x1024, .f32⟩
  | .hbm, ⟨29, _⟩ => ⟨S256x64x1024, .f32⟩
  | .hbm, ⟨30, _⟩ => ⟨S256x64x1024, .f32⟩
  | .hbm, ⟨31, _⟩ => ⟨S256x64x1024, .f32⟩
  | .hbm, ⟨32, _⟩ => ⟨S1x1x1024, .f32⟩
  | .hbm, ⟨33, _⟩ => ⟨S256x64x1024, .f32⟩
  | .hbm, ⟨34, _⟩ => ⟨S256x64x1024, .f32⟩
  | .hbm, ⟨35, _⟩ => ⟨S256x64x1024, .f32⟩
  | .hbm, ⟨36, _⟩ => ⟨S1x1x1024, .f32⟩
  | .hbm, ⟨37, _⟩ => ⟨S256x64x1024, .f32⟩
  | .hbm, ⟨38, _⟩ => ⟨S256x64x1024, .f32⟩
  | .hbm, ⟨39, _⟩ => ⟨S256x64x1024, .f32⟩
  | .hbm, ⟨40, _⟩ => ⟨S256x64x1024, .f32⟩
  | .hbm, ⟨41, _⟩ => ⟨S1x1x1024, .f32⟩
  | .hbm, ⟨42, _⟩ => ⟨S256x64x1024, .f32⟩
  | .hbm, ⟨43, _⟩ => ⟨S256x64x1024, .f32⟩
  | .hbm, ⟨44, _⟩ => ⟨S256x64x1024, .f32⟩
  | .hbm, ⟨45, _⟩ => ⟨S1x1x1024, .f32⟩
  | .hbm, ⟨46, _⟩ => ⟨S256x64x1024, .f32⟩
  | .hbm, ⟨47, _⟩ => ⟨S256x64x1024, .f32⟩
  | .hbm, ⟨48, _⟩ => ⟨S256x64x1024, .f32⟩
  | .hbm, ⟨49, _⟩ => ⟨S256x64x1024, .f32⟩
  | .hbm, ⟨50, _⟩ => ⟨S1x1x1024, .f32⟩
  | .hbm, ⟨51, _⟩ => ⟨S256x64x1024, .f32⟩
  | .hbm, ⟨52, _⟩ => ⟨S256x64x1024, .f32⟩
  | .hbm, ⟨53, _⟩ => ⟨S256x64x1024, .f32⟩
  | .hbm, ⟨54, _⟩ => ⟨S1x1x1024, .f32⟩
  | .hbm, ⟨55, _⟩ => ⟨S256x64x1024, .f32⟩
  | .hbm, ⟨56, _⟩ => ⟨S256x64x1024, .f32⟩
  | .hbm, ⟨57, _⟩ => ⟨S256x64x1024, .f32⟩
  | .hbm, ⟨58, _⟩ => ⟨S256x64x1024, .f32⟩
  | .hbm, ⟨59, _⟩ => ⟨S256x64x1024, .f32⟩
  | .hbm, ⟨60, _⟩ => ⟨S256x64x1024, .f32⟩
  | .hbm, ⟨61, _⟩ => ⟨S256x64x1024, .f32⟩
  | .hbm, ⟨62, _⟩ => ⟨S256x64x1024, .f32⟩
  | .hbm, ⟨63, _⟩ => ⟨S256x64x1024, .f32⟩
  | .hbm, ⟨64, _⟩ => ⟨S256x64x1024, .f32⟩
  | .hbm, ⟨65, _⟩ => ⟨S256x64x1024, .f32⟩
  | .hbm, ⟨66, _⟩ => ⟨S256x64x1024, .f32⟩
  | .hbm, ⟨67, _⟩ => ⟨S_, .f32⟩
  | .hbm, ⟨68, _⟩ => ⟨S256x64x1024, .f32⟩
  | .hbm, ⟨69, _⟩ => ⟨S256x64x1024, .f32⟩
  | .hbm, ⟨70, _⟩ => ⟨S_, .f32⟩
  | .hbm, ⟨71, _⟩ => ⟨S256x64x1024, .f32⟩
  | .hbm, ⟨72, _⟩ => ⟨S256x64x1024, .f32⟩
  | .hbm, ⟨73, _⟩ => ⟨S256x64x1024, .f32⟩
  | .hbm, ⟨74, _⟩ => ⟨S256x64x1024, .f32⟩
  | .hbm, ⟨75, _⟩ => ⟨S256x64x1024, .f32⟩
  | .hbm, ⟨76, _⟩ => ⟨S256x64x1024, .f32⟩
  | .hbm, ⟨77, _⟩ => ⟨S256x64x1024, .f32⟩
  | .hbm, ⟨78, _⟩ => ⟨S256x64x1024, .f32⟩
  | .hbm, ⟨79, _⟩ => ⟨S256x64x1024, .f32⟩
  | .hbm, ⟨80, _⟩ => ⟨S256x64x1024, .f32⟩
  | .hbm, ⟨81, _⟩ => ⟨S_, .f32⟩
  | .hbm, ⟨82, _⟩ => ⟨S256x64x1, .f32⟩
  | .hbm, ⟨83, _⟩ => ⟨S256x64x1, .f32⟩
  | .hbm, ⟨84, _⟩ => ⟨S256x64x1024, .f32⟩
  | .hbm, ⟨85, _⟩ => ⟨S256x64x1024, .f32⟩
  | .hbm, ⟨86, _⟩ => ⟨S256x64x1024, .f32⟩
  | .hbm, ⟨87, _⟩ => ⟨S256x64x1024, .f32⟩
  | .hbm, ⟨88, _⟩ => ⟨S256x64x1024, .f32⟩
  | .hbm, ⟨89, _⟩ => ⟨S256x64x1024, .f32⟩
  | .hbm, ⟨90, _⟩ => ⟨S256x64x1024, .f32⟩
  | .hbm, ⟨91, _⟩ => ⟨S_, .f32⟩
  | .hbm, ⟨92, _⟩ => ⟨S256x64x1, .f32⟩
  | .hbm, ⟨93, _⟩ => ⟨S256x64x1, .f32⟩
  | .hbm, ⟨94, _⟩ => ⟨S256x64x1024, .f32⟩
  | .hbm, ⟨95, _⟩ => ⟨S256x64x1024, .f32⟩
  | .hbm, ⟨96, _⟩ => ⟨S256x64x1024, .f32⟩
  | _, _ => ⟨S256x64x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_v0 : Ref sig .tc := ⟨.hbm, 22, rfl⟩
abbrev main_v1 : Ref sig .tc := ⟨.hbm, 23, rfl⟩
abbrev main_v2 : Ref sig .tc := ⟨.hbm, 24, rfl⟩
abbrev main_v3 : Ref sig .tc := ⟨.hbm, 25, rfl⟩
abbrev main_v4 : Ref sig .tc := ⟨.hbm, 26, rfl⟩
abbrev main_v5 : Ref sig .tc := ⟨.hbm, 27, rfl⟩
abbrev main_v6 : Ref sig .tc := ⟨.hbm, 28, rfl⟩
abbrev main_v7 : Ref sig .tc := ⟨.hbm, 29, rfl⟩
abbrev main_v8 : Ref sig .tc := ⟨.hbm, 30, rfl⟩
abbrev main_v9 : Ref sig .tc := ⟨.hbm, 31, rfl⟩
abbrev main_v10 : Ref sig .tc := ⟨.hbm, 32, rfl⟩
abbrev main_v11 : Ref sig .tc := ⟨.hbm, 33, rfl⟩
abbrev main_v12 : Ref sig .tc := ⟨.hbm, 34, rfl⟩
abbrev main_v13 : Ref sig .tc := ⟨.hbm, 35, rfl⟩
abbrev main_v14 : Ref sig .tc := ⟨.hbm, 36, rfl⟩
abbrev main_v15 : Ref sig .tc := ⟨.hbm, 37, rfl⟩
abbrev main_v16 : Ref sig .tc := ⟨.hbm, 38, rfl⟩
abbrev main_v17 : Ref sig .tc := ⟨.hbm, 39, rfl⟩
abbrev main_v18 : Ref sig .tc := ⟨.hbm, 40, rfl⟩
abbrev main_v19 : Ref sig .tc := ⟨.hbm, 41, rfl⟩
abbrev main_v20 : Ref sig .tc := ⟨.hbm, 42, rfl⟩
abbrev main_v21 : Ref sig .tc := ⟨.hbm, 43, rfl⟩
abbrev main_v22 : Ref sig .tc := ⟨.hbm, 44, rfl⟩
abbrev main_v23 : Ref sig .tc := ⟨.hbm, 45, rfl⟩
abbrev main_v24 : Ref sig .tc := ⟨.hbm, 46, rfl⟩
abbrev main_v25 : Ref sig .tc := ⟨.hbm, 47, rfl⟩
abbrev main_v26 : Ref sig .tc := ⟨.hbm, 48, rfl⟩
abbrev main_v27 : Ref sig .tc := ⟨.hbm, 49, rfl⟩
abbrev main_v28 : Ref sig .tc := ⟨.hbm, 50, rfl⟩
abbrev main_v29 : Ref sig .tc := ⟨.hbm, 51, rfl⟩
abbrev main_v30 : Ref sig .tc := ⟨.hbm, 52, rfl⟩
abbrev main_v31 : Ref sig .tc := ⟨.hbm, 53, rfl⟩
abbrev main_v32 : Ref sig .tc := ⟨.hbm, 54, rfl⟩
abbrev main_v33 : Ref sig .tc := ⟨.hbm, 55, rfl⟩
abbrev main_v34 : Ref sig .tc := ⟨.hbm, 56, rfl⟩
abbrev main_v35 : Ref sig .tc := ⟨.hbm, 57, rfl⟩
abbrev main_v36 : Ref sig .tc := ⟨.hbm, 58, rfl⟩
abbrev main_v37 : Ref sig .tc := ⟨.hbm, 59, rfl⟩
abbrev main_v38 : Ref sig .tc := ⟨.hbm, 60, rfl⟩
abbrev main_v39 : Ref sig .tc := ⟨.hbm, 61, rfl⟩
abbrev main_v40 : Ref sig .tc := ⟨.hbm, 62, rfl⟩
abbrev main_v41 : Ref sig .tc := ⟨.hbm, 63, rfl⟩
abbrev main_v42 : Ref sig .tc := ⟨.hbm, 64, rfl⟩
abbrev main_v43 : Ref sig .tc := ⟨.hbm, 65, rfl⟩
abbrev main_v44 : Ref sig .tc := ⟨.hbm, 66, rfl⟩
abbrev main_cst : Ref sig .tc := ⟨.hbm, 67, rfl⟩
abbrev main_v45 : Ref sig .tc := ⟨.hbm, 68, rfl⟩
abbrev main_v46 : Ref sig .tc := ⟨.hbm, 69, rfl⟩
abbrev main_cst_0 : Ref sig .tc := ⟨.hbm, 70, rfl⟩
abbrev main_v47 : Ref sig .tc := ⟨.hbm, 71, rfl⟩
abbrev main_v48 : Ref sig .tc := ⟨.hbm, 72, rfl⟩
abbrev main_v49 : Ref sig .tc := ⟨.hbm, 73, rfl⟩
abbrev main_v50 : Ref sig .tc := ⟨.hbm, 74, rfl⟩
abbrev main_v51 : Ref sig .tc := ⟨.hbm, 75, rfl⟩
abbrev main_v52 : Ref sig .tc := ⟨.hbm, 76, rfl⟩
abbrev main_v53 : Ref sig .tc := ⟨.hbm, 77, rfl⟩
abbrev main_v54 : Ref sig .tc := ⟨.hbm, 78, rfl⟩
abbrev main_v55 : Ref sig .tc := ⟨.hbm, 79, rfl⟩
abbrev main_v56 : Ref sig .tc := ⟨.hbm, 80, rfl⟩
abbrev main_cst_1 : Ref sig .tc := ⟨.hbm, 81, rfl⟩
abbrev main_v57 : Ref sig .tc := ⟨.hbm, 82, rfl⟩
abbrev main_v58 : Ref sig .tc := ⟨.hbm, 83, rfl⟩
abbrev main_v59 : Ref sig .tc := ⟨.hbm, 84, rfl⟩
abbrev main_v60 : Ref sig .tc := ⟨.hbm, 85, rfl⟩
abbrev main_v61 : Ref sig .tc := ⟨.hbm, 86, rfl⟩
abbrev main_v62 : Ref sig .tc := ⟨.hbm, 87, rfl⟩
abbrev main_v63 : Ref sig .tc := ⟨.hbm, 88, rfl⟩
abbrev main_v64 : Ref sig .tc := ⟨.hbm, 89, rfl⟩
abbrev main_v65 : Ref sig .tc := ⟨.hbm, 90, rfl⟩
abbrev main_cst_2 : Ref sig .tc := ⟨.hbm, 91, rfl⟩
abbrev main_v66 : Ref sig .tc := ⟨.hbm, 92, rfl⟩
abbrev main_v67 : Ref sig .tc := ⟨.hbm, 93, rfl⟩
abbrev main_v68 : Ref sig .tc := ⟨.hbm, 94, rfl⟩
abbrev main_v69 : Ref sig .tc := ⟨.hbm, 95, rfl⟩
abbrev main_v70 : Ref sig .tc := ⟨.hbm, 96, rfl⟩

abbrev nD : Nat := 1
abbrev τ : Topo := Topo.v7x

variable {F : FTy → Type} [FloatOps F]

class Facts₀ : Prop where
  bcast_S1024_S1x1x1024_2 : S1024.BroadcastsInDim S1x1x1024 (![2] : Fin 1 → Fin S1x1x1024.rank)
  bcast_S1x1x1024_S256x64x1024_0_1_2 : S1x1x1024.BroadcastsInDim S256x64x1024 (![0, 1, 2] : Fin 3 → Fin S256x64x1024.rank)
  bcast_S_S256x64x1024 : S_.BroadcastsInDim S256x64x1024 (![] : Fin 0 → Fin S256x64x1024.rank)
  bcast_S256x64x1_S256x64x1024_0_1_2 : S256x64x1.BroadcastsInDim S256x64x1024 (![0, 1, 2] : Fin 3 → Fin S256x64x1024.rank)
  bcast_S_S256x64x1 : S_.BroadcastsInDim S256x64x1 (![] : Fin 0 → Fin S256x64x1.rank)
  dot_S256x64x1024_S1024x1024_S256x64x1024_2_1_01_0_n_n_wf : DotDims.WF S256x64x1024 S1024x1024 S256x64x1024 [2] [1] [0, 1] [0] [] []
  dot_S256x64x512_S1024x512_S256x64x1024_2_1_01_0_n_n_wf : DotDims.WF S256x64x512 S1024x512 S256x64x1024 [2] [1] [0, 1] [0] [] []

variable [Facts₀]

def dot_S256x64x1024_S1024x1024_S256x64x1024_2_1_01_0_n_n : DotDims S256x64x1024 S1024x1024 S256x64x1024 where
  lhsContracting := [2]
  rhsContracting := [1]
  lhsNonContracting := [0, 1]
  rhsNonContracting := [0]
  lhsBatch := []
  rhsBatch := []
  wf := dot_S256x64x1024_S1024x1024_S256x64x1024_2_1_01_0_n_n_wf
def dot_S256x64x512_S1024x512_S256x64x1024_2_1_01_0_n_n : DotDims S256x64x512 S1024x512 S256x64x1024 where
  lhsContracting := [2]
  rhsContracting := [1]
  lhsNonContracting := [0, 1]
  rhsNonContracting := [0]
  lhsBatch := []
  rhsBatch := []
  wf := dot_S256x64x512_S1024x512_S256x64x1024_2_1_01_0_n_n_wf

class Facts : Prop extends Facts₀ where

variable [Facts]
-- ==== Proof.CellSpec.lean ====
/-
  One step of a recurrent cell with exponential gates and a running-maximum stabiliser, over the extended reals.

  From the previous hidden state `h` and the input `z` each of the four gates (input, forget, output, cell input)
  gets a pre-activation: a row of `h` against a weight matrix plus a bias, plus a row of `z` against a second
  weight matrix plus a second bias. With `i`, `f`, `o`, `g` those four numbers at one entry, and `c`, `m`, `n`, `h`
  the previous cell state, stabiliser, normaliser and hidden state there, the step is

      m' = max (f + m) i          i' = exp (i - m')        f' = exp (f + m - m')
      n' = f' * n + i'
      c' = (c * f' + tanh g * i') * mask + (1 - mask) * c
      h' = sigmoid o * (c' / n') * mask + (1 - mask) * h

  where `mask` is one number per row. This file states that step three times: at one entry (scalars), over a
  matrix of `R` rows (the form a row-tiled computation has, whole or block by block), and over a batch of
  sequences (the rank-3 form), each entry by entry. Nothing here is about a program.
-/
import Idealize.ShloMosaic.PureOps.Ideal
import Idealize.ShloMosaic.Lib.ValueIdx
import Idealize.ShloMosaic.Lib.IdealHost

noncomputable section

open scoped BigOperators

namespace Cert.Cell

open Idealize.ShloMosaic Idealize.ShloMosaic.ValueIdx

/-! ## At one entry -/

/-- The float one, as the word both programs write. -/
abbrev one : EReal := Ideal.ofBits .f32 0x3F800000#32

/-- A gate's pre-activation from its four summands: (state projection + bias) + (input projection + bias). -/
def pre (hw b zr rb : EReal) : EReal := (hw + b) + (zr + rb)

/-- The new stabiliser: the larger of the forget path and the input gate's pre-activation. -/
def mNew (i f m : EReal) : EReal := max (f + m) i

/-- The stabilised input gate. -/
def iGate (i f m : EReal) : EReal := Ideal.exp (i - mNew i f m)

/-- The stabilised forget gate. -/
def fGate (i f m : EReal) : EReal := Ideal.exp (f + m - mNew i f m)

/-- The new normaliser. -/
def nNew (i f m n : EReal) : EReal := fGate i f m * n + iGate i f m

/-- The new cell state, kept where the row's mask is zero. -/
def cNew (i f g c m mk : EReal) : EReal :=
  (c * fGate i f m + Ideal.tanh g * iGate i f m) * mk + (one - mk) * c

/-- The new hidden state, kept where the row's mask is zero. -/
def hNew (i f o g c m n h mk : EReal) : EReal :=
  Ideal.logistic o * Ideal.div (cNew i f g c m mk) (nNew i f m n) * mk + (one - mk) * h

/-- The sigmoid spelt as a quotient, with the float one for both ones, is the logistic function. -/
theorem logistic_spelt (x : EReal) : Ideal.div one (one + Ideal.exp (-x)) = Ideal.logistic x := by
  unfold one
  rw [Ideal.ofBits_one_f32]
  rfl

/-! ## Over a matrix of `R` rows -/

/-- The operands of the step over `R` rows: the input rows (width 512), the four state matrices (width 1024), the
    row mask, the four state weight matrices and the four input weight matrices laid out contraction axis first,
    and the eight bias vectors. -/
structure Operands (R : Nat) where
  z : (⟨2, ![R, 512]⟩ : Shape).Idx → EReal
  h : (⟨2, ![R, 1024]⟩ : Shape).Idx → EReal
  c : (⟨2, ![R, 1024]⟩ : Shape).Idx → EReal
  m : (⟨2, ![R, 1024]⟩ : Shape).Idx → EReal
  n : (⟨2, ![R, 1024]⟩ : Shape).Idx → EReal
  msk : (⟨2, ![R, 1]⟩ : Shape).Idx → EReal
  wi : (⟨2, ![1024, 1024]⟩ : Shape).Idx → EReal
  wf : (⟨2, ![1024, 1024]⟩ : Shape).Idx → EReal
  wo : (⟨2, ![1024, 1024]⟩ : Shape).Idx → EReal
  wg : (⟨2, ![1024, 1024]⟩ : Shape).Idx → EReal
  ri : (⟨2, ![512, 1024]⟩ : Shape).Idx → EReal
  rf : (⟨2, ![512, 1024]⟩ : Shape).Idx → EReal
  ro : (⟨2, ![512, 1024]⟩ : Shape).Idx → EReal
  rg : (⟨2, ![512, 1024]⟩ : Shape).Idx → EReal
  bi : (⟨1, ![1024]⟩ : Shape).Idx → EReal
  bf : (⟨1, ![1024]⟩ : Shape).Idx → EReal
  bo : (⟨1, ![1024]⟩ : Shape).Idx → EReal
  bg : (⟨1, ![1024]⟩ : Shape).Idx → EReal
  rbi : (⟨1, ![1024]⟩ : Shape).Idx → EReal
  rbf : (⟨1, ![1024]⟩ : Shape).Idx → EReal
  rbo : (⟨1, ![1024]⟩ : Shape).Idx → EReal
  rbg : (⟨1, ![1024]⟩ : Shape).Idx → EReal

namespace Operands

variable {R : Nat} (A : Operands R)

/-- One gate's pre-activation at row `r`, column `f`, for the gate's two weight matrices and two biases. -/
def gate (w : (⟨2, ![1024, 1024]⟩ : Shape).Idx → EReal) (b : (⟨1, ![1024]⟩ : Shape).Idx → EReal)
    (r' : (⟨2, ![512, 1024]⟩ : Shape).Idx → EReal) (rb : (⟨1, ![1024]⟩ : Shape).Idx → EReal) (r : Fin R) (f : Fin 1024) : EReal :=
  pre (∑ k : Fin 1024, A.h (ix2 r k) * w (ix2 k f)) (b (ix1 f)) (∑ k : Fin 512, A.z (ix2 r k) * r' (ix2 k f)) (rb (ix1 f))

def gi (r : Fin R) (f : Fin 1024) : EReal := A.gate A.wi A.bi A.ri A.rbi r f
def gf (r : Fin R) (f : Fin 1024) : EReal := A.gate A.wf A.bf A.rf A.rbf r f
def go (r : Fin R) (f : Fin 1024) : EReal := A.gate A.wo A.bo A.ro A.rbo r f
def gg (r : Fin R) (f : Fin 1024) : EReal := A.gate A.wg A.bg A.rg A.rbg r f

/-- The new cell state, entry by entry. -/
def cOut : (⟨2, ![R, 1024]⟩ : Shape).Idx → EReal := fun j =>
  cNew (A.gi (j 0) (j 1)) (A.gf (j 0) (j 1)) (A.gg (j 0) (j 1)) (A.c (ix2 (j 0) (j 1))) (A.m (ix2 (j 0) (j 1))) (A.msk (ix2 (j 0) (0 : Fin 1)))

/-- The new stabiliser, entry by entry. -/
def mOut : (⟨2, ![R, 1024]⟩ : Shape).Idx → EReal := fun j =>
  mNew (A.gi (j 0) (j 1)) (A.gf (j 0) (j 1)) (A.m (ix2 (j 0) (j 1)))

/-- The new hidden state, entry by entry. -/
def hOut : (⟨2, ![R, 1024]⟩ : Shape).Idx → EReal := fun j =>
  hNew (A.gi (j 0) (j 1)) (A.gf (j 0) (j 1)) (A.go (j 0) (j 1)) (A.gg (j 0) (j 1)) (A.c (ix2 (j 0) (j 1))) (A.m (ix2 (j 0) (j 1)))
    (A.n (ix2 (j 0) (j 1))) (A.h (ix2 (j 0) (j 1))) (A.msk (ix2 (j 0) (0 : Fin 1)))

/-- The new normaliser, entry by entry. -/
def nOut : (⟨2, ![R, 1024]⟩ : Shape).Idx → EReal := fun j =>
  nNew (A.gi (j 0) (j 1)) (A.gf (j 0) (j 1)) (A.m (ix2 (j 0) (j 1))) (A.n (ix2 (j 0) (j 1)))

end Operands

/-! ## Over a batch of sequences -/

/-- The operands in their given layout: a batch of 256 sequences of 64 rows, the weight matrices output axis first. -/
structure Args where
  z : (⟨3, ![256, 64, 512]⟩ : Shape).Idx → EReal
  c : (⟨3, ![256, 64, 1024]⟩ : Shape).Idx → EReal
  m : (⟨3, ![256, 64, 1024]⟩ : Shape).Idx → EReal
  h : (⟨3, ![256, 64, 1024]⟩ : Shape).Idx → EReal
  n : (⟨3, ![256, 64, 1024]⟩ : Shape).Idx → EReal
  msk : (⟨3, ![256, 64, 1]⟩ : Shape).Idx → EReal
  wi : (⟨2, ![1024, 1024]⟩ : Shape).Idx → EReal
  bi : (⟨1, ![1024]⟩ : Shape).Idx → EReal
  wf : (⟨2, ![1024, 1024]⟩ : Shape).Idx → EReal
  bf : (⟨1, ![1024]⟩ : Shape).Idx → EReal
  wo : (⟨2, ![1024, 1024]⟩ : Shape).Idx → EReal
  bo : (⟨1, ![1024]⟩ : Shape).Idx → EReal
  wg : (⟨2, ![1024, 1024]⟩ : Shape).Idx → EReal
  bg : (⟨1, ![1024]⟩ : Shape).Idx → EReal
  ri : (⟨2, ![1024, 512]⟩ : Shape).Idx → EReal
  rbi : (⟨1, ![1024]⟩ : Shape).Idx → EReal
  rf : (⟨2, ![1024, 512]⟩ : Shape).Idx → EReal
  rbf : (⟨1, ![1024]⟩ : Shape).Idx → EReal
  ro : (⟨2, ![1024, 512]⟩ : Shape).Idx → EReal
  rbo : (⟨1, ![1024]⟩ : Shape).Idx → EReal
  rg : (⟨2, ![1024, 512]⟩ : Shape).Idx → EReal
  rbg : (⟨1, ![1024]⟩ : Shape).Idx → EReal

namespace Args

variable (A : Args)

/-- One gate's pre-activation at sequence `a`, row `b`, column `f`: the weight matrices are read output axis first. -/
def gate (w : (⟨2, ![1024, 1024]⟩ : Shape).Idx → EReal) (b' : (⟨1, ![1024]⟩ : Shape).Idx → EReal)
    (r' : (⟨2, ![1024, 512]⟩ : Shape).Idx → EReal) (rb : (⟨1, ![1024]⟩ : Shape).Idx → EReal)
    (a : Fin 256) (b : Fin 64) (f : Fin 1024) : EReal :=
  pre (∑ k : Fin 1024, A.h (ix3 a b k) * w (ix2 f k)) (b' (ix1 f)) (∑ k : Fin 512, A.z (ix3 a b k) * r' (ix2 f k)) (rb (ix1 f))

def gi (a : Fin 256) (b : Fin 64) (f : Fin 1024) : EReal := A.gate A.wi A.bi A.ri A.rbi a b f
def gf (a : Fin 256) (b : Fin 64) (f : Fin 1024) : EReal := A.gate A.wf A.bf A.rf A.rbf a b f
def go (a : Fin 256) (b : Fin 64) (f : Fin 1024) : EReal := A.gate A.wo A.bo A.ro A.rbo a b f
def gg (a : Fin 256) (b : Fin 64) (f : Fin 1024) : EReal := A.gate A.wg A.bg A.rg A.rbg a b f

/-- The new cell state, entry by entry. -/
def cOut : (⟨3, ![256, 64, 1024]⟩ : Shape).Idx → EReal := fun i =>
  cNew (A.gi (i 0) (i 1) (i 2)) (A.gf (i 0) (i 1) (i 2)) (A.gg (i 0) (i 1) (i 2)) (A.c (ix3 (i 0) (i 1) (i 2))) (A.m (ix3 (i 0) (i 1) (i 2)))
    (A.msk (ix3 (i 0) (i 1) (0 : Fin 1)))

/-- The new stabiliser, entry by entry. -/
def mOut : (⟨3, ![256, 64, 1024]⟩ : Shape).Idx → EReal := fun i =>
  mNew (A.gi (i 0) (i 1) (i 2)) (A.gf (i 0) (i 1) (i 2)) (A.m (ix3 (i 0) (i 1) (i 2)))

/-- The new hidden state, entry by entry. -/
def hOut : (⟨3, ![256, 64, 1024]⟩ : Shape).Idx → EReal := fun i =>
  hNew (A.gi (i 0) (i 1) (i 2)) (A.gf (i 0) (i 1) (i 2)) (A.go (i 0) (i 1) (i 2)) (A.gg (i 0) (i 1) (i 2)) (A.c (ix3 (i 0) (i 1) (i 2)))
    (A.m (ix3 (i 0) (i 1) (i 2))) (A.n (ix3 (i 0) (i 1) (i 2))) (A.h (ix3 (i 0) (i 1) (i 2))) (A.msk (ix3 (i 0) (i 1) (0 : Fin 1)))

/-- The new normaliser, entry by entry. -/
def nOut : (⟨3, ![256, 64, 1024]⟩ : Shape).Idx → EReal := fun i =>
  nNew (A.gi (i 0) (i 1) (i 2)) (A.gf (i 0) (i 1) (i 2)) (A.m (ix3 (i 0) (i 1) (i 2))) (A.n (ix3 (i 0) (i 1) (i 2)))

end Args

end Cert.Cell

end
-- ==== Proof.LibDotRow.lean ====
/-
  A matrix product with ONE contracted axis, read at an index, as a sum over the contracted coordinate.

  For dimension numbers `d` of an [M, K] by [K, N] product into [M, N] — the left operand contracted on its
  second axis, the right one on its first — the sum over the contraction index set of
  `L (d.lhsIdx (p, f) k) * R (d.rhsIdx (p, f) k)` is `∑ k : Fin K, L (p, k) * R (k, f)`: the contraction index
  is its one coordinate, the left operand's row is the output's row and the right operand's column the
  output's column. The matrix unit's product into a zero accumulator and the host's `dot_general`, read at
  the exact values, are both that sum.
-/
import Idealize.ShloMosaic.Lib.ValueIdx
import Idealize.ShloMosaic.PureOps.Ideal.Laws

noncomputable section

namespace Idealize.ShloMosaic.DotRow

open Idealize.ShloMosaic Idealize.ShloMosaic.ValueIdx

variable {M K N : Nat}

/-- The contraction's sum over its index set is the sum over the contracted coordinate. -/
theorem sum_contr (d : DotDims ⟨2, ![M, K]⟩ ⟨2, ![K, N]⟩ ⟨2, ![M, N]⟩)
    (hl : d.lhsContracting = [1]) (hr : d.rhsContracting = [0])
    (hrank : d.contr.rank = 1) (hsize : d.contr.size ⟨0, by omega⟩ = K)
    (h0 : ∀ (j : (⟨2, ![M, N]⟩ : Shape).Idx) (k : d.contr.Idx), (d.lhsIdx j k 0).val = (j 0).val)
    (h1 : ∀ (j : (⟨2, ![M, N]⟩ : Shape).Idx) (k : d.contr.Idx), (d.rhsIdx j k 1).val = (j 1).val)
    (L : (⟨2, ![M, K]⟩ : Shape).Idx → EReal) (R : (⟨2, ![K, N]⟩ : Shape).Idx → EReal) (p : Fin M) (f : Fin N) :
    ∑ k : d.contr.Idx, L (d.lhsIdx (ix2 p f) k) * R (d.rhsIdx (ix2 p f) k) = ∑ k : Fin K, L (ix2 p k) * R (ix2 k f) := by
  rw [← Equiv.sum_comp (contrEquiv1 d K hrank hsize).symm]
  refine Finset.sum_congr rfl fun k _ => ?_
  have el : d.lhsIdx (ix2 p f) ((contrEquiv1 d K hrank hsize).symm k) = ix2 p k := by
    funext a; apply Fin.ext
    match a with
    | ⟨0, _⟩ => exact h0 _ _
    | ⟨1, _⟩ =>
      show (d.lhsIdx (ix2 p f) ((contrEquiv1 d K hrank hsize).symm k) 1).val = k.val
      rw [d.lhsIdx_val_of_single hl]
      exact contrEquiv1_symm_val d K hrank hsize k
  have er : d.rhsIdx (ix2 p f) ((contrEquiv1 d K hrank hsize).symm k) = ix2 k f := by
    funext a; apply Fin.ext
    match a with
    | ⟨0, _⟩ =>
      show (d.rhsIdx (ix2 p f) ((contrEquiv1 d K hrank hsize).symm k) 0).val = k.val
      rw [d.rhsIdx_val_of_single hr]
      exact contrEquiv1_symm_val d K hrank hsize k
    | ⟨1, _⟩ => exact h1 _ _
  rw [el, er]

end Idealize.ShloMosaic.DotRow

end
-- ==== Proof.LibColumnBroadcast.lean ====
/-
  Column broadcasts read at an index, beside the library's row broadcast: a `[a, 1]` array broadcast to `[a, b]` reads, at `(p, c)`,
  the operand's one column at row `p`.
-/
import Idealize.ShloMosaic.Lib.ValueLayout
import Idealize.ShloMosaic.Lib.Pipeline.Value

namespace Idealize.ShloMosaic.ValueIdx

variable {α : Type}

/-- A `[a, 1]` array broadcast to `[a, b]` reads, at `(p, c)`, the operand's one column at row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Idealize.ShloMosaic.ValueIdx
-- ==== Proof.KernelPayload.lean ====
/-
  What one grid point of the kernel computes, entry by entry.

  The body loads a block of 128 rows of the input, the four state matrices and the mask, the eight weight
  matrices (already transposed: contraction axis first) and the eight biases, and stores four 128 × 1024 blocks.
  Read at entry `(p, f)`:
  * each matrix product into a zero accumulator is the sum over `k` of the left operand at `(p, k)` times the
    right operand at `(k, f)`; narrowing to the 16-bit format changes nothing at the exact values;
  * a bias vector, laid out as one row and repeated down the rows, contributes its entry `f`; the mask column,
    repeated across the columns, contributes its entry `p`;
  * everything else is entrywise.
  So the four stored blocks are the four results of the recurrent step (CellSpec) on the loaded blocks.
-/
import proofs.«114323_j25366076850664_1_alg».proof.Proof.Gen.KernelIdeal.Frame
import proofs.«114323_j25366076850664_1_alg».proof.Proof.CellSpec
import proofs.«114323_j25366076850664_1_alg».proof.Proof.LibDotRow
import proofs.«114323_j25366076850664_1_alg».proof.Proof.LibColumnBroadcast
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

open scoped BigOperators

namespace Cert.KernelIdeal.CellValue

open Cert.KernelIdeal Cert.KernelIdeal.Gen Idealize.ShloMosaic Idealize.ShloMosaic.ValueIdx Cert.Cell

theorem hz2 : (![0, 0] : Fin 2 → Nat) = fun _ => 0 := funext fun a => by fin_cases a <;> rfl
theorem hz1 : (![0] : Fin 1 → Nat) = fun _ => 0 := funext fun a => by fin_cases a; rfl

/-! ## The pieces that are not entrywise -/

/-- A bias vector laid out as one row and repeated down 128 rows reads, at `(p, f)`, the bias at `f`. -/
theorem bias_apply (b : Vec Ideal S1024 .f32) (sc : S1024.ShapeCasts S1x1024) (bc : S1x1024.Broadcasts S128x1024)
    (p : Fin 128) (f : Fin 1024) : broadcastTo S128x1024 (shapeCast S1x1024 b sc) bc (ix2 p f) = b (ix1 f) := by
  rw [broadcastTo_1b_ab_apply, shapeCast_a_1a_apply]

/-- The state product's left operand is read at the output's row. -/
theorem dotW_lhs0 (j : S128x1024.Idx) (k : dot_S128x1024_S1024x1024_S128x1024_1_0_0_1_n_n.contr.Idx) : (dot_S128x1024_S1024x1024_S128x1024_1_0_0_1_n_n.lhsIdx j k 0).val = (j 0).val := by
  unfold DotDims.lhsIdx
  rw [dif_neg (show ¬(0 : Fin S128x1024.rank) ∈ dot_S128x1024_S1024x1024_S128x1024_1_0_0_1_n_n.lhsBatch by decide),
    dif_pos (show (0 : Fin S128x1024.rank) ∈ dot_S128x1024_S1024x1024_S128x1024_1_0_0_1_n_n.lhsNonContracting by decide)]
  rfl

/-- The state product's right operand is read at the output's column. -/
theorem dotW_rhs1 (j : S128x1024.Idx) (k : dot_S128x1024_S1024x1024_S128x1024_1_0_0_1_n_n.contr.Idx) : (dot_S128x1024_S1024x1024_S128x1024_1_0_0_1_n_n.rhsIdx j k 1).val = (j 1).val := by
  unfold DotDims.rhsIdx
  rw [dif_neg (show ¬(1 : Fin S1024x1024.rank) ∈ dot_S128x1024_S1024x1024_S128x1024_1_0_0_1_n_n.rhsBatch by decide),
    dif_pos (show (1 : Fin S1024x1024.rank) ∈ dot_S128x1024_S1024x1024_S128x1024_1_0_0_1_n_n.rhsNonContracting by decide)]
  rfl

/-- The input product's left operand is read at the output's row. -/
theorem dotR_lhs0 (j : S128x1024.Idx) (k : dot_S128x512_S512x1024_S128x1024_1_0_0_1_n_n.contr.Idx) : (dot_S128x512_S512x1024_S128x1024_1_0_0_1_n_n.lhsIdx j k 0).val = (j 0).val := by
  unfold DotDims.lhsIdx
  rw [dif_neg (show ¬(0 : Fin S128x512.rank) ∈ dot_S128x512_S512x1024_S128x1024_1_0_0_1_n_n.lhsBatch by decide),
    dif_pos (show (0 : Fin S128x512.rank) ∈ dot_S128x512_S512x1024_S128x1024_1_0_0_1_n_n.lhsNonContracting by decide)]
  rfl

/-- The input product's right operand is read at the output's column. -/
theorem dotR_rhs1 (j : S128x1024.Idx) (k : dot_S128x512_S512x1024_S128x1024_1_0_0_1_n_n.contr.Idx) : (dot_S128x512_S512x1024_S128x1024_1_0_0_1_n_n.rhsIdx j k 1).val = (j 1).val := by
  unfold DotDims.rhsIdx
  rw [dif_neg (show ¬(1 : Fin S512x1024.rank) ∈ dot_S128x512_S512x1024_S128x1024_1_0_0_1_n_n.rhsBatch by decide),
    dif_pos (show (1 : Fin S512x1024.rank) ∈ dot_S128x512_S512x1024_S128x1024_1_0_0_1_n_n.rhsNonContracting by decide)]
  rfl

/-- The 128 × 1024 by 1024 × 1024 product into zero, at `(p, f)`: the sum over the 1024 contracted entries. -/
theorem matmulW_apply (hL : FVec Ideal S128x1024 .bf16) (w : Vec Ideal S1024x1024 .bf16) (sc : S1024x1024.ShapeCasts S1024x1024)
    (p : Fin 128) (f : Fin 1024) :
    matmul dot_S128x1024_S1024x1024_S128x1024_1_0_0_1_n_n none hL (shapeCast S1024x1024 w sc : FVec Ideal S1024x1024 .bf16) (constant (F := Ideal) S128x1024 .f32 0x00000000#32) (ix2 p f)
      = ∑ k : Fin 1024, hL (ix2 p k) * w (ix2 k f) := by
  rw [shapeCast_self]
  simp only [matmul]
  rw [Ideal.matmul_constant_zero_apply]
  exact DotRow.sum_contr dot_S128x1024_S1024x1024_S128x1024_1_0_0_1_n_n rfl rfl rfl rfl dotW_lhs0 dotW_rhs1 hL w p f

/-- The 128 × 512 by 512 × 1024 product into zero, at `(p, f)`: the sum over the 512 contracted entries. -/
theorem matmulR_apply (zL : FVec Ideal S128x512 .bf16) (r : Vec Ideal S512x1024 .bf16) (sc : S512x1024.ShapeCasts S512x1024)
    (p : Fin 128) (f : Fin 1024) :
    matmul dot_S128x512_S512x1024_S128x1024_1_0_0_1_n_n none zL (shapeCast S512x1024 r sc : FVec Ideal S512x1024 .bf16) (constant (F := Ideal) S128x1024 .f32 0x00000000#32) (ix2 p f)
      = ∑ k : Fin 512, zL (ix2 p k) * r (ix2 k f) := by
  rw [shapeCast_self]
  simp only [matmul]
  rw [Ideal.matmul_constant_zero_apply]
  exact DotRow.sum_contr dot_S128x512_S512x1024_S128x1024_1_0_0_1_n_n rfl rfl rfl rfl dotR_lhs0 dotR_rhs1 zL r p f

/-- One gate's pre-activation as the body spells it, at `(p, f)`. -/
theorem lin_apply (hL : FVec Ideal S128x1024 .bf16) (zL : FVec Ideal S128x512 .bf16) (w : Vec Ideal S1024x1024 .bf16)
    (b : Vec Ideal S1024 .f32) (r : Vec Ideal S512x1024 .bf16) (rb : Vec Ideal S1024 .f32)
    (sc1 : S1024x1024.ShapeCasts S1024x1024) (sc2 : S1024.ShapeCasts S1x1024) (sc3 : S512x1024.ShapeCasts S512x1024)
    (bc : S1x1024.Broadcasts S128x1024) (p : Fin 128) (f : Fin 1024) :
    addf (addf (matmul dot_S128x1024_S1024x1024_S128x1024_1_0_0_1_n_n none hL (shapeCast S1024x1024 w sc1 : FVec Ideal S1024x1024 .bf16) (constant (F := Ideal) S128x1024 .f32 0x00000000#32))
          (broadcastTo S128x1024 (shapeCast S1x1024 b sc2) bc))
        (addf (matmul dot_S128x512_S512x1024_S128x1024_1_0_0_1_n_n none zL (shapeCast S512x1024 r sc3 : FVec Ideal S512x1024 .bf16) (constant (F := Ideal) S128x1024 .f32 0x00000000#32))
          (broadcastTo S128x1024 (shapeCast S1x1024 rb sc2) bc)) (ix2 p f)
      = pre (∑ k : Fin 1024, hL (ix2 p k) * w (ix2 k f)) (b (ix1 f)) (∑ k : Fin 512, zL (ix2 p k) * r (ix2 k f)) (rb (ix1 f)) := by
  rw [addf_apply, addf_apply, addf_apply, matmulW_apply, matmulR_apply, bias_apply, bias_apply]
  rfl

/-- Narrowing the loaded state block to the 16-bit format leaves its exact values. -/
theorem pay9_eq (v0 : Vec Ideal S128x1024 .f32) : k0_pay9 (F := Ideal) v0 = v0 := by
  funext i
  show shapeCast S128x1024 v0 _ i = v0 i
  rw [shapeCast_self]

/-- The same for the loaded input block. -/
theorem pay10_eq (v2 : Vec Ideal S128x512 .f32) : k0_pay10 (F := Ideal) v2 = v2 := by
  funext i
  show shapeCast S128x512 v2 _ i = v2 i
  rw [shapeCast_self]

theorem pay8_eq (v0 : Vec Ideal S128x1024 .f32) : k0_pay8 (F := Ideal) v0 = v0 := shapeCast_self _ _
theorem pay15_eq (v : Vec Ideal S128x1024 .f32) : k0_pay15 (F := Ideal) v = v := shapeCast_self _ _
theorem pay16_eq (v : Vec Ideal S128x1024 .f32) : k0_pay16 (F := Ideal) v = v := shapeCast_self _ _
theorem pay17_eq (v : Vec Ideal S128x1024 .f32) : k0_pay17 (F := Ideal) v = v := shapeCast_self _ _
theorem pay18_eq (v : Vec Ideal S128x1 .f32) : k0_pay18 (F := Ideal) v = v := by
  show shapeCast S128x1 (shapeCast S128x1 v _) _ = v
  rw [shapeCast_self, shapeCast_self]

/-- The input gate's pre-activation, at `(p, f)`. -/
theorem pay11_apply (v0 : Vec Ideal S128x1024 .f32) (v2 : Vec Ideal S128x512 .f32) (v6 : Vec Ideal S1024x1024 .bf16)
    (v9 : Vec Ideal S1024 .f32) (v13 : Vec Ideal S512x1024 .bf16) (v16 : Vec Ideal S1024 .f32) (p : Fin 128) (f : Fin 1024) :
    k0_pay11 (F := Ideal) v0 v2 v6 v9 v13 v16 (ix2 p f)
      = pre (∑ k : Fin 1024, v0 (ix2 p k) * v6 (ix2 k f)) (v9 (ix1 f)) (∑ k : Fin 512, v2 (ix2 p k) * v13 (ix2 k f)) (v16 (ix1 f)) := by
  refine (lin_apply (k0_pay9 v0) (k0_pay10 v2) v6 v9 v13 v16 _ _ _ _ p f).trans ?_
  rw [pay9_eq, pay10_eq]

/-- The forget gate's pre-activation, at `(p, f)`. -/
theorem pay12_apply (v0 : Vec Ideal S128x1024 .f32) (v2 : Vec Ideal S128x512 .f32) (v6 : Vec Ideal S1024x1024 .bf16)
    (v9 : Vec Ideal S1024 .f32) (v13 : Vec Ideal S512x1024 .bf16) (v16 : Vec Ideal S1024 .f32) (p : Fin 128) (f : Fin 1024) :
    k0_pay12 (F := Ideal) v0 v2 v6 v9 v13 v16 (ix2 p f)
      = pre (∑ k : Fin 1024, v0 (ix2 p k) * v6 (ix2 k f)) (v9 (ix1 f)) (∑ k : Fin 512, v2 (ix2 p k) * v13 (ix2 k f)) (v16 (ix1 f)) := by
  refine (lin_apply (k0_pay9 v0) (k0_pay10 v2) v6 v9 v13 v16 _ _ _ _ p f).trans ?_
  rw [pay9_eq, pay10_eq]

/-- The output gate's pre-activation, at `(p, f)`, from the narrowed blocks. -/
theorem pay13_apply (v4 : FVec Ideal S128x1024 .bf16) (v5 : FVec Ideal S128x512 .bf16) (v6 : Vec Ideal S1024x1024 .bf16)
    (v9 : Vec Ideal S1024 .f32) (v13 : Vec Ideal S512x1024 .bf16) (v16 : Vec Ideal S1024 .f32) (p : Fin 128) (f : Fin 1024) :
    k0_pay13 (F := Ideal) v4 v5 v6 v9 v13 v16 (ix2 p f)
      = pre (∑ k : Fin 1024, v4 (ix2 p k) * v6 (ix2 k f)) (v9 (ix1 f)) (∑ k : Fin 512, v5 (ix2 p k) * v13 (ix2 k f)) (v16 (ix1 f)) :=
  lin_apply v4 v5 v6 v9 v13 v16 _ _ _ _ p f

/-- The cell input's pre-activation, at `(p, f)`, from the narrowed blocks. -/
theorem pay14_apply (v4 : FVec Ideal S128x1024 .bf16) (v5 : FVec Ideal S128x512 .bf16) (v6 : Vec Ideal S1024x1024 .bf16)
    (v9 : Vec Ideal S1024 .f32) (v13 : Vec Ideal S512x1024 .bf16) (v16 : Vec Ideal S1024 .f32) (p : Fin 128) (f : Fin 1024) :
    k0_pay14 (F := Ideal) v4 v5 v6 v9 v13 v16 (ix2 p f)
      = pre (∑ k : Fin 1024, v4 (ix2 p k) * v6 (ix2 k f)) (v9 (ix1 f)) (∑ k : Fin 512, v5 (ix2 p k) * v13 (ix2 k f)) (v16 (ix1 f)) :=
  lin_apply v4 v5 v6 v9 v13 v16 _ _ _ _ p f

/-- The mask column repeated across the columns reads, at `(p, f)`, the mask of row `p`. -/
theorem pay1_apply (vK : FVec Ideal S128x1 .f32) (p : Fin 128) (f : Fin 1024) :
    k0_pay1 (F := Ideal) vK (ix2 p f) = vK (ix2 p (0 : Fin 1)) := by
  unfold k0_pay1
  exact broadcastTo_a1_ab_apply vK _ p f

/-! ## The entrywise chain -/

/-- The stored stabiliser block, at an entry. -/
theorem pay2_apply (vI vF vM : FVec Ideal S128x1024 .f32) (j : S128x1024.Idx) :
    k0_pay2 (F := Ideal) vI vF vM j = mNew (vI j) (vF j) (vM j) := rfl

/-- The stored normaliser block, at an entry. -/
theorem pay5_apply (vI vF vM vN : FVec Ideal S128x1024 .f32) (j : S128x1024.Idx) :
    k0_pay5 (F := Ideal) vI vF vM vN j = nNew (vI j) (vF j) (vM j) (vN j) := rfl

/-- The stored cell-state block, at `(p, f)`. -/
theorem pay6_apply (vI vF vG vC vM : FVec Ideal S128x1024 .f32) (vK : FVec Ideal S128x1 .f32) (p : Fin 128) (f : Fin 1024) :
    k0_pay6 (F := Ideal) vI vF vG vC vM vK (ix2 p f)
      = cNew (vI (ix2 p f)) (vF (ix2 p f)) (vG (ix2 p f)) (vC (ix2 p f)) (vM (ix2 p f)) (vK (ix2 p (0 : Fin 1))) := by
  have h0 : k0_pay6 (F := Ideal) vI vF vG vC vM vK (ix2 p f)
      = cNew (vI (ix2 p f)) (vF (ix2 p f)) (vG (ix2 p f)) (vC (ix2 p f)) (vM (ix2 p f)) (k0_pay1 vK (ix2 p f)) := rfl
  rw [h0, pay1_apply]

/-- The stored hidden-state block, at `(p, f)`. -/
theorem pay7_apply (vH vI vF vO vG vC vM vN : FVec Ideal S128x1024 .f32) (vK : FVec Ideal S128x1 .f32) (p : Fin 128) (f : Fin 1024) :
    k0_pay7 (F := Ideal) vH vI vF vO vG vC vM vN vK (ix2 p f)
      = hNew (vI (ix2 p f)) (vF (ix2 p f)) (vO (ix2 p f)) (vG (ix2 p f)) (vC (ix2 p f)) (vM (ix2 p f)) (vN (ix2 p f)) (vH (ix2 p f))
          (vK (ix2 p (0 : Fin 1))) := by
  have h0 : k0_pay7 (F := Ideal) vH vI vF vO vG vC vM vN vK (ix2 p f)
      = hNew (vI (ix2 p f)) (vF (ix2 p f)) (vO (ix2 p f)) (vG (ix2 p f)) (vC (ix2 p f)) (vM (ix2 p f)) (vN (ix2 p f)) (vH (ix2 p f))
          (k0_pay1 vK (ix2 p f)) := rfl
  rw [h0, pay1_apply]

/-! ## The four stored blocks -/

/-- The loaded blocks, in the order of the call's operands, as the operands of the step over 128 rows. -/
def blockOperands (x0 : Vec Ideal S128x512 .f32) (x1 x2 x3 x4 : Vec Ideal S128x1024 .f32) (x5 : Vec Ideal S128x1 .f32)
    (x6 x7 x8 x9 : Vec Ideal S1024x1024 .bf16) (x10 x11 x12 x13 : Vec Ideal S512x1024 .bf16)
    (x14 x15 x16 x17 x18 x19 x20 x21 : Vec Ideal S1024 .f32) : Operands 128 :=
  ⟨x0, x1, x2, x3, x4, x5, x6, x7, x8, x9, x10, x11, x12, x13, x14, x15, x16, x17, x18, x19, x20, x21⟩

/-- The first output's buffer after the body holds the new cell state of the loaded blocks. -/
theorem out22_eq (x0 : Vec Ideal S128x512 .f32) (x1 x2 x3 x4 : Vec Ideal S128x1024 .f32) (x5 : Vec Ideal S128x1 .f32)
    (x6 x7 x8 x9 : Vec Ideal S1024x1024 .bf16) (x10 x11 x12 x13 : Vec Ideal S512x1024 .bf16)
    (x14 x15 x16 x17 x18 x19 x20 x21 : Vec Ideal S1024 .f32) :
    out0_22 (F := Ideal) x0 x1 x2 x3 x4 x5 x6 x7 x8 x9 x10 x11 x12 x13 x14 x15 x16 x17 x18 x19 x20 x21 = (blockOperands x0 x1 x2 x3 x4 x5 x6 x7 x8 x9 x10 x11 x12 x13 x14 x15 x16 x17 x18 x19 x20 x21).cOut := by
  unfold out0_22
  rw [View.canon_unit_zero hz2]
  simp only [View.ld_unit_zero (S := S128x1024) hz2, View.ld_unit_zero (S := S128x512) hz2, View.ld_unit_zero (S := S1024x1024) hz2,
    View.ld_unit_zero (S := S512x1024) hz2, View.ld_unit_zero (S := S128x1) hz2, View.ld_unit_zero (S := S1024) hz1]
  funext y
  obtain ⟨p, f, rfl⟩ : ∃ (p : Fin 128) (f : Fin 1024), y = ix2 p f := ⟨y 0, y 1, eq_ix2 y⟩
  rw [pay6_apply, pay11_apply, pay12_apply, pay14_apply, pay9_eq, pay10_eq, pay15_eq, pay16_eq, pay18_eq]
  rfl

/-- The second output's buffer after the body holds the new stabiliser of the loaded blocks. -/
theorem out23_eq (x0 : Vec Ideal S128x512 .f32) (x1 x2 x3 x4 : Vec Ideal S128x1024 .f32) (x5 : Vec Ideal S128x1 .f32)
    (x6 x7 x8 x9 : Vec Ideal S1024x1024 .bf16) (x10 x11 x12 x13 : Vec Ideal S512x1024 .bf16)
    (x14 x15 x16 x17 x18 x19 x20 x21 : Vec Ideal S1024 .f32) :
    out0_23 (F := Ideal) x0 x1 x2 x3 x4 x5 x6 x7 x8 x9 x10 x11 x12 x13 x14 x15 x16 x17 x18 x19 x20 x21 = (blockOperands x0 x1 x2 x3 x4 x5 x6 x7 x8 x9 x10 x11 x12 x13 x14 x15 x16 x17 x18 x19 x20 x21).mOut := by
  unfold out0_23
  rw [View.canon_unit_zero hz2]
  simp only [View.ld_unit_zero (S := S128x1024) hz2, View.ld_unit_zero (S := S128x512) hz2, View.ld_unit_zero (S := S1024x1024) hz2,
    View.ld_unit_zero (S := S512x1024) hz2, View.ld_unit_zero (S := S128x1) hz2, View.ld_unit_zero (S := S1024) hz1]
  funext y
  obtain ⟨p, f, rfl⟩ : ∃ (p : Fin 128) (f : Fin 1024), y = ix2 p f := ⟨y 0, y 1, eq_ix2 y⟩
  rw [pay2_apply, pay11_apply, pay12_apply, pay16_eq]
  rfl

/-- The third output's buffer after the body holds the new hidden state of the loaded blocks. -/
theorem out24_eq (x0 : Vec Ideal S128x512 .f32) (x1 x2 x3 x4 : Vec Ideal S128x1024 .f32) (x5 : Vec Ideal S128x1 .f32)
    (x6 x7 x8 x9 : Vec Ideal S1024x1024 .bf16) (x10 x11 x12 x13 : Vec Ideal S512x1024 .bf16)
    (x14 x15 x16 x17 x18 x19 x20 x21 : Vec Ideal S1024 .f32) :
    out0_24 (F := Ideal) x0 x1 x2 x3 x4 x5 x6 x7 x8 x9 x10 x11 x12 x13 x14 x15 x16 x17 x18 x19 x20 x21 = (blockOperands x0 x1 x2 x3 x4 x5 x6 x7 x8 x9 x10 x11 x12 x13 x14 x15 x16 x17 x18 x19 x20 x21).hOut := by
  unfold out0_24
  rw [View.canon_unit_zero hz2]
  simp only [View.ld_unit_zero (S := S128x1024) hz2, View.ld_unit_zero (S := S128x512) hz2, View.ld_unit_zero (S := S1024x1024) hz2,
    View.ld_unit_zero (S := S512x1024) hz2, View.ld_unit_zero (S := S128x1) hz2, View.ld_unit_zero (S := S1024) hz1]
  funext y
  obtain ⟨p, f, rfl⟩ : ∃ (p : Fin 128) (f : Fin 1024), y = ix2 p f := ⟨y 0, y 1, eq_ix2 y⟩
  rw [pay7_apply, pay11_apply, pay12_apply, pay13_apply, pay14_apply, pay9_eq, pay10_eq, pay8_eq, pay15_eq, pay16_eq, pay17_eq, pay18_eq]
  rfl

/-- The fourth output's buffer after the body holds the new normaliser of the loaded blocks. -/
theorem out25_eq (x0 : Vec Ideal S128x512 .f32) (x1 x2 x3 x4 : Vec Ideal S128x1024 .f32) (x5 : Vec Ideal S128x1 .f32)
    (x6 x7 x8 x9 : Vec Ideal S1024x1024 .bf16) (x10 x11 x12 x13 : Vec Ideal S512x1024 .bf16)
    (x14 x15 x16 x17 x18 x19 x20 x21 : Vec Ideal S1024 .f32) :
    out0_25 (F := Ideal) x0 x1 x2 x3 x4 x5 x6 x7 x8 x9 x10 x11 x12 x13 x14 x15 x16 x17 x18 x19 x20 x21 = (blockOperands x0 x1 x2 x3 x4 x5 x6 x7 x8 x9 x10 x11 x12 x13 x14 x15 x16 x17 x18 x19 x20 x21).nOut := by
  unfold out0_25
  rw [View.canon_unit_zero hz2]
  simp only [View.ld_unit_zero (S := S128x1024) hz2, View.ld_unit_zero (S := S128x512) hz2, View.ld_unit_zero (S := S1024x1024) hz2,
    View.ld_unit_zero (S := S512x1024) hz2, View.ld_unit_zero (S := S128x1) hz2, View.ld_unit_zero (S := S1024) hz1]
  funext y
  obtain ⟨p, f, rfl⟩ : ∃ (p : Fin 128) (f : Fin 1024), y = ix2 p f := ⟨y 0, y 1, eq_ix2 y⟩
  rw [pay5_apply, pay11_apply, pay12_apply, pay16_eq, pay17_eq]
  rfl

end Cert.KernelIdeal.CellValue

end
-- ==== Proof.CellLayout.lean ====
/-
  The recurrent step and the layout of its operands.

  The step acts row by row: entry `(r, f)` of each result depends on row `r` of the row operands only. Two
  consequences are stated here, entry by entry.
  * Rows `q·128 … q·128 + 127` of the results are the results of the step on those rows of the operands
    (`Operands.rows`): a computation tiled over blocks of 128 rows computes the whole step.
  * A batch of 256 sequences of 64 rows, laid out as one matrix of 16384 rows (row `a·64 + b` is row `b` of
    sequence `a`) with every weight matrix transposed, gives the batch form of the step (`Args.flat`).
  The two reshapes between `[256, 64, N]` and `[16384, N]` are read at an index: both layouts are row-major, so
  entry `(a, b, k)` is entry `(a·64 + b, k)`.
-/
import proofs.«114323_j25366076850664_1_alg».proof.Proof.CellSpec
import Idealize.ShloMosaic.Lib.Pipeline.Value

noncomputable section

open scoped BigOperators

namespace Cert.Cell

open Idealize.ShloMosaic Idealize.ShloMosaic.ValueIdx

/-! ## The two reshapes read at an index -/

/-- `[256, 64, N] → [16384, N]` read at `(r, k)` is the operand at `(r / 64, r % 64, k)`. -/
theorem flatten_apply {α : Type} {N : Nat} (x : (⟨3, ![256, 64, N]⟩ : Shape).Idx → α)
    (h : (⟨3, ![256, 64, N]⟩ : Shape).ShapeCasts ⟨2, ![16384, N]⟩) (j : (⟨2, ![16384, N]⟩ : Shape).Idx) :
    shapeCast ⟨2, ![16384, N]⟩ x h j
      = x (ix3 ⟨(j 0).val / 64, by have := idx2_lt0 j; omega⟩ ⟨(j 0).val % 64, by omega⟩ (j 1)) := by
  refine shapeCast_apply x h j _ ?_
  rw [Shape.rowMajor_val_three, Shape.rowMajor_val_two]
  show ((j 0).val / 64 * 64 + (j 0).val % 64) * N + (j 1).val = (j 0).val * N + (j 1).val
  have e : (j 0).val / 64 * 64 + (j 0).val % 64 = (j 0).val := by omega
  rw [e]

/-- `[16384, N] → [256, 64, N]` read at `(a, b, k)` is the operand at `(a · 64 + b, k)`. -/
theorem unflatten_apply {α : Type} {N : Nat} (y : (⟨2, ![16384, N]⟩ : Shape).Idx → α)
    (h : (⟨2, ![16384, N]⟩ : Shape).ShapeCasts ⟨3, ![256, 64, N]⟩) (a : Fin 256) (b : Fin 64) (k : Fin N) :
    shapeCast ⟨3, ![256, 64, N]⟩ y h (ix3 a b k) = y (ix2 ⟨a.val * 64 + b.val, by omega⟩ k) := by
  refine shapeCast_apply y h _ _ ?_
  rw [Shape.rowMajor_val_two, Shape.rowMajor_val_three]
  rfl

/-! ## A block of 128 rows -/

namespace Operands

/-- Rows `q·128 … q·128 + 127` of the row operands, with the weights and biases as they are. -/
def rows (A : Operands 16384) (q : Nat) (hq : q < 128) : Operands 128 where
  z := fun y => A.z (ix2 ⟨q * 128 + (y 0).val, by have := idx2_lt0 y; omega⟩ (y 1))
  h := fun y => A.h (ix2 ⟨q * 128 + (y 0).val, by have := idx2_lt0 y; omega⟩ (y 1))
  c := fun y => A.c (ix2 ⟨q * 128 + (y 0).val, by have := idx2_lt0 y; omega⟩ (y 1))
  m := fun y => A.m (ix2 ⟨q * 128 + (y 0).val, by have := idx2_lt0 y; omega⟩ (y 1))
  n := fun y => A.n (ix2 ⟨q * 128 + (y 0).val, by have := idx2_lt0 y; omega⟩ (y 1))
  msk := fun y => A.msk (ix2 ⟨q * 128 + (y 0).val, by have := idx2_lt0 y; omega⟩ (y 1))
  wi := A.wi
  wf := A.wf
  wo := A.wo
  wg := A.wg
  ri := A.ri
  rf := A.rf
  ro := A.ro
  rg := A.rg
  bi := A.bi
  bf := A.bf
  bo := A.bo
  bg := A.bg
  rbi := A.rbi
  rbf := A.rbf
  rbo := A.rbo
  rbg := A.rbg

variable (A : Operands 16384) (q : Nat) (hq : q < 128)

/-- The step on a block of rows is that block of rows of the step: the new cell state. -/
theorem rows_cOut (y : (⟨2, ![128, 1024]⟩ : Shape).Idx) :
    (A.rows q hq).cOut y = A.cOut (ix2 ⟨q * 128 + (y 0).val, by have := idx2_lt0 y; omega⟩ (y 1)) := rfl

/-- The same for the new stabiliser. -/
theorem rows_mOut (y : (⟨2, ![128, 1024]⟩ : Shape).Idx) :
    (A.rows q hq).mOut y = A.mOut (ix2 ⟨q * 128 + (y 0).val, by have := idx2_lt0 y; omega⟩ (y 1)) := rfl

/-- The same for the new hidden state. -/
theorem rows_hOut (y : (⟨2, ![128, 1024]⟩ : Shape).Idx) :
    (A.rows q hq).hOut y = A.hOut (ix2 ⟨q * 128 + (y 0).val, by have := idx2_lt0 y; omega⟩ (y 1)) := rfl

/-- The same for the new normaliser. -/
theorem rows_nOut (y : (⟨2, ![128, 1024]⟩ : Shape).Idx) :
    (A.rows q hq).nOut y = A.nOut (ix2 ⟨q * 128 + (y 0).val, by have := idx2_lt0 y; omega⟩ (y 1)) := rfl

end Operands

/-! ## The batch laid out as one matrix -/

namespace Args

/-- The batch's operands as one matrix of 16384 rows — row `r` is row `r % 64` of sequence `r / 64` — with every
    weight matrix transposed (contraction axis first). -/
def flat (A : Args) : Operands 16384 where
  z := fun j => A.z (ix3 ⟨(j 0).val / 64, by have := idx2_lt0 j; omega⟩ ⟨(j 0).val % 64, by omega⟩ (j 1))
  h := fun j => A.h (ix3 ⟨(j 0).val / 64, by have := idx2_lt0 j; omega⟩ ⟨(j 0).val % 64, by omega⟩ (j 1))
  c := fun j => A.c (ix3 ⟨(j 0).val / 64, by have := idx2_lt0 j; omega⟩ ⟨(j 0).val % 64, by omega⟩ (j 1))
  m := fun j => A.m (ix3 ⟨(j 0).val / 64, by have := idx2_lt0 j; omega⟩ ⟨(j 0).val % 64, by omega⟩ (j 1))
  n := fun j => A.n (ix3 ⟨(j 0).val / 64, by have := idx2_lt0 j; omega⟩ ⟨(j 0).val % 64, by omega⟩ (j 1))
  msk := fun j => A.msk (ix3 ⟨(j 0).val / 64, by have := idx2_lt0 j; omega⟩ ⟨(j 0).val % 64, by omega⟩ (j 1))
  wi := fun j => A.wi (ix2 (j 1) (j 0))
  wf := fun j => A.wf (ix2 (j 1) (j 0))
  wo := fun j => A.wo (ix2 (j 1) (j 0))
  wg := fun j => A.wg (ix2 (j 1) (j 0))
  ri := fun j => A.ri (ix2 (j 1) (j 0))
  rf := fun j => A.rf (ix2 (j 1) (j 0))
  ro := fun j => A.ro (ix2 (j 1) (j 0))
  rg := fun j => A.rg (ix2 (j 1) (j 0))
  bi := A.bi
  bf := A.bf
  bo := A.bo
  bg := A.bg
  rbi := A.rbi
  rbf := A.rbf
  rbo := A.rbo
  rbg := A.rbg

variable (A : Args)

/-- Row `a · 64 + b` of the matrix is row `b` of sequence `a`. -/
theorem unrow {N : Nat} (x : (⟨3, ![256, 64, N]⟩ : Shape).Idx → EReal) (r : Fin 16384) (a : Fin 256) (b : Fin 64)
    (hr : r.val = a.val * 64 + b.val) (k : Fin N) (h1 : r.val / 64 < 256) (h2 : r.val % 64 < 64) :
    x (ix3 ⟨r.val / 64, h1⟩ ⟨r.val % 64, h2⟩ k) = x (ix3 a b k) := by
  have ea : (⟨r.val / 64, h1⟩ : Fin 256) = a := Fin.ext (by show r.val / 64 = a.val; omega)
  have eb : (⟨r.val % 64, h2⟩ : Fin 64) = b := Fin.ext (by show r.val % 64 = b.val; omega)
  rw [ea, eb]

/-- A gate's pre-activation of the matrix form, at row `a · 64 + b`, is the batch form's at `(a, b)`. -/
theorem flat_gate (w : (⟨2, ![1024, 1024]⟩ : Shape).Idx → EReal) (b' : (⟨1, ![1024]⟩ : Shape).Idx → EReal)
    (r' : (⟨2, ![1024, 512]⟩ : Shape).Idx → EReal) (rb : (⟨1, ![1024]⟩ : Shape).Idx → EReal)
    (r : Fin 16384) (a : Fin 256) (b : Fin 64) (hr : r.val = a.val * 64 + b.val) (f : Fin 1024) :
    A.flat.gate (fun j => w (ix2 (j 1) (j 0))) b' (fun j => r' (ix2 (j 1) (j 0))) rb r f = A.gate w b' r' rb a b f := by
  unfold Operands.gate Args.gate
  show pre (∑ k : Fin 1024, A.h (ix3 ⟨r.val / 64, _⟩ ⟨r.val % 64, _⟩ k) * w (ix2 f k)) (b' (ix1 f))
      (∑ k : Fin 512, A.z (ix3 ⟨r.val / 64, _⟩ ⟨r.val % 64, _⟩ k) * r' (ix2 f k)) (rb (ix1 f)) = _
  simp only [unrow _ r a b hr]

theorem flat_gi (r : Fin 16384) (a : Fin 256) (b : Fin 64) (hr : r.val = a.val * 64 + b.val) (f : Fin 1024) :
    A.flat.gi r f = A.gi a b f := flat_gate A A.wi A.bi A.ri A.rbi r a b hr f
theorem flat_gf (r : Fin 16384) (a : Fin 256) (b : Fin 64) (hr : r.val = a.val * 64 + b.val) (f : Fin 1024) :
    A.flat.gf r f = A.gf a b f := flat_gate A A.wf A.bf A.rf A.rbf r a b hr f
theorem flat_go (r : Fin 16384) (a : Fin 256) (b : Fin 64) (hr : r.val = a.val * 64 + b.val) (f : Fin 1024) :
    A.flat.go r f = A.go a b f := flat_gate A A.wo A.bo A.ro A.rbo r a b hr f
theorem flat_gg (r : Fin 16384) (a : Fin 256) (b : Fin 64) (hr : r.val = a.val * 64 + b.val) (f : Fin 1024) :
    A.flat.gg r f = A.gg a b f := flat_gate A A.wg A.bg A.rg A.rbg r a b hr f

/-- The matrix form's new cell state, reshaped to the batch, is the batch form's. -/
theorem unflatten_cOut (h : (⟨2, ![16384, 1024]⟩ : Shape).ShapeCasts ⟨3, ![256, 64, 1024]⟩) :
    shapeCast ⟨3, ![256, 64, 1024]⟩ A.flat.cOut h = A.cOut := by
  funext i
  obtain ⟨a, b, f, rfl⟩ : ∃ (a : Fin 256) (b : Fin 64) (f : Fin 1024), i = ix3 a b f := ⟨i 0, i 1, i 2, eq_ix3 i⟩
  rw [unflatten_apply]
  have hr : (⟨a.val * 64 + b.val, by omega⟩ : Fin 16384).val = a.val * 64 + b.val := rfl
  show cNew (A.flat.gi _ f) (A.flat.gf _ f) (A.flat.gg _ f) (A.c (ix3 ⟨(a.val * 64 + b.val) / 64, _⟩ ⟨(a.val * 64 + b.val) % 64, _⟩ f))
      (A.m (ix3 ⟨(a.val * 64 + b.val) / 64, _⟩ ⟨(a.val * 64 + b.val) % 64, _⟩ f))
      (A.msk (ix3 ⟨(a.val * 64 + b.val) / 64, _⟩ ⟨(a.val * 64 + b.val) % 64, _⟩ (0 : Fin 1)))
    = cNew (A.gi a b f) (A.gf a b f) (A.gg a b f) (A.c (ix3 a b f)) (A.m (ix3 a b f)) (A.msk (ix3 a b (0 : Fin 1)))
  rw [flat_gi A _ a b hr, flat_gf A _ a b hr, flat_gg A _ a b hr]
  simp only [unrow _ ⟨a.val * 64 + b.val, by omega⟩ a b hr]

/-- The same for the new stabiliser. -/
theorem unflatten_mOut (h : (⟨2, ![16384, 1024]⟩ : Shape).ShapeCasts ⟨3, ![256, 64, 1024]⟩) :
    shapeCast ⟨3, ![256, 64, 1024]⟩ A.flat.mOut h = A.mOut := by
  funext i
  obtain ⟨a, b, f, rfl⟩ : ∃ (a : Fin 256) (b : Fin 64) (f : Fin 1024), i = ix3 a b f := ⟨i 0, i 1, i 2, eq_ix3 i⟩
  rw [unflatten_apply]
  have hr : (⟨a.val * 64 + b.val, by omega⟩ : Fin 16384).val = a.val * 64 + b.val := rfl
  show mNew (A.flat.gi _ f) (A.flat.gf _ f) (A.m (ix3 ⟨(a.val * 64 + b.val) / 64, _⟩ ⟨(a.val * 64 + b.val) % 64, _⟩ f))
    = mNew (A.gi a b f) (A.gf a b f) (A.m (ix3 a b f))
  rw [flat_gi A _ a b hr, flat_gf A _ a b hr]
  simp only [unrow _ ⟨a.val * 64 + b.val, by omega⟩ a b hr]

/-- The same for the new hidden state. -/
theorem unflatten_hOut (h : (⟨2, ![16384, 1024]⟩ : Shape).ShapeCasts ⟨3, ![256, 64, 1024]⟩) :
    shapeCast ⟨3, ![256, 64, 1024]⟩ A.flat.hOut h = A.hOut := by
  funext i
  obtain ⟨a, b, f, rfl⟩ : ∃ (a : Fin 256) (b : Fin 64) (f : Fin 1024), i = ix3 a b f := ⟨i 0, i 1, i 2, eq_ix3 i⟩
  rw [unflatten_apply]
  have hr : (⟨a.val * 64 + b.val, by omega⟩ : Fin 16384).val = a.val * 64 + b.val := rfl
  show hNew (A.flat.gi _ f) (A.flat.gf _ f) (A.flat.go _ f) (A.flat.gg _ f)
      (A.c (ix3 ⟨(a.val * 64 + b.val) / 64, _⟩ ⟨(a.val * 64 + b.val) % 64, _⟩ f))
      (A.m (ix3 ⟨(a.val * 64 + b.val) / 64, _⟩ ⟨(a.val * 64 + b.val) % 64, _⟩ f))
      (A.n (ix3 ⟨(a.val * 64 + b.val) / 64, _⟩ ⟨(a.val * 64 + b.val) % 64, _⟩ f))
      (A.h (ix3 ⟨(a.val * 64 + b.val) / 64, _⟩ ⟨(a.val * 64 + b.val) % 64, _⟩ f))
      (A.msk (ix3 ⟨(a.val * 64 + b.val) / 64, _⟩ ⟨(a.val * 64 + b.val) % 64, _⟩ (0 : Fin 1)))
    = hNew (A.gi a b f) (A.gf a b f) (A.go a b f) (A.gg a b f) (A.c (ix3 a b f)) (A.m (ix3 a b f)) (A.n (ix3 a b f)) (A.h (ix3 a b f))
        (A.msk (ix3 a b (0 : Fin 1)))
  rw [flat_gi A _ a b hr, flat_gf A _ a b hr, flat_go A _ a b hr, flat_gg A _ a b hr]
  simp only [unrow _ ⟨a.val * 64 + b.val, by omega⟩ a b hr]

/-- The same for the new normaliser. -/
theorem unflatten_nOut (h : (⟨2, ![16384, 1024]⟩ : Shape).ShapeCasts ⟨3, ![256, 64, 1024]⟩) :
    shapeCast ⟨3, ![256, 64, 1024]⟩ A.flat.nOut h = A.nOut := by
  funext i
  obtain ⟨a, b, f, rfl⟩ : ∃ (a : Fin 256) (b : Fin 64) (f : Fin 1024), i = ix3 a b f := ⟨i 0, i 1, i 2, eq_ix3 i⟩
  rw [unflatten_apply]
  have hr : (⟨a.val * 64 + b.val, by omega⟩ : Fin 16384).val = a.val * 64 + b.val := rfl
  show nNew (A.flat.gi _ f) (A.flat.gf _ f) (A.m (ix3 ⟨(a.val * 64 + b.val) / 64, _⟩ ⟨(a.val * 64 + b.val) % 64, _⟩ f))
      (A.n (ix3 ⟨(a.val * 64 + b.val) / 64, _⟩ ⟨(a.val * 64 + b.val) % 64, _⟩ f))
    = nNew (A.gi a b f) (A.gf a b f) (A.m (ix3 a b f)) (A.n (ix3 a b f))
  rw [flat_gi A _ a b hr, flat_gf A _ a b hr]
  simp only [unrow _ ⟨a.val * 64 + b.val, by omega⟩ a b hr]

end Args

end Cert.Cell

end
-- ==== Proof.KernelBlocks.lean ====
/-
  From the kernel's grid points to its four result matrices.

  The grid has 128 points; point `t` works on rows `t·128 … t·128 + 127`. Its blocks of the input, of the four
  state matrices, of the mask and of each result are those 128 rows of the 16384-row arrays; the weight matrices
  and the biases are read whole at every point. So what point `t` writes back into each result is rows
  `t·128 …` of the recurrent step taken on the whole arrays as the call finds them (`entry`), the 128 blocks tile
  each result, and each result array ends holding the step's result on the whole arrays.
-/
import proofs.«114323_j25366076850664_1_alg».proof.Proof.Gen.KernelIdeal.Frame
import proofs.«114323_j25366076850664_1_alg».proof.Proof.KernelPayload
import proofs.«114323_j25366076850664_1_alg».proof.Proof.CellLayout
import Idealize.ShloMosaic.Lib.Pipeline.Value
import Idealize.ShloMosaic.Lib.ValueIdx

set_option maxRecDepth 16384

noncomputable section

namespace Cert.KernelIdeal.CellValue

open Cert.KernelIdeal Cert.KernelIdeal.Gen Idealize.ShloMosaic Idealize.ShloMosaic.ValueIdx Cert.Cell
open Idealize.ShloMosaic.Pipeline (Dat Cfg Window)

variable (m : (ℓ : Loc nD τ sig) → Buf (Elt Ideal) ℓ) (c : Dev nD)

/-! ## Which block each window reads at a grid point -/

/-- Window 0 moves with the first result's window down the rows and stays at column block 0. -/
theorem idx0 : ∀ t : Fin cfg0.N, win0_0.index t (0 : Fin 2) = win0_22.index t (0 : Fin 2) ∧ win0_0.index t (1 : Fin 2) = 0 :=
  (by decide +kernel : ∀ t : Fin grid0.N, _)
/-- Window 1 moves with the first result's window down the rows and stays at column block 0. -/
theorem idx1 : ∀ t : Fin cfg0.N, win0_1.index t (0 : Fin 2) = win0_22.index t (0 : Fin 2) ∧ win0_1.index t (1 : Fin 2) = 0 :=
  (by decide +kernel : ∀ t : Fin grid0.N, _)
/-- Window 2 moves with the first result's window down the rows and stays at column block 0. -/
theorem idx2 : ∀ t : Fin cfg0.N, win0_2.index t (0 : Fin 2) = win0_22.index t (0 : Fin 2) ∧ win0_2.index t (1 : Fin 2) = 0 :=
  (by decide +kernel : ∀ t : Fin grid0.N, _)
/-- Window 3 moves with the first result's window down the rows and stays at column block 0. -/
theorem idx3 : ∀ t : Fin cfg0.N, win0_3.index t (0 : Fin 2) = win0_22.index t (0 : Fin 2) ∧ win0_3.index t (1 : Fin 2) = 0 :=
  (by decide +kernel : ∀ t : Fin grid0.N, _)
/-- Window 4 moves with the first result's window down the rows and stays at column block 0. -/
theorem idx4 : ∀ t : Fin cfg0.N, win0_4.index t (0 : Fin 2) = win0_22.index t (0 : Fin 2) ∧ win0_4.index t (1 : Fin 2) = 0 :=
  (by decide +kernel : ∀ t : Fin grid0.N, _)
/-- Window 5 moves with the first result's window down the rows and stays at column block 0. -/
theorem idx5 : ∀ t : Fin cfg0.N, win0_5.index t (0 : Fin 2) = win0_22.index t (0 : Fin 2) ∧ win0_5.index t (1 : Fin 2) = 0 :=
  (by decide +kernel : ∀ t : Fin grid0.N, _)
/-- Window 23 moves with the first result's window down the rows and stays at column block 0. -/
theorem idx23 : ∀ t : Fin cfg0.N, win0_23.index t (0 : Fin 2) = win0_22.index t (0 : Fin 2) ∧ win0_23.index t (1 : Fin 2) = 0 :=
  (by decide +kernel : ∀ t : Fin grid0.N, _)
/-- Window 24 moves with the first result's window down the rows and stays at column block 0. -/
theorem idx24 : ∀ t : Fin cfg0.N, win0_24.index t (0 : Fin 2) = win0_22.index t (0 : Fin 2) ∧ win0_24.index t (1 : Fin 2) = 0 :=
  (by decide +kernel : ∀ t : Fin grid0.N, _)
/-- Window 25 moves with the first result's window down the rows and stays at column block 0. -/
theorem idx25 : ∀ t : Fin cfg0.N, win0_25.index t (0 : Fin 2) = win0_22.index t (0 : Fin 2) ∧ win0_25.index t (1 : Fin 2) = 0 :=
  (by decide +kernel : ∀ t : Fin grid0.N, _)
/-- The first result's window is at one of the 128 row blocks and at column block 0. -/
theorem idx22 : ∀ t : Fin cfg0.N, win0_22.index t (0 : Fin 2) ≤ 127 ∧ win0_22.index t (1 : Fin 2) = 0 :=
  (by decide +kernel : ∀ t : Fin grid0.N, _)
/-- Window 6 is read whole at every point. -/
theorem idx6 : ∀ t : Fin cfg0.N, win0_6.index t (0 : Fin 2) = 0 ∧ win0_6.index t (1 : Fin 2) = 0 :=
  (by decide +kernel : ∀ t : Fin grid0.N, _)
/-- Window 7 is read whole at every point. -/
theorem idx7 : ∀ t : Fin cfg0.N, win0_7.index t (0 : Fin 2) = 0 ∧ win0_7.index t (1 : Fin 2) = 0 :=
  (by decide +kernel : ∀ t : Fin grid0.N, _)
/-- Window 8 is read whole at every point. -/
theorem idx8 : ∀ t : Fin cfg0.N, win0_8.index t (0 : Fin 2) = 0 ∧ win0_8.index t (1 : Fin 2) = 0 :=
  (by decide +kernel : ∀ t : Fin grid0.N, _)
/-- Window 9 is read whole at every point. -/
theorem idx9 : ∀ t : Fin cfg0.N, win0_9.index t (0 : Fin 2) = 0 ∧ win0_9.index t (1 : Fin 2) = 0 :=
  (by decide +kernel : ∀ t : Fin grid0.N, _)
/-- Window 10 is read whole at every point. -/
theorem idx10 : ∀ t : Fin cfg0.N, win0_10.index t (0 : Fin 2) = 0 ∧ win0_10.index t (1 : Fin 2) = 0 :=
  (by decide +kernel : ∀ t : Fin grid0.N, _)
/-- Window 11 is read whole at every point. -/
theorem idx11 : ∀ t : Fin cfg0.N, win0_11.index t (0 : Fin 2) = 0 ∧ win0_11.index t (1 : Fin 2) = 0 :=
  (by decide +kernel : ∀ t : Fin grid0.N, _)
/-- Window 12 is read whole at every point. -/
theorem idx12 : ∀ t : Fin cfg0.N, win0_12.index t (0 : Fin 2) = 0 ∧ win0_12.index t (1 : Fin 2) = 0 :=
  (by decide +kernel : ∀ t : Fin grid0.N, _)
/-- Window 13 is read whole at every point. -/
theorem idx13 : ∀ t : Fin cfg0.N, win0_13.index t (0 : Fin 2) = 0 ∧ win0_13.index t (1 : Fin 2) = 0 :=
  (by decide +kernel : ∀ t : Fin grid0.N, _)
/-- Window 14 is read whole at every point. -/
theorem idx14 : ∀ t : Fin cfg0.N, win0_14.index t (0 : Fin 1) = 0 :=
  (by decide +kernel : ∀ t : Fin grid0.N, _)
/-- Window 15 is read whole at every point. -/
theorem idx15 : ∀ t : Fin cfg0.N, win0_15.index t (0 : Fin 1) = 0 :=
  (by decide +kernel : ∀ t : Fin grid0.N, _)
/-- Window 16 is read whole at every point. -/
theorem idx16 : ∀ t : Fin cfg0.N, win0_16.index t (0 : Fin 1) = 0 :=
  (by decide +kernel : ∀ t : Fin grid0.N, _)
/-- Window 17 is read whole at every point. -/
theorem idx17 : ∀ t : Fin cfg0.N, win0_17.index t (0 : Fin 1) = 0 :=
  (by decide +kernel : ∀ t : Fin grid0.N, _)
/-- Window 18 is read whole at every point. -/
theorem idx18 : ∀ t : Fin cfg0.N, win0_18.index t (0 : Fin 1) = 0 :=
  (by decide +kernel : ∀ t : Fin grid0.N, _)
/-- Window 19 is read whole at every point. -/
theorem idx19 : ∀ t : Fin cfg0.N, win0_19.index t (0 : Fin 1) = 0 :=
  (by decide +kernel : ∀ t : Fin grid0.N, _)
/-- Window 20 is read whole at every point. -/
theorem idx20 : ∀ t : Fin cfg0.N, win0_20.index t (0 : Fin 1) = 0 :=
  (by decide +kernel : ∀ t : Fin grid0.N, _)
/-- Window 21 is read whole at every point. -/
theorem idx21 : ∀ t : Fin cfg0.N, win0_21.index t (0 : Fin 1) = 0 :=
  (by decide +kernel : ∀ t : Fin grid0.N, _)

/-- The row block of point `t` is one of the 128. -/
theorem q_lt (t : Fin cfg0.N) : win0_22.index t (0 : Fin 2) < 128 := by
  have := (idx22 t).1; omega

/-! ## A window's block read off any array -/

/-- Window 0's block at point `t`: rows `t·128 …` of the array. -/
theorem read0 (X : S16384x512.Idx → Elt Ideal .f32) (t : Fin cfg0.N) (y : S128x512.Idx) :
    ((cfg0.win 0).blk t).view.read (Elt Ideal) X y = X (ix2 ⟨win0_22.index t (0 : Fin 2) * 128 + (y 0).val, by have := q_lt t; have := idx2_lt0 y; omega⟩ (y 1)) := by
  show X (((cfg0.win 0).blk t).view.emb y) = _
  congr 1
  funext a; apply Fin.ext
  obtain ⟨e0, e1⟩ := idx0 t
  match a with
  | ⟨0, _⟩ => show win0_0.index t (0 : Fin 2) * 128 + 1 * (y 0).val = win0_22.index t (0 : Fin 2) * 128 + (y 0).val; omega
  | ⟨1, _⟩ => show win0_0.index t (1 : Fin 2) * 512 + 1 * (y 1).val = (y 1).val; omega
/-- Window 1's block at point `t`: rows `t·128 …` of the array. -/
theorem read1 (X : S16384x1024.Idx → Elt Ideal .f32) (t : Fin cfg0.N) (y : S128x1024.Idx) :
    ((cfg0.win 1).blk t).view.read (Elt Ideal) X y = X (ix2 ⟨win0_22.index t (0 : Fin 2) * 128 + (y 0).val, by have := q_lt t; have := idx2_lt0 y; omega⟩ (y 1)) := by
  show X (((cfg0.win 1).blk t).view.emb y) = _
  congr 1
  funext a; apply Fin.ext
  obtain ⟨e0, e1⟩ := idx1 t
  match a with
  | ⟨0, _⟩ => show win0_1.index t (0 : Fin 2) * 128 + 1 * (y 0).val = win0_22.index t (0 : Fin 2) * 128 + (y 0).val; omega
  | ⟨1, _⟩ => show win0_1.index t (1 : Fin 2) * 1024 + 1 * (y 1).val = (y 1).val; omega
/-- Window 2's block at point `t`: rows `t·128 …` of the array. -/
theorem read2 (X : S16384x1024.Idx → Elt Ideal .f32) (t : Fin cfg0.N) (y : S128x1024.Idx) :
    ((cfg0.win 2).blk t).view.read (Elt Ideal) X y = X (ix2 ⟨win0_22.index t (0 : Fin 2) * 128 + (y 0).val, by have := q_lt t; have := idx2_lt0 y; omega⟩ (y 1)) := by
  show X (((cfg0.win 2).blk t).view.emb y) = _
  congr 1
  funext a; apply Fin.ext
  obtain ⟨e0, e1⟩ := idx2 t
  match a with
  | ⟨0, _⟩ => show win0_2.index t (0 : Fin 2) * 128 + 1 * (y 0).val = win0_22.index t (0 : Fin 2) * 128 + (y 0).val; omega
  | ⟨1, _⟩ => show win0_2.index t (1 : Fin 2) * 1024 + 1 * (y 1).val = (y 1).val; omega
/-- Window 3's block at point `t`: rows `t·128 …` of the array. -/
theorem read3 (X : S16384x1024.Idx → Elt Ideal .f32) (t : Fin cfg0.N) (y : S128x1024.Idx) :
    ((cfg0.win 3).blk t).view.read (Elt Ideal) X y = X (ix2 ⟨win0_22.index t (0 : Fin 2) * 128 + (y 0).val, by have := q_lt t; have := idx2_lt0 y; omega⟩ (y 1)) := by
  show X (((cfg0.win 3).blk t).view.emb y) = _
  congr 1
  funext a; apply Fin.ext
  obtain ⟨e0, e1⟩ := idx3 t
  match a with
  | ⟨0, _⟩ => show win0_3.index t (0 : Fin 2) * 128 + 1 * (y 0).val = win0_22.index t (0 : Fin 2) * 128 + (y 0).val; omega
  | ⟨1, _⟩ => show win0_3.index t (1 : Fin 2) * 1024 + 1 * (y 1).val = (y 1).val; omega
/-- Window 4's block at point `t`: rows `t·128 …` of the array. -/
theorem read4 (X : S16384x1024.Idx → Elt Ideal .f32) (t : Fin cfg0.N) (y : S128x1024.Idx) :
    ((cfg0.win 4).blk t).view.read (Elt Ideal) X y = X (ix2 ⟨win0_22.index t (0 : Fin 2) * 128 + (y 0).val, by have := q_lt t; have := idx2_lt0 y; omega⟩ (y 1)) := by
  show X (((cfg0.win 4).blk t).view.emb y) = _
  congr 1
  funext a; apply Fin.ext
  obtain ⟨e0, e1⟩ := idx4 t
  match a with
  | ⟨0, _⟩ => show win0_4.index t (0 : Fin 2) * 128 + 1 * (y 0).val = win0_22.index t (0 : Fin 2) * 128 + (y 0).val; omega
  | ⟨1, _⟩ => show win0_4.index t (1 : Fin 2) * 1024 + 1 * (y 1).val = (y 1).val; omega
/-- Window 5's block at point `t`: rows `t·128 …` of the array. -/
theorem read5 (X : S16384x1.Idx → Elt Ideal .f32) (t : Fin cfg0.N) (y : S128x1.Idx) :
    ((cfg0.win 5).blk t).view.read (Elt Ideal) X y = X (ix2 ⟨win0_22.index t (0 : Fin 2) * 128 + (y 0).val, by have := q_lt t; have := idx2_lt0 y; omega⟩ (y 1)) := by
  show X (((cfg0.win 5).blk t).view.emb y) = _
  congr 1
  funext a; apply Fin.ext
  obtain ⟨e0, e1⟩ := idx5 t
  match a with
  | ⟨0, _⟩ => show win0_5.index t (0 : Fin 2) * 128 + 1 * (y 0).val = win0_22.index t (0 : Fin 2) * 128 + (y 0).val; omega
  | ⟨1, _⟩ => show win0_5.index t (1 : Fin 2) * 1 + 1 * (y 1).val = (y 1).val; omega
/-- Window 6's block at any point is the whole array. -/
theorem read6 (X : S1024x1024.Idx → Elt Ideal .bf16) (t : Fin cfg0.N) :
    ((cfg0.win 6).blk t).view.read (Elt Ideal) X = X := by
  funext y
  show X (((cfg0.win 6).blk t).view.emb y) = X y
  congr 1
  funext a; apply Fin.ext
  obtain ⟨e0, e1⟩ := idx6 t
  match a with
  | ⟨0, _⟩ => show win0_6.index t (0 : Fin 2) * 1024 + 1 * (y 0).val = (y 0).val; omega
  | ⟨1, _⟩ => show win0_6.index t (1 : Fin 2) * 1024 + 1 * (y 1).val = (y 1).val; omega
/-- Window 7's block at any point is the whole array. -/
theorem read7 (X : S1024x1024.Idx → Elt Ideal .bf16) (t : Fin cfg0.N) :
    ((cfg0.win 7).blk t).view.read (Elt Ideal) X = X := by
  funext y
  show X (((cfg0.win 7).blk t).view.emb y) = X y
  congr 1
  funext a; apply Fin.ext
  obtain ⟨e0, e1⟩ := idx7 t
  match a with
  | ⟨0, _⟩ => show win0_7.index t (0 : Fin 2) * 1024 + 1 * (y 0).val = (y 0).val; omega
  | ⟨1, _⟩ => show win0_7.index t (1 : Fin 2) * 1024 + 1 * (y 1).val = (y 1).val; omega
/-- Window 8's block at any point is the whole array. -/
theorem read8 (X : S1024x1024.Idx → Elt Ideal .bf16) (t : Fin cfg0.N) :
    ((cfg0.win 8).blk t).view.read (Elt Ideal) X = X := by
  funext y
  show X (((cfg0.win 8).blk t).view.emb y) = X y
  congr 1
  funext a; apply Fin.ext
  obtain ⟨e0, e1⟩ := idx8 t
  match a with
  | ⟨0, _⟩ => show win0_8.index t (0 : Fin 2) * 1024 + 1 * (y 0).val = (y 0).val; omega
  | ⟨1, _⟩ => show win0_8.index t (1 : Fin 2) * 1024 + 1 * (y 1).val = (y 1).val; omega
/-- Window 9's block at any point is the whole array. -/
theorem read9 (X : S1024x1024.Idx → Elt Ideal .bf16) (t : Fin cfg0.N) :
    ((cfg0.win 9).blk t).view.read (Elt Ideal) X = X := by
  funext y
  show X (((cfg0.win 9).blk t).view.emb y) = X y
  congr 1
  funext a; apply Fin.ext
  obtain ⟨e0, e1⟩ := idx9 t
  match a with
  | ⟨0, _⟩ => show win0_9.index t (0 : Fin 2) * 1024 + 1 * (y 0).val = (y 0).val; omega
  | ⟨1, _⟩ => show win0_9.index t (1 : Fin 2) * 1024 + 1 * (y 1).val = (y 1).val; omega
/-- Window 10's block at any point is the whole array. -/
theorem read10 (X : S512x1024.Idx → Elt Ideal .bf16) (t : Fin cfg0.N) :
    ((cfg0.win 10).blk t).view.read (Elt Ideal) X = X := by
  funext y
  show X (((cfg0.win 10).blk t).view.emb y) = X y
  congr 1
  funext a; apply Fin.ext
  obtain ⟨e0, e1⟩ := idx10 t
  match a with
  | ⟨0, _⟩ => show win0_10.index t (0 : Fin 2) * 512 + 1 * (y 0).val = (y 0).val; omega
  | ⟨1, _⟩ => show win0_10.index t (1 : Fin 2) * 1024 + 1 * (y 1).val = (y 1).val; omega
/-- Window 11's block at any point is the whole array. -/
theorem read11 (X : S512x1024.Idx → Elt Ideal .bf16) (t : Fin cfg0.N) :
    ((cfg0.win 11).blk t).view.read (Elt Ideal) X = X := by
  funext y
  show X (((cfg0.win 11).blk t).view.emb y) = X y
  congr 1
  funext a; apply Fin.ext
  obtain ⟨e0, e1⟩ := idx11 t
  match a with
  | ⟨0, _⟩ => show win0_11.index t (0 : Fin 2) * 512 + 1 * (y 0).val = (y 0).val; omega
  | ⟨1, _⟩ => show win0_11.index t (1 : Fin 2) * 1024 + 1 * (y 1).val = (y 1).val; omega
/-- Window 12's block at any point is the whole array. -/
theorem read12 (X : S512x1024.Idx → Elt Ideal .bf16) (t : Fin cfg0.N) :
    ((cfg0.win 12).blk t).view.read (Elt Ideal) X = X := by
  funext y
  show X (((cfg0.win 12).blk t).view.emb y) = X y
  congr 1
  funext a; apply Fin.ext
  obtain ⟨e0, e1⟩ := idx12 t
  match a with
  | ⟨0, _⟩ => show win0_12.index t (0 : Fin 2) * 512 + 1 * (y 0).val = (y 0).val; omega
  | ⟨1, _⟩ => show win0_12.index t (1 : Fin 2) * 1024 + 1 * (y 1).val = (y 1).val; omega
/-- Window 13's block at any point is the whole array. -/
theorem read13 (X : S512x1024.Idx → Elt Ideal .bf16) (t : Fin cfg0.N) :
    ((cfg0.win 13).blk t).view.read (Elt Ideal) X = X := by
  funext y
  show X (((cfg0.win 13).blk t).view.emb y) = X y
  congr 1
  funext a; apply Fin.ext
  obtain ⟨e0, e1⟩ := idx13 t
  match a with
  | ⟨0, _⟩ => show win0_13.index t (0 : Fin 2) * 512 + 1 * (y 0).val = (y 0).val; omega
  | ⟨1, _⟩ => show win0_13.index t (1 : Fin 2) * 1024 + 1 * (y 1).val = (y 1).val; omega
/-- Window 14's block at any point is the whole vector. -/
theorem read14 (X : S1024.Idx → Elt Ideal .f32) (t : Fin cfg0.N) :
    ((cfg0.win 14).blk t).view.read (Elt Ideal) X = X := by
  funext y
  show X (((cfg0.win 14).blk t).view.emb y) = X y
  congr 1
  funext a; apply Fin.ext
  have e0 := idx14 t
  match a with
  | ⟨0, _⟩ => show win0_14.index t (0 : Fin 1) * 1024 + 1 * (y 0).val = (y 0).val; omega
/-- Window 15's block at any point is the whole vector. -/
theorem read15 (X : S1024.Idx → Elt Ideal .f32) (t : Fin cfg0.N) :
    ((cfg0.win 15).blk t).view.read (Elt Ideal) X = X := by
  funext y
  show X (((cfg0.win 15).blk t).view.emb y) = X y
  congr 1
  funext a; apply Fin.ext
  have e0 := idx15 t
  match a with
  | ⟨0, _⟩ => show win0_15.index t (0 : Fin 1) * 1024 + 1 * (y 0).val = (y 0).val; omega
/-- Window 16's block at any point is the whole vector. -/
theorem read16 (X : S1024.Idx → Elt Ideal .f32) (t : Fin cfg0.N) :
    ((cfg0.win 16).blk t).view.read (Elt Ideal) X = X := by
  funext y
  show X (((cfg0.win 16).blk t).view.emb y) = X y
  congr 1
  funext a; apply Fin.ext
  have e0 := idx16 t
  match a with
  | ⟨0, _⟩ => show win0_16.index t (0 : Fin 1) * 1024 + 1 * (y 0).val = (y 0).val; omega
/-- Window 17's block at any point is the whole vector. -/
theorem read17 (X : S1024.Idx → Elt Ideal .f32) (t : Fin cfg0.N) :
    ((cfg0.win 17).blk t).view.read (Elt Ideal) X = X := by
  funext y
  show X (((cfg0.win 17).blk t).view.emb y) = X y
  congr 1
  funext a; apply Fin.ext
  have e0 := idx17 t
  match a with
  | ⟨0, _⟩ => show win0_17.index t (0 : Fin 1) * 1024 + 1 * (y 0).val = (y 0).val; omega
/-- Window 18's block at any point is the whole vector. -/
theorem read18 (X : S1024.Idx → Elt Ideal .f32) (t : Fin cfg0.N) :
    ((cfg0.win 18).blk t).view.read (Elt Ideal) X = X := by
  funext y
  show X (((cfg0.win 18).blk t).view.emb y) = X y
  congr 1
  funext a; apply Fin.ext
  have e0 := idx18 t
  match a with
  | ⟨0, _⟩ => show win0_18.index t (0 : Fin 1) * 1024 + 1 * (y 0).val = (y 0).val; omega
/-- Window 19's block at any point is the whole vector. -/
theorem read19 (X : S1024.Idx → Elt Ideal .f32) (t : Fin cfg0.N) :
    ((cfg0.win 19).blk t).view.read (Elt Ideal) X = X := by
  funext y
  show X (((cfg0.win 19).blk t).view.emb y) = X y
  congr 1
  funext a; apply Fin.ext
  have e0 := idx19 t
  match a with
  | ⟨0, _⟩ => show win0_19.index t (0 : Fin 1) * 1024 + 1 * (y 0).val = (y 0).val; omega
/-- Window 20's block at any point is the whole vector. -/
theorem read20 (X : S1024.Idx → Elt Ideal .f32) (t : Fin cfg0.N) :
    ((cfg0.win 20).blk t).view.read (Elt Ideal) X = X := by
  funext y
  show X (((cfg0.win 20).blk t).view.emb y) = X y
  congr 1
  funext a; apply Fin.ext
  have e0 := idx20 t
  match a with
  | ⟨0, _⟩ => show win0_20.index t (0 : Fin 1) * 1024 + 1 * (y 0).val = (y 0).val; omega
/-- Window 21's block at any point is the whole vector. -/
theorem read21 (X : S1024.Idx → Elt Ideal .f32) (t : Fin cfg0.N) :
    ((cfg0.win 21).blk t).view.read (Elt Ideal) X = X := by
  funext y
  show X (((cfg0.win 21).blk t).view.emb y) = X y
  congr 1
  funext a; apply Fin.ext
  have e0 := idx21 t
  match a with
  | ⟨0, _⟩ => show win0_21.index t (0 : Fin 1) * 1024 + 1 * (y 0).val = (y 0).val; omega
/-- Result window 22's block at point `t` sits at rows `t·128 …` of its array. -/
theorem emb22 (t : Fin cfg0.N) (y : S128x1024.Idx) :
    ((cfg0.win 22).blk t).view.emb y = (ix2 ⟨win0_22.index t (0 : Fin 2) * 128 + (y 0).val, by have := q_lt t; have := idx2_lt0 y; omega⟩ (y 1)) := by
  funext a; apply Fin.ext
  obtain ⟨e0, e1⟩ := idx22 t
  match a with
  | ⟨0, _⟩ => show win0_22.index t (0 : Fin 2) * 128 + 1 * (y 0).val = win0_22.index t (0 : Fin 2) * 128 + (y 0).val; omega
  | ⟨1, _⟩ => show win0_22.index t (1 : Fin 2) * 1024 + 1 * (y 1).val = (y 1).val; omega
/-- Result window 23's block at point `t` sits at rows `t·128 …` of its array. -/
theorem emb23 (t : Fin cfg0.N) (y : S128x1024.Idx) :
    ((cfg0.win 23).blk t).view.emb y = (ix2 ⟨win0_22.index t (0 : Fin 2) * 128 + (y 0).val, by have := q_lt t; have := idx2_lt0 y; omega⟩ (y 1)) := by
  funext a; apply Fin.ext
  obtain ⟨e0, e1⟩ := idx23 t
  match a with
  | ⟨0, _⟩ => show win0_23.index t (0 : Fin 2) * 128 + 1 * (y 0).val = win0_22.index t (0 : Fin 2) * 128 + (y 0).val; omega
  | ⟨1, _⟩ => show win0_23.index t (1 : Fin 2) * 1024 + 1 * (y 1).val = (y 1).val; omega
/-- Result window 24's block at point `t` sits at rows `t·128 …` of its array. -/
theorem emb24 (t : Fin cfg0.N) (y : S128x1024.Idx) :
    ((cfg0.win 24).blk t).view.emb y = (ix2 ⟨win0_22.index t (0 : Fin 2) * 128 + (y 0).val, by have := q_lt t; have := idx2_lt0 y; omega⟩ (y 1)) := by
  funext a; apply Fin.ext
  obtain ⟨e0, e1⟩ := idx24 t
  match a with
  | ⟨0, _⟩ => show win0_24.index t (0 : Fin 2) * 128 + 1 * (y 0).val = win0_22.index t (0 : Fin 2) * 128 + (y 0).val; omega
  | ⟨1, _⟩ => show win0_24.index t (1 : Fin 2) * 1024 + 1 * (y 1).val = (y 1).val; omega
/-- Result window 25's block at point `t` sits at rows `t·128 …` of its array. -/
theorem emb25 (t : Fin cfg0.N) (y : S128x1024.Idx) :
    ((cfg0.win 25).blk t).view.emb y = (ix2 ⟨win0_22.index t (0 : Fin 2) * 128 + (y 0).val, by have := q_lt t; have := idx2_lt0 y; omega⟩ (y 1)) := by
  funext a; apply Fin.ext
  obtain ⟨e0, e1⟩ := idx25 t
  match a with
  | ⟨0, _⟩ => show win0_25.index t (0 : Fin 2) * 128 + 1 * (y 0).val = win0_22.index t (0 : Fin 2) * 128 + (y 0).val; omega
  | ⟨1, _⟩ => show win0_25.index t (1 : Fin 2) * 1024 + 1 * (y 1).val = (y 1).val; omega

/-! ## The operands as the call finds them -/

/-- The 22 operand arrays of the call on core `c`, as they are when the call is entered. -/
def entry : Operands 16384 :=
  ⟨V m c main_call0_v0, V m c main_call0_v1, V m c main_call0_v2, V m c main_call0_v3, V m c main_call0_v4, V m c main_call0_v5,
   V m c main_call0_v7, V m c main_call0_v9, V m c main_call0_v11, V m c main_call0_v13,
   V m c main_call0_v15, V m c main_call0_v17, V m c main_call0_v19, V m c main_call0_v21,
   V m c main_arg7, V m c main_arg9, V m c main_arg11, V m c main_arg13, V m c main_arg15, V m c main_arg17, V m c main_arg19, V m c main_arg21⟩

theorem iblk0 (t : Fin cfg0.N) : iblk m c 0 t = ((entry m c).rows (win0_22.index t (0 : Fin 2)) (q_lt t)).z := by
  funext y
  unfold iblk
  exact read0 _ t y
theorem iblk1 (t : Fin cfg0.N) : iblk m c 1 t = ((entry m c).rows (win0_22.index t (0 : Fin 2)) (q_lt t)).h := by
  funext y
  unfold iblk
  exact read1 _ t y
theorem iblk2 (t : Fin cfg0.N) : iblk m c 2 t = ((entry m c).rows (win0_22.index t (0 : Fin 2)) (q_lt t)).c := by
  funext y
  unfold iblk
  exact read2 _ t y
theorem iblk3 (t : Fin cfg0.N) : iblk m c 3 t = ((entry m c).rows (win0_22.index t (0 : Fin 2)) (q_lt t)).m := by
  funext y
  unfold iblk
  exact read3 _ t y
theorem iblk4 (t : Fin cfg0.N) : iblk m c 4 t = ((entry m c).rows (win0_22.index t (0 : Fin 2)) (q_lt t)).n := by
  funext y
  unfold iblk
  exact read4 _ t y
theorem iblk5 (t : Fin cfg0.N) : iblk m c 5 t = ((entry m c).rows (win0_22.index t (0 : Fin 2)) (q_lt t)).msk := by
  funext y
  unfold iblk
  exact read5 _ t y
theorem iblk6 (t : Fin cfg0.N) : iblk m c 6 t = ((entry m c).rows (win0_22.index t (0 : Fin 2)) (q_lt t)).wi := by
  unfold iblk
  exact read6 _ t
theorem iblk7 (t : Fin cfg0.N) : iblk m c 7 t = ((entry m c).rows (win0_22.index t (0 : Fin 2)) (q_lt t)).wf := by
  unfold iblk
  exact read7 _ t
theorem iblk8 (t : Fin cfg0.N) : iblk m c 8 t = ((entry m c).rows (win0_22.index t (0 : Fin 2)) (q_lt t)).wo := by
  unfold iblk
  exact read8 _ t
theorem iblk9 (t : Fin cfg0.N) : iblk m c 9 t = ((entry m c).rows (win0_22.index t (0 : Fin 2)) (q_lt t)).wg := by
  unfold iblk
  exact read9 _ t
theorem iblk10 (t : Fin cfg0.N) : iblk m c 10 t = ((entry m c).rows (win0_22.index t (0 : Fin 2)) (q_lt t)).ri := by
  unfold iblk
  exact read10 _ t
theorem iblk11 (t : Fin cfg0.N) : iblk m c 11 t = ((entry m c).rows (win0_22.index t (0 : Fin 2)) (q_lt t)).rf := by
  unfold iblk
  exact read11 _ t
theorem iblk12 (t : Fin cfg0.N) : iblk m c 12 t = ((entry m c).rows (win0_22.index t (0 : Fin 2)) (q_lt t)).ro := by
  unfold iblk
  exact read12 _ t
theorem iblk13 (t : Fin cfg0.N) : iblk m c 13 t = ((entry m c).rows (win0_22.index t (0 : Fin 2)) (q_lt t)).rg := by
  unfold iblk
  exact read13 _ t
theorem iblk14 (t : Fin cfg0.N) : iblk m c 14 t = ((entry m c).rows (win0_22.index t (0 : Fin 2)) (q_lt t)).bi := by
  unfold iblk
  exact read14 _ t
theorem iblk15 (t : Fin cfg0.N) : iblk m c 15 t = ((entry m c).rows (win0_22.index t (0 : Fin 2)) (q_lt t)).bf := by
  unfold iblk
  exact read15 _ t
theorem iblk16 (t : Fin cfg0.N) : iblk m c 16 t = ((entry m c).rows (win0_22.index t (0 : Fin 2)) (q_lt t)).bo := by
  unfold iblk
  exact read16 _ t
theorem iblk17 (t : Fin cfg0.N) : iblk m c 17 t = ((entry m c).rows (win0_22.index t (0 : Fin 2)) (q_lt t)).bg := by
  unfold iblk
  exact read17 _ t
theorem iblk18 (t : Fin cfg0.N) : iblk m c 18 t = ((entry m c).rows (win0_22.index t (0 : Fin 2)) (q_lt t)).rbi := by
  unfold iblk
  exact read18 _ t
theorem iblk19 (t : Fin cfg0.N) : iblk m c 19 t = ((entry m c).rows (win0_22.index t (0 : Fin 2)) (q_lt t)).rbf := by
  unfold iblk
  exact read19 _ t
theorem iblk20 (t : Fin cfg0.N) : iblk m c 20 t = ((entry m c).rows (win0_22.index t (0 : Fin 2)) (q_lt t)).rbo := by
  unfold iblk
  exact read20 _ t
theorem iblk21 (t : Fin cfg0.N) : iblk m c 21 t = ((entry m c).rows (win0_22.index t (0 : Fin 2)) (q_lt t)).rbg := by
  unfold iblk
  exact read21 _ t

/-- Point `t`'s loaded blocks are rows `t·128 …` of the operands. -/
theorem blocks_eq (t : Fin cfg0.N) :
    blockOperands (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t) (iblk m c 21 t)
      = (entry m c).rows (win0_22.index t (0 : Fin 2)) (q_lt t) := by
  unfold blockOperands
  rw [iblk0 m c t, iblk1 m c t, iblk2 m c t, iblk3 m c t, iblk4 m c t, iblk5 m c t, iblk6 m c t, iblk7 m c t, iblk8 m c t, iblk9 m c t, iblk10 m c t, iblk11 m c t, iblk12 m c t, iblk13 m c t, iblk14 m c t, iblk15 m c t, iblk16 m c t, iblk17 m c t, iblk18 m c t, iblk19 m c t, iblk20 m c t, iblk21 m c t]

/-! ## What each point writes back, the cover, and the arrays after the call -/

/-- What point `t` writes back into result 0 is block `t` of the step's `cOut` on the whole operands. -/
theorem flushed22_eq (t : Fin cfg0.N) :
    (dats m 0 c).flushed 22 t = ((cfg0.win 22).blk t).view.read (Elt Ideal) (entry m c).cOut := by
  show (cfg0.win 22).cut (grid0.coords t) ((dats m 0 c).after 22 t) = _
  rw [after0_22, out22_eq, blocks_eq m c t]
  funext y
  refine (Operands.rows_cOut (entry m c) _ (q_lt t) y).trans ?_
  exact congrArg (entry m c).cOut (emb22 t y).symm

/-- Every row block of result 0 is some point's. -/
theorem onto22 : ∀ q : Fin 128, ∃ t : Fin cfg0.N, win0_22.index t = ![q.val, 0] :=
  (by decide +kernel : ∀ q : Fin 128, ∃ t : Fin grid0.N, win0_22.index t = ![q.val, 0])

/-- An index of the array is in point `t`'s block iff each coordinate is in the block's range. -/
theorem mem_blk22 (t : Fin cfg0.N) (i : S16384x1024.Idx) :
    i ∈ ((cfg0.win 22).blk t).view.set ↔ ∀ a : Fin 2, win0_22.index t a * S128x1024.size a ≤ (i a).val
      ∧ (i a).val < win0_22.index t a * S128x1024.size a + S128x1024.size a := by
  show i ∈ ((View.whole main_call0_v22_0).slice (win0_22.rect t)).set ↔ _
  rw [View.set_slice_whole, Rect.mem_set_unit]
  exact Iff.rfl

/-- The 128 blocks tile result 0. -/
theorem cover22 (i : S16384x1024.Idx) :
    ∃ t : Fin cfg0.N, (cfg0.win 22).flush t = true ∧ i ∈ ((cfg0.win 22).blk t).view.set := by
  have hi0 : (i 0).val < 16384 := (i 0).isLt
  have hi1 : (i 1).val < 1024 := (i 1).isLt
  obtain ⟨t, ht⟩ := onto22 ⟨(i 0).val / 128, by omega⟩
  have q0 : win0_22.index t (0 : Fin 2) = (i 0).val / 128 := congrFun ht 0
  have q1 : win0_22.index t (1 : Fin 2) = 0 := congrFun ht 1
  refine ⟨t, flush0_22 t, ?_⟩
  rw [mem_blk22]
  intro a
  match a with
  | ⟨0, _⟩ => show win0_22.index t (0 : Fin 2) * 128 ≤ (i 0).val ∧ (i 0).val < win0_22.index t (0 : Fin 2) * 128 + 128; omega
  | ⟨1, _⟩ => show win0_22.index t (1 : Fin 2) * 1024 ≤ (i 1).val ∧ (i 1).val < win0_22.index t (1 : Fin 2) * 1024 + 1024; omega

/-- Result 0's array after the call: the step's `cOut` on the operands as the call found them. -/
theorem final22 : (dats m 0 c).arrAt 22 cfg0.N = (entry m c).cOut :=
  (dats m 0 c).arrAt_eq_of_cover 22 _ (fun t _ => flushed22_eq m c t) (cover22)

/-- What point `t` writes back into result 1 is block `t` of the step's `mOut` on the whole operands. -/
theorem flushed23_eq (t : Fin cfg0.N) :
    (dats m 0 c).flushed 23 t = ((cfg0.win 23).blk t).view.read (Elt Ideal) (entry m c).mOut := by
  show (cfg0.win 23).cut (grid0.coords t) ((dats m 0 c).after 23 t) = _
  rw [after0_23, out23_eq, blocks_eq m c t]
  funext y
  refine (Operands.rows_mOut (entry m c) _ (q_lt t) y).trans ?_
  exact congrArg (entry m c).mOut (emb23 t y).symm

/-- Every row block of result 1 is some point's. -/
theorem onto23 : ∀ q : Fin 128, ∃ t : Fin cfg0.N, win0_23.index t = ![q.val, 0] :=
  (by decide +kernel : ∀ q : Fin 128, ∃ t : Fin grid0.N, win0_23.index t = ![q.val, 0])

/-- An index of the array is in point `t`'s block iff each coordinate is in the block's range. -/
theorem mem_blk23 (t : Fin cfg0.N) (i : S16384x1024.Idx) :
    i ∈ ((cfg0.win 23).blk t).view.set ↔ ∀ a : Fin 2, win0_23.index t a * S128x1024.size a ≤ (i a).val
      ∧ (i a).val < win0_23.index t a * S128x1024.size a + S128x1024.size a := by
  show i ∈ ((View.whole main_call0_v22_1).slice (win0_23.rect t)).set ↔ _
  rw [View.set_slice_whole, Rect.mem_set_unit]
  exact Iff.rfl

/-- The 128 blocks tile result 1. -/
theorem cover23 (i : S16384x1024.Idx) :
    ∃ t : Fin cfg0.N, (cfg0.win 23).flush t = true ∧ i ∈ ((cfg0.win 23).blk t).view.set := by
  have hi0 : (i 0).val < 16384 := (i 0).isLt
  have hi1 : (i 1).val < 1024 := (i 1).isLt
  obtain ⟨t, ht⟩ := onto23 ⟨(i 0).val / 128, by omega⟩
  have q0 : win0_23.index t (0 : Fin 2) = (i 0).val / 128 := congrFun ht 0
  have q1 : win0_23.index t (1 : Fin 2) = 0 := congrFun ht 1
  refine ⟨t, flush0_23 t, ?_⟩
  rw [mem_blk23]
  intro a
  match a with
  | ⟨0, _⟩ => show win0_23.index t (0 : Fin 2) * 128 ≤ (i 0).val ∧ (i 0).val < win0_23.index t (0 : Fin 2) * 128 + 128; omega
  | ⟨1, _⟩ => show win0_23.index t (1 : Fin 2) * 1024 ≤ (i 1).val ∧ (i 1).val < win0_23.index t (1 : Fin 2) * 1024 + 1024; omega

/-- Result 1's array after the call: the step's `mOut` on the operands as the call found them. -/
theorem final23 : (dats m 0 c).arrAt 23 cfg0.N = (entry m c).mOut :=
  (dats m 0 c).arrAt_eq_of_cover 23 _ (fun t _ => flushed23_eq m c t) (cover23)

/-- What point `t` writes back into result 2 is block `t` of the step's `hOut` on the whole operands. -/
theorem flushed24_eq (t : Fin cfg0.N) :
    (dats m 0 c).flushed 24 t = ((cfg0.win 24).blk t).view.read (Elt Ideal) (entry m c).hOut := by
  show (cfg0.win 24).cut (grid0.coords t) ((dats m 0 c).after 24 t) = _
  rw [after0_24, out24_eq, blocks_eq m c t]
  funext y
  refine (Operands.rows_hOut (entry m c) _ (q_lt t) y).trans ?_
  exact congrArg (entry m c).hOut (emb24 t y).symm

/-- Every row block of result 2 is some point's. -/
theorem onto24 : ∀ q : Fin 128, ∃ t : Fin cfg0.N, win0_24.index t = ![q.val, 0] :=
  (by decide +kernel : ∀ q : Fin 128, ∃ t : Fin grid0.N, win0_24.index t = ![q.val, 0])

/-- An index of the array is in point `t`'s block iff each coordinate is in the block's range. -/
theorem mem_blk24 (t : Fin cfg0.N) (i : S16384x1024.Idx) :
    i ∈ ((cfg0.win 24).blk t).view.set ↔ ∀ a : Fin 2, win0_24.index t a * S128x1024.size a ≤ (i a).val
      ∧ (i a).val < win0_24.index t a * S128x1024.size a + S128x1024.size a := by
  show i ∈ ((View.whole main_call0_v22_2).slice (win0_24.rect t)).set ↔ _
  rw [View.set_slice_whole, Rect.mem_set_unit]
  exact Iff.rfl

/-- The 128 blocks tile result 2. -/
theorem cover24 (i : S16384x1024.Idx) :
    ∃ t : Fin cfg0.N, (cfg0.win 24).flush t = true ∧ i ∈ ((cfg0.win 24).blk t).view.set := by
  have hi0 : (i 0).val < 16384 := (i 0).isLt
  have hi1 : (i 1).val < 1024 := (i 1).isLt
  obtain ⟨t, ht⟩ := onto24 ⟨(i 0).val / 128, by omega⟩
  have q0 : win0_24.index t (0 : Fin 2) = (i 0).val / 128 := congrFun ht 0
  have q1 : win0_24.index t (1 : Fin 2) = 0 := congrFun ht 1
  refine ⟨t, flush0_24 t, ?_⟩
  rw [mem_blk24]
  intro a
  match a with
  | ⟨0, _⟩ => show win0_24.index t (0 : Fin 2) * 128 ≤ (i 0).val ∧ (i 0).val < win0_24.index t (0 : Fin 2) * 128 + 128; omega
  | ⟨1, _⟩ => show win0_24.index t (1 : Fin 2) * 1024 ≤ (i 1).val ∧ (i 1).val < win0_24.index t (1 : Fin 2) * 1024 + 1024; omega

/-- Result 2's array after the call: the step's `hOut` on the operands as the call found them. -/
theorem final24 : (dats m 0 c).arrAt 24 cfg0.N = (entry m c).hOut :=
  (dats m 0 c).arrAt_eq_of_cover 24 _ (fun t _ => flushed24_eq m c t) (cover24)

/-- What point `t` writes back into result 3 is block `t` of the step's `nOut` on the whole operands. -/
theorem flushed25_eq (t : Fin cfg0.N) :
    (dats m 0 c).flushed 25 t = ((cfg0.win 25).blk t).view.read (Elt Ideal) (entry m c).nOut := by
  show (cfg0.win 25).cut (grid0.coords t) ((dats m 0 c).after 25 t) = _
  rw [after0_25, out25_eq, blocks_eq m c t]
  funext y
  refine (Operands.rows_nOut (entry m c) _ (q_lt t) y).trans ?_
  exact congrArg (entry m c).nOut (emb25 t y).symm

/-- Every row block of result 3 is some point's. -/
theorem onto25 : ∀ q : Fin 128, ∃ t : Fin cfg0.N, win0_25.index t = ![q.val, 0] :=
  (by decide +kernel : ∀ q : Fin 128, ∃ t : Fin grid0.N, win0_25.index t = ![q.val, 0])

/-- An index of the array is in point `t`'s block iff each coordinate is in the block's range. -/
theorem mem_blk25 (t : Fin cfg0.N) (i : S16384x1024.Idx) :
    i ∈ ((cfg0.win 25).blk t).view.set ↔ ∀ a : Fin 2, win0_25.index t a * S128x1024.size a ≤ (i a).val
      ∧ (i a).val < win0_25.index t a * S128x1024.size a + S128x1024.size a := by
  show i ∈ ((View.whole main_call0_v22_3).slice (win0_25.rect t)).set ↔ _
  rw [View.set_slice_whole, Rect.mem_set_unit]
  exact Iff.rfl

/-- The 128 blocks tile result 3. -/
theorem cover25 (i : S16384x1024.Idx) :
    ∃ t : Fin cfg0.N, (cfg0.win 25).flush t = true ∧ i ∈ ((cfg0.win 25).blk t).view.set := by
  have hi0 : (i 0).val < 16384 := (i 0).isLt
  have hi1 : (i 1).val < 1024 := (i 1).isLt
  obtain ⟨t, ht⟩ := onto25 ⟨(i 0).val / 128, by omega⟩
  have q0 : win0_25.index t (0 : Fin 2) = (i 0).val / 128 := congrFun ht 0
  have q1 : win0_25.index t (1 : Fin 2) = 0 := congrFun ht 1
  refine ⟨t, flush0_25 t, ?_⟩
  rw [mem_blk25]
  intro a
  match a with
  | ⟨0, _⟩ => show win0_25.index t (0 : Fin 2) * 128 ≤ (i 0).val ∧ (i 0).val < win0_25.index t (0 : Fin 2) * 128 + 128; omega
  | ⟨1, _⟩ => show win0_25.index t (1 : Fin 2) * 1024 ≤ (i 1).val ∧ (i 1).val < win0_25.index t (1 : Fin 2) * 1024 + 1024; omega

/-- Result 3's array after the call: the step's `nOut` on the operands as the call found them. -/
theorem final25 : (dats m 0 c).arrAt 25 cfg0.N = (entry m c).nOut :=
  (dats m 0 c).arrAt_eq_of_cover 25 _ (fun t _ => flushed25_eq m c t) (cover25)

end Cert.KernelIdeal.CellValue

end
-- ==== Proof.KernelHost.lean ====
/-
  The kernel's program around its one call, and the kernel's four results as functions of the arguments.

  Before the call the program reshapes the input, the four state arrays and the mask from `[256, 64, N]` to
  `[16384, N]` (row `a·64 + b` is row `b` of sequence `a`), and transposes each of the eight weight matrices and
  narrows it to the 16-bit format (the identity at the exact values); the biases go in as they are. So the
  operands the call finds are the batch's operands laid out as one matrix (`Args.flat`). After the call the four
  result matrices are reshaped back to `[256, 64, 1024]`. With the call's results the recurrent step on the
  operands it found (KernelBlocks), the program's four results are the step in its batch form on the arguments.
-/
import proofs.«114323_j25366076850664_1_alg».proof.Proof.Gen.KernelIdeal.Frame
import proofs.«114323_j25366076850664_1_alg».proof.Proof.KernelBlocks
import proofs.«114323_j25366076850664_1_alg».proof.Proof.CellLayout
import Idealize.ShloMosaic.Lib.Pipeline.Value
import Idealize.ShloMosaic.Lib.ValueIdx
import Idealize.ShloMosaic.Lib.ValueLayout
import Idealize.ShloMosaic.Lib.StableHlo.Run

set_option maxRecDepth 16384

noncomputable section

namespace Cert.KernelIdeal.CellValue

open Cert.KernelIdeal Cert.KernelIdeal.Gen Idealize.ShloMosaic Idealize.ShloMosaic.ValueIdx Cert.Cell
open Idealize.ShloMosaic.TcCoe Idealize.ShloMosaic.Tactic Idealize.SL.Sem
open Idealize.ShloMosaic.Pipeline (Dat Cfg Window)

variable (m : (ℓ : Loc nD τ sig) → Buf (Elt Ideal) ℓ) (c : Dev nD)

/-- The 22 argument arrays on core `c`, as the operands of the step in its batch form. -/
def args : Args :=
  ⟨m ((c : Thread nD τ).loc main_arg0),
   m ((c : Thread nD τ).loc main_arg1),
   m ((c : Thread nD τ).loc main_arg2),
   m ((c : Thread nD τ).loc main_arg3),
   m ((c : Thread nD τ).loc main_arg4),
   m ((c : Thread nD τ).loc main_arg5),
   m ((c : Thread nD τ).loc main_arg6),
   m ((c : Thread nD τ).loc main_arg7),
   m ((c : Thread nD τ).loc main_arg8),
   m ((c : Thread nD τ).loc main_arg9),
   m ((c : Thread nD τ).loc main_arg10),
   m ((c : Thread nD τ).loc main_arg11),
   m ((c : Thread nD τ).loc main_arg12),
   m ((c : Thread nD τ).loc main_arg13),
   m ((c : Thread nD τ).loc main_arg14),
   m ((c : Thread nD τ).loc main_arg15),
   m ((c : Thread nD τ).loc main_arg16),
   m ((c : Thread nD τ).loc main_arg17),
   m ((c : Thread nD τ).loc main_arg18),
   m ((c : Thread nD τ).loc main_arg19),
   m ((c : Thread nD τ).loc main_arg20),
   m ((c : Thread nD τ).loc main_arg21)⟩

/-! ## The operands the call finds -/

/-- Operand 0 of the call is argument 0 reshaped to 16384 rows. -/
theorem V_main_call0_v0 : (V m c main_call0_v0 : S16384x512.Idx → Elt Ideal .f32) = shapeCast S16384x512 (m ((c : Thread nD τ).loc main_arg0)) shapeCasts_S256x64x512_S16384x512 := by
  show StableHlo.after hostOps0 (fun b => m (c, b)) (Proc.devRef .tc main_call0_v0) = _
  after_results
  rfl
/-- Operand 1 of the call is argument 3 reshaped to 16384 rows. -/
theorem V_main_call0_v1 : (V m c main_call0_v1 : S16384x1024.Idx → Elt Ideal .f32) = shapeCast S16384x1024 (m ((c : Thread nD τ).loc main_arg3)) shapeCasts_S256x64x1024_S16384x1024 := by
  show StableHlo.after hostOps0 (fun b => m (c, b)) (Proc.devRef .tc main_call0_v1) = _
  after_results
  rfl
/-- Operand 2 of the call is argument 1 reshaped to 16384 rows. -/
theorem V_main_call0_v2 : (V m c main_call0_v2 : S16384x1024.Idx → Elt Ideal .f32) = shapeCast S16384x1024 (m ((c : Thread nD τ).loc main_arg1)) shapeCasts_S256x64x1024_S16384x1024 := by
  show StableHlo.after hostOps0 (fun b => m (c, b)) (Proc.devRef .tc main_call0_v2) = _
  after_results
  rfl
/-- Operand 3 of the call is argument 2 reshaped to 16384 rows. -/
theorem V_main_call0_v3 : (V m c main_call0_v3 : S16384x1024.Idx → Elt Ideal .f32) = shapeCast S16384x1024 (m ((c : Thread nD τ).loc main_arg2)) shapeCasts_S256x64x1024_S16384x1024 := by
  show StableHlo.after hostOps0 (fun b => m (c, b)) (Proc.devRef .tc main_call0_v3) = _
  after_results
  rfl
/-- Operand 4 of the call is argument 4 reshaped to 16384 rows. -/
theorem V_main_call0_v4 : (V m c main_call0_v4 : S16384x1024.Idx → Elt Ideal .f32) = shapeCast S16384x1024 (m ((c : Thread nD τ).loc main_arg4)) shapeCasts_S256x64x1024_S16384x1024 := by
  show StableHlo.after hostOps0 (fun b => m (c, b)) (Proc.devRef .tc main_call0_v4) = _
  after_results
  rfl
/-- Operand 5 of the call is argument 5 reshaped to 16384 rows. -/
theorem V_main_call0_v5 : (V m c main_call0_v5 : S16384x1.Idx → Elt Ideal .f32) = shapeCast S16384x1 (m ((c : Thread nD τ).loc main_arg5)) shapeCasts_S256x64x1_S16384x1 := by
  show StableHlo.after hostOps0 (fun b => m (c, b)) (Proc.devRef .tc main_call0_v5) = _
  after_results
  rfl
/-- Operand 6 of the call is argument 6 transposed, narrowed to the 16-bit format. -/
theorem V_main_call0_v7 : (V m c main_call0_v7 : S1024x1024.Idx → Elt Ideal .bf16)
    = (truncf (F := Ideal) .bf16 (transpose S1024x1024 [1, 0] (m ((c : Thread nD τ).loc main_arg6)) transposes_S1024x1024_S1024x1024_1_0) bitsLt_bf16_f32 : S1024x1024.Idx → Elt Ideal .bf16) := by
  show StableHlo.after hostOps0 (fun b => m (c, b)) (Proc.devRef .tc main_call0_v7) = _
  after_results
  rfl
/-- Operand 7 of the call is argument 8 transposed, narrowed to the 16-bit format. -/
theorem V_main_call0_v9 : (V m c main_call0_v9 : S1024x1024.Idx → Elt Ideal .bf16)
    = (truncf (F := Ideal) .bf16 (transpose S1024x1024 [1, 0] (m ((c : Thread nD τ).loc main_arg8)) transposes_S1024x1024_S1024x1024_1_0) bitsLt_bf16_f32 : S1024x1024.Idx → Elt Ideal .bf16) := by
  show StableHlo.after hostOps0 (fun b => m (c, b)) (Proc.devRef .tc main_call0_v9) = _
  after_results
  rfl
/-- Operand 8 of the call is argument 10 transposed, narrowed to the 16-bit format. -/
theorem V_main_call0_v11 : (V m c main_call0_v11 : S1024x1024.Idx → Elt Ideal .bf16)
    = (truncf (F := Ideal) .bf16 (transpose S1024x1024 [1, 0] (m ((c : Thread nD τ).loc main_arg10)) transposes_S1024x1024_S1024x1024_1_0) bitsLt_bf16_f32 : S1024x1024.Idx → Elt Ideal .bf16) := by
  show StableHlo.after hostOps0 (fun b => m (c, b)) (Proc.devRef .tc main_call0_v11) = _
  after_results
  rfl
/-- Operand 9 of the call is argument 12 transposed, narrowed to the 16-bit format. -/
theorem V_main_call0_v13 : (V m c main_call0_v13 : S1024x1024.Idx → Elt Ideal .bf16)
    = (truncf (F := Ideal) .bf16 (transpose S1024x1024 [1, 0] (m ((c : Thread nD τ).loc main_arg12)) transposes_S1024x1024_S1024x1024_1_0) bitsLt_bf16_f32 : S1024x1024.Idx → Elt Ideal .bf16) := by
  show StableHlo.after hostOps0 (fun b => m (c, b)) (Proc.devRef .tc main_call0_v13) = _
  after_results
  rfl
/-- Operand 10 of the call is argument 14 transposed, narrowed to the 16-bit format. -/
theorem V_main_call0_v15 : (V m c main_call0_v15 : S512x1024.Idx → Elt Ideal .bf16)
    = (truncf (F := Ideal) .bf16 (transpose S512x1024 [1, 0] (m ((c : Thread nD τ).loc main_arg14)) transposes_S1024x512_S512x1024_1_0) bitsLt_bf16_f32 : S512x1024.Idx → Elt Ideal .bf16) := by
  show StableHlo.after hostOps0 (fun b => m (c, b)) (Proc.devRef .tc main_call0_v15) = _
  after_results
  rfl
/-- Operand 11 of the call is argument 16 transposed, narrowed to the 16-bit format. -/
theorem V_main_call0_v17 : (V m c main_call0_v17 : S512x1024.Idx → Elt Ideal .bf16)
    = (truncf (F := Ideal) .bf16 (transpose S512x1024 [1, 0] (m ((c : Thread nD τ).loc main_arg16)) transposes_S1024x512_S512x1024_1_0) bitsLt_bf16_f32 : S512x1024.Idx → Elt Ideal .bf16) := by
  show StableHlo.after hostOps0 (fun b => m (c, b)) (Proc.devRef .tc main_call0_v17) = _
  after_results
  rfl
/-- Operand 12 of the call is argument 18 transposed, narrowed to the 16-bit format. -/
theorem V_main_call0_v19 : (V m c main_call0_v19 : S512x1024.Idx → Elt Ideal .bf16)
    = (truncf (F := Ideal) .bf16 (transpose S512x1024 [1, 0] (m ((c : Thread nD τ).loc main_arg18)) transposes_S1024x512_S512x1024_1_0) bitsLt_bf16_f32 : S512x1024.Idx → Elt Ideal .bf16) := by
  show StableHlo.after hostOps0 (fun b => m (c, b)) (Proc.devRef .tc main_call0_v19) = _
  after_results
  rfl
/-- Operand 13 of the call is argument 20 transposed, narrowed to the 16-bit format. -/
theorem V_main_call0_v21 : (V m c main_call0_v21 : S512x1024.Idx → Elt Ideal .bf16)
    = (truncf (F := Ideal) .bf16 (transpose S512x1024 [1, 0] (m ((c : Thread nD τ).loc main_arg20)) transposes_S1024x512_S512x1024_1_0) bitsLt_bf16_f32 : S512x1024.Idx → Elt Ideal .bf16) := by
  show StableHlo.after hostOps0 (fun b => m (c, b)) (Proc.devRef .tc main_call0_v21) = _
  after_results
  rfl

/-- The operands the call finds are the arguments laid out as one matrix of 16384 rows, the weights transposed. -/
theorem entry_eq : entry m c = (args m c).flat := by
  have e0 : (V m c main_call0_v0 : S16384x512.Idx → Elt Ideal .f32) = (args m c).flat.z := by
    rw [V_main_call0_v0]
    funext j
    exact flatten_apply _ _ j
  have e1 : (V m c main_call0_v1 : S16384x1024.Idx → Elt Ideal .f32) = (args m c).flat.h := by
    rw [V_main_call0_v1]
    funext j
    exact flatten_apply _ _ j
  have e2 : (V m c main_call0_v2 : S16384x1024.Idx → Elt Ideal .f32) = (args m c).flat.c := by
    rw [V_main_call0_v2]
    funext j
    exact flatten_apply _ _ j
  have e3 : (V m c main_call0_v3 : S16384x1024.Idx → Elt Ideal .f32) = (args m c).flat.m := by
    rw [V_main_call0_v3]
    funext j
    exact flatten_apply _ _ j
  have e4 : (V m c main_call0_v4 : S16384x1024.Idx → Elt Ideal .f32) = (args m c).flat.n := by
    rw [V_main_call0_v4]
    funext j
    exact flatten_apply _ _ j
  have e5 : (V m c main_call0_v5 : S16384x1.Idx → Elt Ideal .f32) = (args m c).flat.msk := by
    rw [V_main_call0_v5]
    funext j
    exact flatten_apply _ _ j
  have e6 : (V m c main_call0_v7 : S1024x1024.Idx → Elt Ideal .bf16) = (args m c).flat.wi := by
    rw [V_main_call0_v7]
    funext j
    obtain ⟨k, f, rfl⟩ : ∃ (k : Fin 1024) (f : Fin 1024), j = ix2 k f := ⟨j 0, j 1, eq_ix2 j⟩
    exact transpose_ix2_apply (m ((c : Thread nD τ).loc main_arg6)) _ k f
  have e7 : (V m c main_call0_v9 : S1024x1024.Idx → Elt Ideal .bf16) = (args m c).flat.wf := by
    rw [V_main_call0_v9]
    funext j
    obtain ⟨k, f, rfl⟩ : ∃ (k : Fin 1024) (f : Fin 1024), j = ix2 k f := ⟨j 0, j 1, eq_ix2 j⟩
    exact transpose_ix2_apply (m ((c : Thread nD τ).loc main_arg8)) _ k f
  have e8 : (V m c main_call0_v11 : S1024x1024.Idx → Elt Ideal .bf16) = (args m c).flat.wo := by
    rw [V_main_call0_v11]
    funext j
    obtain ⟨k, f, rfl⟩ : ∃ (k : Fin 1024) (f : Fin 1024), j = ix2 k f := ⟨j 0, j 1, eq_ix2 j⟩
    exact transpose_ix2_apply (m ((c : Thread nD τ).loc main_arg10)) _ k f
  have e9 : (V m c main_call0_v13 : S1024x1024.Idx → Elt Ideal .bf16) = (args m c).flat.wg := by
    rw [V_main_call0_v13]
    funext j
    obtain ⟨k, f, rfl⟩ : ∃ (k : Fin 1024) (f : Fin 1024), j = ix2 k f := ⟨j 0, j 1, eq_ix2 j⟩
    exact transpose_ix2_apply (m ((c : Thread nD τ).loc main_arg12)) _ k f
  have e10 : (V m c main_call0_v15 : S512x1024.Idx → Elt Ideal .bf16) = (args m c).flat.ri := by
    rw [V_main_call0_v15]
    funext j
    obtain ⟨k, f, rfl⟩ : ∃ (k : Fin 512) (f : Fin 1024), j = ix2 k f := ⟨j 0, j 1, eq_ix2 j⟩
    exact transpose_ix2_apply (m ((c : Thread nD τ).loc main_arg14)) _ k f
  have e11 : (V m c main_call0_v17 : S512x1024.Idx → Elt Ideal .bf16) = (args m c).flat.rf := by
    rw [V_main_call0_v17]
    funext j
    obtain ⟨k, f, rfl⟩ : ∃ (k : Fin 512) (f : Fin 1024), j = ix2 k f := ⟨j 0, j 1, eq_ix2 j⟩
    exact transpose_ix2_apply (m ((c : Thread nD τ).loc main_arg16)) _ k f
  have e12 : (V m c main_call0_v19 : S512x1024.Idx → Elt Ideal .bf16) = (args m c).flat.ro := by
    rw [V_main_call0_v19]
    funext j
    obtain ⟨k, f, rfl⟩ : ∃ (k : Fin 512) (f : Fin 1024), j = ix2 k f := ⟨j 0, j 1, eq_ix2 j⟩
    exact transpose_ix2_apply (m ((c : Thread nD τ).loc main_arg18)) _ k f
  have e13 : (V m c main_call0_v21 : S512x1024.Idx → Elt Ideal .bf16) = (args m c).flat.rg := by
    rw [V_main_call0_v21]
    funext j
    obtain ⟨k, f, rfl⟩ : ∃ (k : Fin 512) (f : Fin 1024), j = ix2 k f := ⟨j 0, j 1, eq_ix2 j⟩
    exact transpose_ix2_apply (m ((c : Thread nD τ).loc main_arg20)) _ k f
  have e14 : (V m c main_arg7 : S1024.Idx → Elt Ideal .f32) = (args m c).flat.bi := V_main_arg7 m c
  have e15 : (V m c main_arg9 : S1024.Idx → Elt Ideal .f32) = (args m c).flat.bf := V_main_arg9 m c
  have e16 : (V m c main_arg11 : S1024.Idx → Elt Ideal .f32) = (args m c).flat.bo := V_main_arg11 m c
  have e17 : (V m c main_arg13 : S1024.Idx → Elt Ideal .f32) = (args m c).flat.bg := V_main_arg13 m c
  have e18 : (V m c main_arg15 : S1024.Idx → Elt Ideal .f32) = (args m c).flat.rbi := V_main_arg15 m c
  have e19 : (V m c main_arg17 : S1024.Idx → Elt Ideal .f32) = (args m c).flat.rbf := V_main_arg17 m c
  have e20 : (V m c main_arg19 : S1024.Idx → Elt Ideal .f32) = (args m c).flat.rbo := V_main_arg19 m c
  have e21 : (V m c main_arg21 : S1024.Idx → Elt Ideal .f32) = (args m c).flat.rbg := V_main_arg21 m c
  unfold entry
  rw [e0, e1, e2, e3, e4, e5, e6, e7, e8, e9, e10, e11, e12, e13, e14, e15, e16, e17, e18, e19, e20, e21]

/-! ## The program's results -/

/-- Result 0 of the program: the call's result 0 reshaped to the batch, which is the batch form's `cOut` of the arguments. -/
theorem result0 : (Pipeline.afterTail₀ cfgs (dats m) 0 (V0 m) [hostOps1] c main_v0_0 : S256x64x1024.Idx → Elt Ideal .f32) = (args m c).cOut := by
  have e : Pipeline.withArrays spec0 c (V0 m c) (fun w => (dats m 0 c).arrAt w cfg0.N) (Proc.devRef .tc (Pipeline.arrRef spec0 22))
      = (entry m c).cOut := (Pipeline.withArrays_arr spec0 launch0.win.arr_inj c _ _ 22).trans (final22 m c)
  have h : (Pipeline.afterTail₀ cfgs (dats m) 0 (V0 m) [hostOps1] c main_v0_0 : S256x64x1024.Idx → Elt Ideal .f32)
      = shapeCast S256x64x1024 (entry m c).cOut shapeCasts_S16384x1024_S256x64x1024 := by
    unfold Pipeline.afterTail₀
    show StableHlo.after hostOps1 _ (Proc.devRef .tc main_v0_0) = _
    after_results
    exact congrArg (fun X => shapeCast S256x64x1024 X shapeCasts_S16384x1024_S256x64x1024) e
  rw [h, entry_eq]
  exact Args.unflatten_cOut (args m c) _

/-- Result 1 of the program: the call's result 1 reshaped to the batch, which is the batch form's `mOut` of the arguments. -/
theorem result1 : (Pipeline.afterTail₀ cfgs (dats m) 0 (V0 m) [hostOps1] c main_v0_1 : S256x64x1024.Idx → Elt Ideal .f32) = (args m c).mOut := by
  have e : Pipeline.withArrays spec0 c (V0 m c) (fun w => (dats m 0 c).arrAt w cfg0.N) (Proc.devRef .tc (Pipeline.arrRef spec0 23))
      = (entry m c).mOut := (Pipeline.withArrays_arr spec0 launch0.win.arr_inj c _ _ 23).trans (final23 m c)
  have h : (Pipeline.afterTail₀ cfgs (dats m) 0 (V0 m) [hostOps1] c main_v0_1 : S256x64x1024.Idx → Elt Ideal .f32)
      = shapeCast S256x64x1024 (entry m c).mOut shapeCasts_S16384x1024_S256x64x1024 := by
    unfold Pipeline.afterTail₀
    show StableHlo.after hostOps1 _ (Proc.devRef .tc main_v0_1) = _
    after_results
    exact congrArg (fun X => shapeCast S256x64x1024 X shapeCasts_S16384x1024_S256x64x1024) e
  rw [h, entry_eq]
  exact Args.unflatten_mOut (args m c) _

/-- Result 2 of the program: the call's result 2 reshaped to the batch, which is the batch form's `hOut` of the arguments. -/
theorem result2 : (Pipeline.afterTail₀ cfgs (dats m) 0 (V0 m) [hostOps1] c main_v0_2 : S256x64x1024.Idx → Elt Ideal .f32) = (args m c).hOut := by
  have e : Pipeline.withArrays spec0 c (V0 m c) (fun w => (dats m 0 c).arrAt w cfg0.N) (Proc.devRef .tc (Pipeline.arrRef spec0 24))
      = (entry m c).hOut := (Pipeline.withArrays_arr spec0 launch0.win.arr_inj c _ _ 24).trans (final24 m c)
  have h : (Pipeline.afterTail₀ cfgs (dats m) 0 (V0 m) [hostOps1] c main_v0_2 : S256x64x1024.Idx → Elt Ideal .f32)
      = shapeCast S256x64x1024 (entry m c).hOut shapeCasts_S16384x1024_S256x64x1024 := by
    unfold Pipeline.afterTail₀
    show StableHlo.after hostOps1 _ (Proc.devRef .tc main_v0_2) = _
    after_results
    exact congrArg (fun X => shapeCast S256x64x1024 X shapeCasts_S16384x1024_S256x64x1024) e
  rw [h, entry_eq]
  exact Args.unflatten_hOut (args m c) _

/-- Result 3 of the program: the call's result 3 reshaped to the batch, which is the batch form's `nOut` of the arguments. -/
theorem result3 : (Pipeline.afterTail₀ cfgs (dats m) 0 (V0 m) [hostOps1] c main_v0_3 : S256x64x1024.Idx → Elt Ideal .f32) = (args m c).nOut := by
  have e : Pipeline.withArrays spec0 c (V0 m c) (fun w => (dats m 0 c).arrAt w cfg0.N) (Proc.devRef .tc (Pipeline.arrRef spec0 25))
      = (entry m c).nOut := (Pipeline.withArrays_arr spec0 launch0.win.arr_inj c _ _ 25).trans (final25 m c)
  have h : (Pipeline.afterTail₀ cfgs (dats m) 0 (V0 m) [hostOps1] c main_v0_3 : S256x64x1024.Idx → Elt Ideal .f32)
      = shapeCast S256x64x1024 (entry m c).nOut shapeCasts_S16384x1024_S256x64x1024 := by
    unfold Pipeline.afterTail₀
    show StableHlo.after hostOps1 _ (Proc.devRef .tc main_v0_3) = _
    after_results
    exact congrArg (fun X => shapeCast S256x64x1024 X shapeCasts_S16384x1024_S256x64x1024) e
  rw [h, entry_eq]
  exact Args.unflatten_nOut (args m c) _

/-! ## The run -/

set_option maxHeartbeats 1600000 in
/-- Every weakly fair execution of the program terminates with its four results the batch form of the step on
    the arguments, and the arguments as they were: an argument that is only reshaped or transposed is written by
    no line of the program, and a bias, which the call reads in place, is an input of the call, which leaves its
    inputs as it found them. -/
theorem run (ρ : Dev nD → PrngReg) :
    θ_run defs (onTc (τ := τ) (main (F := Ideal))) ⟨m, fun _ => 0, ρ⟩ (fun r => ∀ c : Dev nD,
      r.2.mem ((c.tc : Thread nD τ).loc main_v0_0) = (args m c).cOut
      ∧ r.2.mem ((c.tc : Thread nD τ).loc main_v0_1) = (args m c).mOut
      ∧ r.2.mem ((c.tc : Thread nD τ).loc main_v0_2) = (args m c).hOut
      ∧ r.2.mem ((c.tc : Thread nD τ).loc main_v0_3) = (args m c).nOut
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21)) :=
  (θ_run defs _ _).mono (fun r h c => ⟨
      ((h c).2 main_v0_0 (Pipeline.mem_restRefs_of main_v0_0 (by decide) (by decide))).trans (result0 m c),
      ((h c).2 main_v0_1 (Pipeline.mem_restRefs_of main_v0_1 (by decide) (by decide))).trans (result1 m c),
      ((h c).2 main_v0_2 (Pipeline.mem_restRefs_of main_v0_2 (by decide) (by decide))).trans (result2 m c),
      ((h c).2 main_v0_3 (Pipeline.mem_restRefs_of main_v0_3 (by decide) (by decide))).trans (result3 m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c),
      ((h c).2 main_arg4 (Pipeline.mem_restRefs_of main_arg4 (by decide) (by decide))).trans (W_main_arg4 m (dats m) c),
      ((h c).2 main_arg5 (Pipeline.mem_restRefs_of main_arg5 (by decide) (by decide))).trans (W_main_arg5 m (dats m) c),
      ((h c).2 main_arg6 (Pipeline.mem_restRefs_of main_arg6 (by decide) (by decide))).trans (W_main_arg6 m (dats m) c),
      ((h c).1 14).trans (((dats m 0 c).arrAt_in 14 rfl _).trans ((A_eq m c 14).trans (V_main_arg7 m c))),
      ((h c).2 main_arg8 (Pipeline.mem_restRefs_of main_arg8 (by decide) (by decide))).trans (W_main_arg8 m (dats m) c),
      ((h c).1 15).trans (((dats m 0 c).arrAt_in 15 rfl _).trans ((A_eq m c 15).trans (V_main_arg9 m c))),
      ((h c).2 main_arg10 (Pipeline.mem_restRefs_of main_arg10 (by decide) (by decide))).trans (W_main_arg10 m (dats m) c),
      ((h c).1 16).trans (((dats m 0 c).arrAt_in 16 rfl _).trans ((A_eq m c 16).trans (V_main_arg11 m c))),
      ((h c).2 main_arg12 (Pipeline.mem_restRefs_of main_arg12 (by decide) (by decide))).trans (W_main_arg12 m (dats m) c),
      ((h c).1 17).trans (((dats m 0 c).arrAt_in 17 rfl _).trans ((A_eq m c 17).trans (V_main_arg13 m c))),
      ((h c).2 main_arg14 (Pipeline.mem_restRefs_of main_arg14 (by decide) (by decide))).trans (W_main_arg14 m (dats m) c),
      ((h c).1 18).trans (((dats m 0 c).arrAt_in 18 rfl _).trans ((A_eq m c 18).trans (V_main_arg15 m c))),
      ((h c).2 main_arg16 (Pipeline.mem_restRefs_of main_arg16 (by decide) (by decide))).trans (W_main_arg16 m (dats m) c),
      ((h c).1 19).trans (((dats m 0 c).arrAt_in 19 rfl _).trans ((A_eq m c 19).trans (V_main_arg17 m c))),
      ((h c).2 main_arg18 (Pipeline.mem_restRefs_of main_arg18 (by decide) (by decide))).trans (W_main_arg18 m (dats m) c),
      ((h c).1 20).trans (((dats m 0 c).arrAt_in 20 rfl _).trans ((A_eq m c 20).trans (V_main_arg19 m c))),
      ((h c).2 main_arg20 (Pipeline.mem_restRefs_of main_arg20 (by decide) (by decide))).trans (W_main_arg20 m (dats m) c),
      ((h c).1 21).trans (((dats m 0 c).arrAt_in 21 rfl _).trans ((A_eq m c 21).trans (V_main_arg21 m c)))⟩)
    (run_main m ρ)

end Cert.KernelIdeal.CellValue

end
-- ==== Proof.ReferenceValue.lean ====
/-
  What the reference computes, entry by entry.

  The reference takes the step on the batch directly: each gate's pre-activation contracts the last axis of the
  hidden state (and of the input) with the second axis of a weight matrix, adds the bias along the last axis, and
  the rest is entrywise, with the mask repeated along the last axis and the sigmoid spelt as `1 / (1 + exp (-x))`.
  Read at entry `(a, b, f)` its four results are the four results of the recurrent step in its batch form
  (CellSpec, `Args`).
-/
import proofs.«114323_j25366076850664_1_alg».proof.Proof.Gen.ReferenceIdeal.Read
import proofs.«114323_j25366076850664_1_alg».proof.Proof.CellSpec
import Idealize.ShloMosaic.Lib.ValueIdx

noncomputable section

open scoped BigOperators

namespace Cert.ReferenceIdeal.CellValue

open Cert.ReferenceIdeal Cert.ReferenceIdeal.Gen Cert.ReferenceIdeal.Read Idealize.ShloMosaic Idealize.ShloMosaic.ValueIdx Cert.Cell

/-! ## The pieces that are not entrywise -/

/-- One gate's pre-activation as the reference spells it, at `(a, b, f)`: the two contractions are sums over the
    contracted coordinate, the weight matrices read output axis first, and each bias contributes its entry `f`. -/
theorem gate_apply (z : Vec Ideal S256x64x512 .f32) (h : Vec Ideal S256x64x1024 .f32) (w : Vec Ideal S1024x1024 .f32)
    (b' : Vec Ideal S1024 .f32) (r : Vec Ideal S1024x512 .f32) (rb : Vec Ideal S1024 .f32) (a : Fin 256) (b : Fin 64) (f : Fin 1024) :
    val_main_v8 (F := Ideal) z h w b' r rb (ix3 a b f)
      = pre (∑ k : Fin 1024, h (ix3 a b k) * w (ix2 f k)) (b' (ix1 f)) (∑ k : Fin 512, z (ix3 a b k) * r (ix2 f k)) (rb (ix1 f)) := by
  rw [val_main_v8_apply, val_main_v3_apply, val_main_v7_apply, val_main_v0_apply, val_main_v2_apply, val_main_v1_apply,
    val_main_v4_apply, val_main_v6_apply, val_main_v5_apply]
  have e1 : ∀ k : Fin 1024, lidx_main_v0 (ix3 a b f) k = ix3 a b k := fun k => funext fun d => by
    match d with | ⟨0, _⟩ => rfl | ⟨1, _⟩ => rfl | ⟨2, _⟩ => rfl
  have e2 : ∀ k : Fin 1024, ridx_main_v0 (ix3 a b f) k = ix2 f k := fun k => funext fun d => by
    match d with | ⟨0, _⟩ => rfl | ⟨1, _⟩ => rfl
  have e3 : ∀ k : Fin 512, lidx_main_v4 (ix3 a b f) k = ix3 a b k := fun k => funext fun d => by
    match d with | ⟨0, _⟩ => rfl | ⟨1, _⟩ => rfl | ⟨2, _⟩ => rfl
  have e4 : ∀ k : Fin 512, ridx_main_v4 (ix3 a b f) k = ix2 f k := fun k => funext fun d => by
    match d with | ⟨0, _⟩ => rfl | ⟨1, _⟩ => rfl
  have e5 : idx_main_v1 (idx_main_v2 (ix3 a b f)) = ix1 f := funext fun d => by match d with | ⟨0, _⟩ => rfl
  have e6 : idx_main_v5 (idx_main_v6 (ix3 a b f)) = ix1 f := funext fun d => by match d with | ⟨0, _⟩ => rfl
  simp only [e1, e2, e3, e4, e5, e6]
  rfl

/-- The mask repeated along the last axis reads, at `(a, b, f)`, the mask of row `(a, b)`. -/
theorem mask_apply (x5 : Vec Ideal S256x64x1 .f32) (a : Fin 256) (b : Fin 64) (f : Fin 1024) :
    val_main_v55 (F := Ideal) x5 (ix3 a b f) = x5 (ix3 a b (0 : Fin 1)) := by
  rw [val_main_v55_apply]
  congr 1
  funext d
  match d with | ⟨0, _⟩ => rfl | ⟨1, _⟩ => rfl | ⟨2, _⟩ => rfl

/-- One minus the mask, repeated along the last axis, at `(a, b, f)`. -/
theorem unmask_apply (x5 : Vec Ideal S256x64x1 .f32) (a : Fin 256) (b : Fin 64) (f : Fin 1024) :
    val_main_v59 (F := Ideal) x5 (ix3 a b f) = one - x5 (ix3 a b (0 : Fin 1)) := by
  rw [val_main_v59_apply, val_main_v58_apply, val_main_v57_apply, val_main_cst_1_apply]
  have e : idx_main_v59 (ix3 a b f) = ix3 a b (0 : Fin 1) := funext fun d => by
    match d with | ⟨0, _⟩ => rfl | ⟨1, _⟩ => rfl | ⟨2, _⟩ => rfl
  rw [e]
  rfl

/-- The sigmoid of the output gate's pre-activation, spelt as a quotient, is the logistic function of it. -/
theorem sigmoid_apply (A : Args) (i : S256x64x1024.Idx) :
    val_main_v48 (F := Ideal) A.z A.h A.wo A.bo A.ro A.rbo i = Ideal.logistic (val_main_v26 (F := Ideal) A.z A.h A.wo A.bo A.ro A.rbo i) := by
  rw [val_main_v48_apply, val_main_v47_apply, val_main_cst_0_apply, val_main_v46_apply, val_main_v45_apply, val_main_cst_apply,
    val_main_v44_apply, val_main_v43_apply]
  exact logistic_spelt _

/-! ## The four gates and the four results -/

variable (A : Args) (a : Fin 256) (b : Fin 64) (f : Fin 1024)

theorem gi_apply : val_main_v8 (F := Ideal) A.z A.h A.wi A.bi A.ri A.rbi (ix3 a b f) = A.gi a b f := gate_apply A.z A.h A.wi A.bi A.ri A.rbi a b f
theorem gf_apply : val_main_v17 (F := Ideal) A.z A.h A.wf A.bf A.rf A.rbf (ix3 a b f) = A.gf a b f := gate_apply A.z A.h A.wf A.bf A.rf A.rbf a b f
theorem go_apply : val_main_v26 (F := Ideal) A.z A.h A.wo A.bo A.ro A.rbo (ix3 a b f) = A.go a b f := gate_apply A.z A.h A.wo A.bo A.ro A.rbo a b f
theorem gg_apply : val_main_v35 (F := Ideal) A.z A.h A.wg A.bg A.rg A.rbg (ix3 a b f) = A.gg a b f := gate_apply A.z A.h A.wg A.bg A.rg A.rbg a b f

/-- The reference's new stabiliser. -/
theorem mOut_apply : val_main_v37 (F := Ideal) A.z A.m A.h A.wi A.bi A.wf A.bf A.ri A.rbi A.rf A.rbf (ix3 a b f) = A.mOut (ix3 a b f) := by
  have h0 : val_main_v37 (F := Ideal) A.z A.m A.h A.wi A.bi A.wf A.bf A.ri A.rbi A.rf A.rbf (ix3 a b f) = mNew (val_main_v8 (F := Ideal) A.z A.h A.wi A.bi A.ri A.rbi (ix3 a b f)) (val_main_v17 (F := Ideal) A.z A.h A.wf A.bf A.rf A.rbf (ix3 a b f)) (A.m (ix3 a b f)) := rfl
  rw [h0, gi_apply, gf_apply]
  rfl

/-- The reference's new normaliser. -/
theorem nOut_apply : val_main_v50 (F := Ideal) A.z A.m A.h A.n A.wi A.bi A.wf A.bf A.ri A.rbi A.rf A.rbf (ix3 a b f) = A.nOut (ix3 a b f) := by
  have h0 : val_main_v50 (F := Ideal) A.z A.m A.h A.n A.wi A.bi A.wf A.bf A.ri A.rbi A.rf A.rbf (ix3 a b f) = nNew (val_main_v8 (F := Ideal) A.z A.h A.wi A.bi A.ri A.rbi (ix3 a b f)) (val_main_v17 (F := Ideal) A.z A.h A.wf A.bf A.rf A.rbf (ix3 a b f)) (A.m (ix3 a b f)) (A.n (ix3 a b f)) := rfl
  rw [h0, gi_apply, gf_apply]
  rfl

/-- The reference's new cell state. -/
theorem cOut_apply : val_main_v61 (F := Ideal) A.z A.c A.m A.h A.msk A.wi A.bi A.wf A.bf A.wg A.bg A.ri A.rbi A.rf A.rbf A.rg A.rbg (ix3 a b f) = A.cOut (ix3 a b f) := by
  have h0 : val_main_v61 (F := Ideal) A.z A.c A.m A.h A.msk A.wi A.bi A.wf A.bf A.wg A.bg A.ri A.rbi A.rf A.rbf A.rg A.rbg (ix3 a b f)
      = (A.c (ix3 a b f) * fGate (val_main_v8 (F := Ideal) A.z A.h A.wi A.bi A.ri A.rbi (ix3 a b f)) (val_main_v17 (F := Ideal) A.z A.h A.wf A.bf A.rf A.rbf (ix3 a b f)) (A.m (ix3 a b f)) + Ideal.tanh (val_main_v35 (F := Ideal) A.z A.h A.wg A.bg A.rg A.rbg (ix3 a b f)) * iGate (val_main_v8 (F := Ideal) A.z A.h A.wi A.bi A.ri A.rbi (ix3 a b f)) (val_main_v17 (F := Ideal) A.z A.h A.wf A.bf A.rf A.rbf (ix3 a b f)) (A.m (ix3 a b f)))
          * val_main_v55 (F := Ideal) A.msk (ix3 a b f) + val_main_v59 (F := Ideal) A.msk (ix3 a b f) * A.c (ix3 a b f) := rfl
  rw [h0, mask_apply, unmask_apply, gi_apply, gf_apply, gg_apply]
  rfl

/-- The reference's new hidden state. -/
theorem hOut_apply : val_main_v70 (F := Ideal) A.z A.c A.m A.h A.n A.msk A.wi A.bi A.wf A.bf A.wo A.bo A.wg A.bg A.ri A.rbi A.rf A.rbf A.ro A.rbo A.rg A.rbg (ix3 a b f) = A.hOut (ix3 a b f) := by
  have h0 : val_main_v70 (F := Ideal) A.z A.c A.m A.h A.n A.msk A.wi A.bi A.wf A.bf A.wo A.bo A.wg A.bg A.ri A.rbi A.rf A.rbf A.ro A.rbo A.rg A.rbg (ix3 a b f)
      = val_main_v48 (F := Ideal) A.z A.h A.wo A.bo A.ro A.rbo (ix3 a b f) * Ideal.div (val_main_v61 (F := Ideal) A.z A.c A.m A.h A.msk A.wi A.bi A.wf A.bf A.wg A.bg A.ri A.rbi A.rf A.rbf A.rg A.rbg (ix3 a b f)) (val_main_v50 (F := Ideal) A.z A.m A.h A.n A.wi A.bi A.wf A.bf A.ri A.rbi A.rf A.rbf (ix3 a b f)) * val_main_v55 (F := Ideal) A.msk (ix3 a b f)
          + val_main_v59 (F := Ideal) A.msk (ix3 a b f) * A.h (ix3 a b f) := rfl
  rw [h0, sigmoid_apply, cOut_apply, nOut_apply, mask_apply, unmask_apply, go_apply]
  rfl

/-- The four results as whole arrays. -/
theorem cOut_eq : val_main_v61 (F := Ideal) A.z A.c A.m A.h A.msk A.wi A.bi A.wf A.bf A.wg A.bg A.ri A.rbi A.rf A.rbf A.rg A.rbg = A.cOut := funext fun i => by
  obtain ⟨a, b, f, rfl⟩ : ∃ (a : Fin 256) (b : Fin 64) (f : Fin 1024), i = ix3 a b f := ⟨i 0, i 1, i 2, eq_ix3 i⟩
  exact cOut_apply A a b f
theorem mOut_eq : val_main_v37 (F := Ideal) A.z A.m A.h A.wi A.bi A.wf A.bf A.ri A.rbi A.rf A.rbf = A.mOut := funext fun i => by
  obtain ⟨a, b, f, rfl⟩ : ∃ (a : Fin 256) (b : Fin 64) (f : Fin 1024), i = ix3 a b f := ⟨i 0, i 1, i 2, eq_ix3 i⟩
  exact mOut_apply A a b f
theorem hOut_eq : val_main_v70 (F := Ideal) A.z A.c A.m A.h A.n A.msk A.wi A.bi A.wf A.bf A.wo A.bo A.wg A.bg A.ri A.rbi A.rf A.rbf A.ro A.rbo A.rg A.rbg = A.hOut := funext fun i => by
  obtain ⟨a, b, f, rfl⟩ : ∃ (a : Fin 256) (b : Fin 64) (f : Fin 1024), i = ix3 a b f := ⟨i 0, i 1, i 2, eq_ix3 i⟩
  exact hOut_apply A a b f
theorem nOut_eq : val_main_v50 (F := Ideal) A.z A.m A.h A.n A.wi A.bi A.wf A.bf A.ri A.rbi A.rf A.rbf = A.nOut := funext fun i => by
  obtain ⟨a, b, f, rfl⟩ : ∃ (a : Fin 256) (b : Fin 64) (f : Fin 1024), i = ix3 a b f := ⟨i 0, i 1, i 2, eq_ix3 i⟩
  exact nOut_apply A a b f

/-! ## The reference's run, read -/

section Run

variable (m : (ℓ : Loc nD τ sig) → Buf (Elt Ideal) ℓ) (c : Dev nD)

/-- The 22 argument arrays on core `c`, as the operands of the step in its batch form. -/
def args : Args :=
  ⟨m ((c.tc : Thread nD τ).loc main_arg0),
   m ((c.tc : Thread nD τ).loc main_arg1),
   m ((c.tc : Thread nD τ).loc main_arg2),
   m ((c.tc : Thread nD τ).loc main_arg3),
   m ((c.tc : Thread nD τ).loc main_arg4),
   m ((c.tc : Thread nD τ).loc main_arg5),
   m ((c.tc : Thread nD τ).loc main_arg6),
   m ((c.tc : Thread nD τ).loc main_arg7),
   m ((c.tc : Thread nD τ).loc main_arg8),
   m ((c.tc : Thread nD τ).loc main_arg9),
   m ((c.tc : Thread nD τ).loc main_arg10),
   m ((c.tc : Thread nD τ).loc main_arg11),
   m ((c.tc : Thread nD τ).loc main_arg12),
   m ((c.tc : Thread nD τ).loc main_arg13),
   m ((c.tc : Thread nD τ).loc main_arg14),
   m ((c.tc : Thread nD τ).loc main_arg15),
   m ((c.tc : Thread nD τ).loc main_arg16),
   m ((c.tc : Thread nD τ).loc main_arg17),
   m ((c.tc : Thread nD τ).loc main_arg18),
   m ((c.tc : Thread nD τ).loc main_arg19),
   m ((c.tc : Thread nD τ).loc main_arg20),
   m ((c.tc : Thread nD τ).loc main_arg21)⟩

/-- The run's first result is the new cell state. -/
theorem res_cOut : Cert.ReferenceIdeal.Value.res_main_v61 m c = (args m c).cOut :=
  (val_main_v61_eq m c).trans (cOut_eq (args m c))

/-- The run's third result is the new hidden state. -/
theorem res_hOut : Cert.ReferenceIdeal.Value.res_main_v70 m c = (args m c).hOut :=
  (val_main_v70_eq m c).trans (hOut_eq (args m c))

/-- The run's fourth result is the new normaliser. -/
theorem res_nOut : Cert.ReferenceIdeal.Value.res_main_v50 m c = (args m c).nOut :=
  (val_main_v50_eq m c).trans (nOut_eq (args m c))

end Run

end Cert.ReferenceIdeal.CellValue

end
-- ==== Proof.lean ====
/-
  One step of a recurrent cell with exponential gates and a running-maximum stabiliser, as a tiled kernel and as
  plain array code: the two compute the same four arrays over the extended reals.

  The step (CellSpec): each of four gates gets a pre-activation, a row of the hidden state against a weight matrix
  plus a bias, plus a row of the input against a second weight matrix plus a second bias; the new stabiliser is
  `m' = max (f + m) i`, the gates are `i' = exp (i - m')`, `f' = exp (f + m - m')`, the new normaliser `n' = f' n + i'`,
  the new cell state `c' = (c f' + tanh g · i') · mask + (1 - mask) · c` and the new hidden state
  `h' = sigmoid o · (c' / n') · mask + (1 - mask) · h`.

  The kernel flattens the batch of 256 sequences of 64 rows to 16384 rows, transposes the weight matrices and narrows
  them (and the loaded activations) to a 16-bit format, and works on 128 rows per grid point: eight matrix products
  into zero accumulators, the biases repeated down the rows, the mask repeated across the columns, the rest entrywise.
  At the exact values narrowing is the identity, a matrix product is the sum over the contracted coordinate whichever
  way the matrix is laid out, and the sigmoid is `1 / (1 + exp (-x))` however it is spelt; the 128 blocks tile the
  result arrays, and the two reshapes are row-major on both sides. So, entry by entry, the kernel's four results
  (KernelPayload, KernelBlocks, KernelHost) and the reference's (ReferenceValue) are the step's. No law used here needs
  the inputs to be finite: sums are only reindexed, never distributed over.

  The three frame claims are the generated frames (the reference's is its generated run with the results dropped),
  and the idealized kernel is the kernel's own text read at the exact values (nothing was rewritten).
-/
import proofs.«114323_j25366076850664_1_alg».proof.Defs
import proofs.«114323_j25366076850664_1_alg».proof.Proof.Gen.Kernel
import proofs.«114323_j25366076850664_1_alg».proof.Proof.Gen.Kernel.Skeleton
import proofs.«114323_j25366076850664_1_alg».proof.Proof.Gen.Kernel.Launch
import proofs.«114323_j25366076850664_1_alg».proof.Proof.Gen.Kernel.Points
import proofs.«114323_j25366076850664_1_alg».proof.Proof.Gen.Kernel.Frame
import proofs.«114323_j25366076850664_1_alg».proof.Proof.Gen.KernelIdeal
import proofs.«114323_j25366076850664_1_alg».proof.Proof.Gen.KernelIdeal.Skeleton
import proofs.«114323_j25366076850664_1_alg».proof.Proof.Gen.KernelIdeal.Launch
import proofs.«114323_j25366076850664_1_alg».proof.Proof.Gen.KernelIdeal.Points
import proofs.«114323_j25366076850664_1_alg».proof.Proof.Gen.KernelIdeal.Frame
import proofs.«114323_j25366076850664_1_alg».proof.Proof.Gen.ReferenceIdeal
import proofs.«114323_j25366076850664_1_alg».proof.Proof.Gen.ReferenceIdeal.Run
import proofs.«114323_j25366076850664_1_alg».proof.Proof.Gen.ReferenceIdeal.Read
import proofs.«114323_j25366076850664_1_alg».proof.Proof.Gen.Pre_finite_inputs
import proofs.«114323_j25366076850664_1_alg».proof.Proof.KernelHost
import proofs.«114323_j25366076850664_1_alg».proof.Proof.ReferenceValue
import Idealize.ShloMosaic.Adequacy
import Idealize.ShloMosaic.Init

noncomputable section

namespace Cert.Proof

open Idealize.ShloMosaic Idealize.SL.Sem Cert.Cell

theorem frame_k : Cert.frame_Kernel := fun m ρ _ => Cert.Kernel.Gen.frame m ρ

theorem frame_ki : Cert.frame_KernelIdeal := fun m ρ _ => Cert.KernelIdeal.Gen.frame m ρ

/-- The reference's frame is its run with the four results dropped. -/
theorem frame_ri : Cert.frame_ReferenceIdeal := fun m ρ _ =>
  (θ_run Cert.ReferenceIdeal.defs _ _).mono (fun _ h c => (h c).2.2.2.2) (Cert.ReferenceIdeal.Value.run (F := Ideal) m ρ)

/-- The ideal pass rewrote no operation of the kernel. -/
theorem preserves : Cert.preserves_Kernel_KernelIdeal := trivial

/-- Both programs end with the step's four results on the same arguments. -/
theorem algebraic : Cert.algebraic_KernelIdeal_ReferenceIdeal := by
  intro m ρ m' ρ' _ hagree
  refine ⟨fun c => (Cert.KernelIdeal.CellValue.args m c).cOut, fun c => (Cert.KernelIdeal.CellValue.args m c).mOut,
    fun c => (Cert.KernelIdeal.CellValue.args m c).hOut, fun c => (Cert.KernelIdeal.CellValue.args m c).nOut,
    Cert.KernelIdeal.CellValue.run m ρ, ?_⟩
  refine (θ_run Cert.ReferenceIdeal.defs _ _).mono (fun r h c => ?_) (Cert.ReferenceIdeal.Value.run (F := Ideal) m' ρ')
  obtain ⟨r0, r1, r2, r3, hk⟩ := h c
  have ea : Cert.ReferenceIdeal.CellValue.args m' c = Cert.KernelIdeal.CellValue.args m c := by
    obtain ⟨h0, h1, h2, h3, h4, h5, h6, h7, h8, h9, h10, h11, h12, h13, h14, h15, h16, h17, h18, h19, h20, h21⟩ := hagree c
    unfold Cert.ReferenceIdeal.CellValue.args Cert.KernelIdeal.CellValue.args
    rw [h0, h1, h2, h3, h4, h5, h6, h7, h8, h9, h10, h11, h12, h13, h14, h15, h16, h17, h18, h19, h20, h21]
  refine ⟨?_, ?_, ?_, ?_, hk⟩
  · rw [r0, Cert.ReferenceIdeal.CellValue.res_cOut, ea]
  · exact (r1.trans (Cert.ReferenceIdeal.CellValue.mOut_eq (Cert.ReferenceIdeal.CellValue.args m' c))).trans (congrArg Args.mOut ea)
  · rw [r2, Cert.ReferenceIdeal.CellValue.res_hOut, ea]
  · rw [r3, Cert.ReferenceIdeal.CellValue.res_nOut, ea]

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
